-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v157)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v157) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v178) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x160 : Shape := ⟨2, ![50000, 160]⟩
abbrev S2x500000 : Shape := ⟨2, ![2, 500000]⟩
abbrev S500000 : Shape := ⟨1, ![500000]⟩
abbrev S50000 : Shape := ⟨1, ![50000]⟩
abbrev S3x160x128 : Shape := ⟨3, ![3, 160, 128]⟩
abbrev S128 : Shape := ⟨1, ![128]⟩
abbrev S3x128x64 : Shape := ⟨3, ![3, 128, 64]⟩
abbrev S64 : Shape := ⟨1, ![64]⟩
abbrev S3x64x32 : Shape := ⟨3, ![3, 64, 32]⟩
abbrev S32 : Shape := ⟨1, ![32]⟩
abbrev S32x2 : Shape := ⟨2, ![32, 2]⟩
abbrev S2 : Shape := ⟨1, ![2]⟩
abbrev S_ : Shape := ⟨0, ![]⟩

class Facts : Prop where
  bcast_S_S50000x160 : S_.BroadcastsInDim S50000x160 (![] : Fin 0 → Fin S50000x160.rank)
  reducesTo_S50000x160_S_d0_1 : S50000x160.ReducesTo [0, 1] S_
  h_S_ : 0 < S_.numel
  bcast_S_S500000 : S_.BroadcastsInDim S500000 (![] : Fin 0 → Fin S500000.rank)
  reducesTo_S500000_S_d0 : S500000.ReducesTo [0] S_
  bcast_S_S3x160x128 : S_.BroadcastsInDim S3x160x128 (![] : Fin 0 → Fin S3x160x128.rank)
  reducesTo_S3x160x128_S_d0_1_2 : S3x160x128.ReducesTo [0, 1, 2] S_
  bcast_S_S128 : S_.BroadcastsInDim S128 (![] : Fin 0 → Fin S128.rank)
  reducesTo_S128_S_d0 : S128.ReducesTo [0] S_
  bcast_S_S3x128x64 : S_.BroadcastsInDim S3x128x64 (![] : Fin 0 → Fin S3x128x64.rank)
  reducesTo_S3x128x64_S_d0_1_2 : S3x128x64.ReducesTo [0, 1, 2] S_
  bcast_S_S64 : S_.BroadcastsInDim S64 (![] : Fin 0 → Fin S64.rank)
  reducesTo_S64_S_d0 : S64.ReducesTo [0] S_
  bcast_S_S3x64x32 : S_.BroadcastsInDim S3x64x32 (![] : Fin 0 → Fin S3x64x32.rank)
  reducesTo_S3x64x32_S_d0_1_2 : S3x64x32.ReducesTo [0, 1, 2] S_
  bcast_S_S32 : S_.BroadcastsInDim S32 (![] : Fin 0 → Fin S32.rank)
  reducesTo_S32_S_d0 : S32.ReducesTo [0] S_
  bcast_S_S32x2 : S_.BroadcastsInDim S32x2 (![] : Fin 0 → Fin S32x2.rank)
  reducesTo_S32x2_S_d0_1 : S32x2.ReducesTo [0, 1] S_
  bcast_S_S2 : S_.BroadcastsInDim S2 (![] : Fin 0 → Fin S2.rank)
  reducesTo_S2_S_d0 : S2.ReducesTo [0] S_

variable [Facts]

def fn_part2 {F : FTy → Type} [FloatOps F] (main_arg9 : FVec F S32 .f32) (main_arg10 : FVec F S32x2 .f32) (main_arg11 : FVec F S2 .f32) (main_v33 : IVec S_ 1) : IVec S_ 1 :=
  let main_v34 : FVec F S32 .f32 := Host.absf main_arg9
  let main_cst_12 : FVec F S_ .f32 := constant S_ .f32 0x7F800000#32
  let main_v35 : FVec F S32 .f32 := broadcastInDim S32 ![] bcast_S_S32 main_cst_12
  let main_v36 : IVec S32 1 := cmpf .olt main_v34 main_v35
  let main_c_13 : IVec S_ 1 := constantI S_ 1 1#1
  let main_v37 : IVec S_ 1 := (fun x v => Host.reduce IntOp.andi x v reducesTo_S32_S_d0 h_S_) main_v36 main_c_13
  let main_v38 : IVec S_ 1 := andi main_v33 main_v37
  let main_v39 : FVec F S32x2 .f32 := Host.absf main_arg10
  let main_cst_14 : FVec F S_ .f32 := constant S_ .f32 0x7F800000#32
  let main_v40 : FVec F S32x2 .f32 := broadcastInDim S32x2 ![] bcast_S_S32x2 main_cst_14
  let main_v41 : IVec S32x2 1 := cmpf .olt main_v39 main_v40
  let main_c_15 : IVec S_ 1 := constantI S_ 1 1#1
  let main_v42 : IVec S_ 1 := (fun x v => Host.reduce IntOp.andi x v reducesTo_S32x2_S_d0_1 h_S_) main_v41 main_c_15
  let main_v43 : IVec S_ 1 := andi main_v38 main_v42
  let main_v44 : FVec F S2 .f32 := Host.absf main_arg11
  let main_cst_16 : FVec F S_ .f32 := constant S_ .f32 0x7F800000#32
  let main_v45 : FVec F S2 .f32 := broadcastInDim S2 ![] bcast_S_S2 main_cst_16
  let main_v46 : IVec S2 1 := cmpf .olt main_v44 main_v45
  let main_c_17 : IVec S_ 1 := constantI S_ 1 1#1
  let main_v47 : IVec S_ 1 := (fun x v => Host.reduce IntOp.andi x v reducesTo_S2_S_d0 h_S_) main_v46 main_c_17
  let main_v48 : IVec S_ 1 := andi main_v43 main_v47
  main_v48

def fn_part1 {F : FTy → Type} [FloatOps F] (main_arg6 : FVec F S3x128x64 .f32) (main_arg7 : FVec F S64 .f32) (main_arg8 : FVec F S3x64x32 .f32) (main_arg9 : FVec F S32 .f32) (main_arg10 : FVec F S32x2 .f32) (main_arg11 : FVec F S2 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S3x128x64 .f32 := Host.absf main_arg6
  let main_cst_6 : FVec F S_ .f32 := constant S_ .f32 0x7F800000#32
  let main_v20 : FVec F S3x128x64 .f32 := broadcastInDim S3x128x64 ![] bcast_S_S3x128x64 main_cst_6
  let main_v21 : IVec S3x128x64 1 := cmpf .olt main_v19 main_v20
  let main_c_7 : IVec S_ 1 := constantI S_ 1 1#1
  let main_v22 : IVec S_ 1 := (fun x v => Host.reduce IntOp.andi x v reducesTo_S3x128x64_S_d0_1_2 h_S_) main_v21 main_c_7
  let main_v23 : IVec S_ 1 := andi main_v18 main_v22
  let main_v24 : FVec F S64 .f32 := Host.absf main_arg7
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S3x64x32 .f32 := Host.absf main_arg8
  let main_cst_10 : FVec F S_ .f32 := constant S_ .f32 0x7F800000#32
  let main_v30 : FVec F S3x64x32 .f32 := broadcastInDim S3x64x32 ![] bcast_S_S3x64x32 main_cst_10
  let main_v31 : IVec S3x64x32 1 := cmpf .olt main_v29 main_v30
  let main_c_11 : IVec S_ 1 := constantI S_ 1 1#1
  let main_v32 : IVec S_ 1 := (fun x v => Host.reduce IntOp.andi x v reducesTo_S3x64x32_S_d0_1_2 h_S_) main_v31 main_c_11
  let main_v33 : IVec S_ 1 := andi main_v28 main_v32
  fn_part2 (F := F) main_arg9 main_arg10 main_arg11 main_v33

def fn {F : FTy → Type} [FloatOps F] (main_arg0 : FVec F S50000x160 .f32) (main_arg1 : IVec S2x500000 32) (main_arg2 : FVec F S500000 .f32) (main_arg3 : IVec S50000 32) (main_arg4 : FVec F S3x160x128 .f32) (main_arg5 : FVec F S128 .f32) (main_arg6 : FVec F S3x128x64 .f32) (main_arg7 : FVec F S64 .f32) (main_arg8 : FVec F S3x64x32 .f32) (main_arg9 : FVec F S32 .f32) (main_arg10 : FVec F S32x2 .f32) (main_arg11 : FVec F S2 .f32) : IVec S_ 1 :=
  let main_v0 : FVec F S50000x160 .f32 := Host.absf main_arg0
  let main_cst : FVec F S_ .f32 := constant S_ .f32 0x7F800000#32
  let main_v1 : FVec F S50000x160 .f32 := broadcastInDim S50000x160 ![] bcast_S_S50000x160 main_cst
  let main_v2 : IVec S50000x160 1 := cmpf .olt main_v0 main_v1
  let main_c : IVec S_ 1 := constantI S_ 1 1#1
  let main_v3 : IVec S_ 1 := (fun x v => Host.reduce IntOp.andi x v reducesTo_S50000x160_S_d0_1 h_S_) main_v2 main_c
  let main_v4 : FVec F S500000 .f32 := Host.absf main_arg2
  let main_cst_0 : FVec F S_ .f32 := constant S_ .f32 0x7F800000#32
  let main_v5 : FVec F S500000 .f32 := broadcastInDim S500000 ![] bcast_S_S500000 main_cst_0
  let main_v6 : IVec S500000 1 := cmpf .olt main_v4 main_v5
  let main_c_1 : IVec S_ 1 := constantI S_ 1 1#1
  let main_v7 : IVec S_ 1 := (fun x v => Host.reduce IntOp.andi x v reducesTo_S500000_S_d0 h_S_) main_v6 main_c_1
  let main_v8 : IVec S_ 1 := andi main_v3 main_v7
  let main_v9 : FVec F S3x160x128 .f32 := Host.absf main_arg4
  let main_cst_2 : FVec F S_ .f32 := constant S_ .f32 0x7F800000#32
  let main_v10 : FVec F S3x160x128 .f32 := broadcastInDim S3x160x128 ![] bcast_S_S3x160x128 main_cst_2
  let main_v11 : IVec S3x160x128 1 := cmpf .olt main_v9 main_v10
  let main_c_3 : IVec S_ 1 := constantI S_ 1 1#1
  let main_v12 : IVec S_ 1 := (fun x v => Host.reduce IntOp.andi x v reducesTo_S3x160x128_S_d0_1_2 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_arg10 main_arg11 main_v13 main_v16
-- ==== Kernel.lean ====
abbrev S50000x160 : Shape := ⟨2, ![50000, 160]⟩
abbrev S2x500000 : Shape := ⟨2, ![2, 500000]⟩
abbrev S500000 : Shape := ⟨1, ![500000]⟩
abbrev S50000 : Shape := ⟨1, ![50000]⟩
abbrev S3x160x128 : Shape := ⟨3, ![3, 160, 128]⟩
abbrev S128 : Shape := ⟨1, ![128]⟩
abbrev S3x128x64 : Shape := ⟨3, ![3, 128, 64]⟩
abbrev S64 : Shape := ⟨1, ![64]⟩
abbrev S3x64x32 : Shape := ⟨3, ![3, 64, 32]⟩
abbrev S32 : Shape := ⟨1, ![32]⟩
abbrev S32x2 : Shape := ⟨2, ![32, 2]⟩
abbrev S2 : Shape := ⟨1, ![2]⟩
abbrev S1x500000 : Shape := ⟨2, ![1, 500000]⟩
abbrev S_ : Shape := ⟨0, ![]⟩
abbrev S500000x1 : Shape := ⟨2, ![500000, 1]⟩
abbrev S500000x160 : Shape := ⟨2, ![500000, 160]⟩
abbrev S1x160x128 : Shape := ⟨3, ![1, 160, 128]⟩
abbrev S160x128 : Shape := ⟨2, ![160, 128]⟩
abbrev S1x128 : Shape := ⟨2, ![1, 128]⟩
abbrev S50000x128 : Shape := ⟨2, ![50000, 128]⟩
abbrev S5000x160 : Shape := ⟨2, ![5000, 160]⟩
abbrev S5000x128 : Shape := ⟨2, ![5000, 128]⟩
abbrev S500000x128 : Shape := ⟨2, ![500000, 128]⟩
abbrev S1x128x64 : Shape := ⟨3, ![1, 128, 64]⟩
abbrev S128x64 : Shape := ⟨2, ![128, 64]⟩
abbrev S1x64 : Shape := ⟨2, ![1, 64]⟩
abbrev S50000x64 : Shape := ⟨2, ![50000, 64]⟩
abbrev S5000x64 : Shape := ⟨2, ![5000, 64]⟩
abbrev S500000x64 : Shape := ⟨2, ![500000, 64]⟩
abbrev S1x64x32 : Shape := ⟨3, ![1, 64, 32]⟩
abbrev S64x32 : Shape := ⟨2, ![64, 32]⟩
abbrev S1x32 : Shape := ⟨2, ![1, 32]⟩
abbrev S50000x32 : Shape := ⟨2, ![50000, 32]⟩
abbrev S5000x32 : Shape := ⟨2, ![5000, 32]⟩
abbrev S128x32 : Shape := ⟨2, ![128, 32]⟩
abbrev S50000x1 : Shape := ⟨2, ![50000, 1]⟩
abbrev S128x1 : Shape := ⟨2, ![128, 1]⟩
abbrev S128x2 : Shape := ⟨2, ![128, 2]⟩
abbrev S1x2 : Shape := ⟨2, ![1, 2]⟩

abbrev nBuf : Space → Nat
  | .hbm => 205
  | .vmem => 36
  | .smem => 0
  | _ => 0

abbrev hbmTy0_0 (i : Nat) : BufTy := match i % 128 with
  | 0 => ⟨S50000x160, .f32⟩
  | 1 => ⟨S2x500000, .i32⟩
  | 2 => ⟨S500000, .f32⟩
  | 3 => ⟨S50000, .i32⟩
  | 4 => ⟨S3x160x128, .f32⟩
  | 5 => ⟨S128, .f32⟩
  | 6 => ⟨S3x128x64, .f32⟩
  | 7 => ⟨S64, .f32⟩
  | 8 => ⟨S3x64x32, .f32⟩
  | 9 => ⟨S32, .f32⟩
  | 10 => ⟨S32x2, .f32⟩
  | 11 => ⟨S2, .f32⟩
  | 12 => ⟨S1x500000, .i32⟩
  | 13 => ⟨S500000, .i32⟩
  | 14 => ⟨S1x500000, .i32⟩
  | 15 => ⟨S500000, .i32⟩
  | 16 => ⟨S_, .f32⟩
  | 17 => ⟨S50000, .f32⟩
  | 18 => ⟨S500000x1, .i32⟩
  | 19 => ⟨S50000, .f32⟩
  | 20 => ⟨S_, .f32⟩
  | 21 => ⟨S50000, .f32⟩
  | 22 => ⟨S50000, .i1⟩
  | 23 => ⟨S_, .f32⟩
  | 24 => ⟨S_, .f32⟩
  | 25 => ⟨S50000, .f32⟩
  | 26 => ⟨S50000, .f32⟩
  | 27 => ⟨S_, .f32⟩
  | 28 => ⟨S50000, .f32⟩
  | 29 => ⟨S50000, .i1⟩
  | 30 => ⟨S50000, .f32⟩
  | 31 => ⟨S_, .f32⟩
  | 32 => ⟨S_, .f32⟩
  | 33 => ⟨S50000, .f32⟩
  | 34 => ⟨S50000, .f32⟩
  | 35 => ⟨S_, .i32⟩
  | 36 => ⟨S500000, .i32⟩
  | 37 => ⟨S500000, .i1⟩
  | 38 => ⟨S_, .i32⟩
  | 39 => ⟨S500000, .i32⟩
  | 40 => ⟨S500000, .i32⟩
  | 41 => ⟨S500000, .i32⟩
  | 42 => ⟨S500000x1, .i32⟩
  | 43 => ⟨S500000, .f32⟩
  | 44 => ⟨S500000, .f32⟩
  | 45 => ⟨S500000, .f32⟩
  | 46 => ⟨S_, .i32⟩
  | 47 => ⟨S500000, .i32⟩
  | 48 => ⟨S500000, .i1⟩
  | 49 => ⟨S_, .i32⟩
  | 50 => ⟨S500000, .i32⟩
  | 51 => ⟨S500000, .i32⟩
  | 52 => ⟨S500000, .i32⟩
  | 53 => ⟨S500000x1, .i32⟩
  | 54 => ⟨S500000, .f32⟩
  | 55 => ⟨S500000, .f32⟩
  | 56 => ⟨S500000x1, .f32⟩
  | 57 => ⟨S_, .i32⟩
  | 58 => ⟨S500000, .i32⟩
  | 59 => ⟨S500000, .i1⟩
  | 60 => ⟨S_, .i32⟩
  | 61 => ⟨S500000, .i32⟩
  | 62 => ⟨S500000, .i32⟩
  | 63 => ⟨S500000, .i32⟩
  | 64 => ⟨S500000x1, .i32⟩
  | 65 => ⟨S500000x160, .f32⟩
  | 66 => ⟨S500000x160, .f32⟩
  | 67 => ⟨S500000x160, .f32⟩
  | 68 => ⟨S_, .f32⟩
  | 69 => ⟨S50000x160, .f32⟩
  | 70 => ⟨S500000x1, .i32⟩
  | 71 => ⟨S50000x160, .f32⟩
  | 72 => ⟨S500000x1, .f32⟩
  | 73 => ⟨S_, .i32⟩
  | 74 => ⟨S500000, .i32⟩
  | 75 => ⟨S500000, .i1⟩
  | 76 => ⟨S_, .i32⟩
  | 77 => ⟨S500000, .i32⟩
  | 78 => ⟨S500000, .i32⟩
  | 79 => ⟨S500000, .i32⟩
  | 80 => ⟨S500000x1, .i32⟩
  | 81 => ⟨S500000x160, .f32⟩
  | 82 => ⟨S500000x160, .f32⟩
  | 83 => ⟨S500000x160, .f32⟩
  | 84 => ⟨S_, .f32⟩
  | 85 => ⟨S50000x160, .f32⟩
  | 86 => ⟨S500000x1, .i32⟩
  | 87 => ⟨S50000x160, .f32⟩
  | 88 => ⟨S1x160x128, .f32⟩
  | 89 => ⟨S160x128, .f32⟩
  | 90 => ⟨S160x128, .bf16⟩
  | 91 => ⟨S1x160x128, .f32⟩
  | 92 => ⟨S160x128, .f32⟩
  | 93 => ⟨S160x128, .bf16⟩
  | 94 => ⟨S1x160x128, .f32⟩
  | 95 => ⟨S160x128, .f32⟩
  | 96 => ⟨S160x128, .bf16⟩
  | 97 => ⟨S1x128, .f32⟩
  | 98 => ⟨S50000x128, .f32⟩
  | 99 => ⟨S500000x1, .f32⟩
  | 100 => ⟨S_, .i32⟩
  | 101 => ⟨S500000, .i32⟩
  | 102 => ⟨S500000, .i1⟩
  | 103 => ⟨S_, .i32⟩
  | 104 => ⟨S500000, .i32⟩
  | 105 => ⟨S500000, .i32⟩
  | 106 => ⟨S500000, .i32⟩
  | 107 => ⟨S500000x1, .i32⟩
  | 108 => ⟨S500000x128, .f32⟩
  | 109 => ⟨S500000x128, .f32⟩
  | 110 => ⟨S500000x128, .f32⟩
  | 111 => ⟨S_, .f32⟩
  | 112 => ⟨S50000x128, .f32⟩
  | 113 => ⟨S500000x1, .i32⟩
  | 114 => ⟨S50000x128, .f32⟩
  | 115 => ⟨S500000x1, .f32⟩
  | 116 => ⟨S_, .i32⟩
  | 117 => ⟨S500000, .i32⟩
  | 118 => ⟨S500000, .i1⟩
  | 119 => ⟨S_, .i32⟩
  | 120 => ⟨S500000, .i32⟩
  | 121 => ⟨S500000, .i32⟩
  | 122 => ⟨S500000, .i32⟩
  | 123 => ⟨S500000x1, .i32⟩
  | 124 => ⟨S500000x128, .f32⟩
  | 125 => ⟨S500000x128, .f32⟩
  | 126 => ⟨S500000x128, .f32⟩
  | 127 => ⟨S_, .f32⟩
  | _ => ⟨S50000x160, .f32⟩

abbrev hbmTy0_1 (i : Nat) : BufTy := match i % 128 with
  | 0 => ⟨S50000x128, .f32⟩
  | 1 => ⟨S500000x1, .i32⟩
  | 2 => ⟨S50000x128, .f32⟩
  | 3 => ⟨S1x128x64, .f32⟩
  | 4 => ⟨S128x64, .f32⟩
  | 5 => ⟨S128x64, .bf16⟩
  | 6 => ⟨S1x128x64, .f32⟩
  | 7 => ⟨S128x64, .f32⟩
  | 8 => ⟨S128x64, .bf16⟩
  | 9 => ⟨S1x128x64, .f32⟩
  | 10 => ⟨S128x64, .f32⟩
  | 11 => ⟨S128x64, .bf16⟩
  | 12 => ⟨S1x64, .f32⟩
  | 13 => ⟨S50000x64, .f32⟩
  | 14 => ⟨S500000x1, .f32⟩
  | 15 => ⟨S_, .i32⟩
  | 16 => ⟨S500000, .i32⟩
  | 17 => ⟨S500000, .i1⟩
  | 18 => ⟨S_, .i32⟩
  | 19 => ⟨S500000, .i32⟩
  | 20 => ⟨S500000, .i32⟩
  | 21 => ⟨S500000, .i32⟩
  | 22 => ⟨S500000x1, .i32⟩
  | 23 => ⟨S500000x64, .f32⟩
  | 24 => ⟨S500000x64, .f32⟩
  | 25 => ⟨S500000x64, .f32⟩
  | 26 => ⟨S_, .f32⟩
  | 27 => ⟨S50000x64, .f32⟩
  | 28 => ⟨S500000x1, .i32⟩
  | 29 => ⟨S50000x64, .f32⟩
  | 30 => ⟨S500000x1, .f32⟩
  | 31 => ⟨S_, .i32⟩
  | 32 => ⟨S500000, .i32⟩
  | 33 => ⟨S500000, .i1⟩
  | 34 => ⟨S_, .i32⟩
  | 35 => ⟨S500000, .i32⟩
  | 36 => ⟨S500000, .i32⟩
  | 37 => ⟨S500000, .i32⟩
  | 38 => ⟨S500000x1, .i32⟩
  | 39 => ⟨S500000x64, .f32⟩
  | 40 => ⟨S500000x64, .f32⟩
  | 41 => ⟨S500000x64, .f32⟩
  | 42 => ⟨S_, .f32⟩
  | 43 => ⟨S50000x64, .f32⟩
  | 44 => ⟨S500000x1, .i32⟩
  | 45 => ⟨S50000x64, .f32⟩
  | 46 => ⟨S1x64x32, .f32⟩
  | 47 => ⟨S64x32, .f32⟩
  | 48 => ⟨S64x32, .bf16⟩
  | 49 => ⟨S1x64x32, .f32⟩
  | 50 => ⟨S64x32, .f32⟩
  | 51 => ⟨S64x32, .bf16⟩
  | 52 => ⟨S1x64x32, .f32⟩
  | 53 => ⟨S64x32, .f32⟩
  | 54 => ⟨S64x32, .bf16⟩
  | 55 => ⟨S1x32, .f32⟩
  | 56 => ⟨S50000x32, .f32⟩
  | 57 => ⟨S_, .f32⟩
  | 58 => ⟨S128x32, .f32⟩
  | 59 => ⟨S50000x1, .i32⟩
  | 60 => ⟨S128x32, .f32⟩
  | 61 => ⟨S_, .f32⟩
  | 62 => ⟨S50000, .f32⟩
  | 63 => ⟨S_, .f32⟩
  | 64 => ⟨S128, .f32⟩
  | 65 => ⟨S50000x1, .i32⟩
  | 66 => ⟨S128, .f32⟩
  | 67 => ⟨S_, .f32⟩
  | 68 => ⟨S128, .f32⟩
  | 69 => ⟨S128, .f32⟩
  | 70 => ⟨S128x1, .f32⟩
  | 71 => ⟨S128x32, .f32⟩
  | 72 => ⟨S128x32, .f32⟩
  | 73 => ⟨S128x2, .f32⟩
  | 74 => ⟨S1x2, .f32⟩
  | 75 => ⟨S128x2, .f32⟩
  | 76 => ⟨S128x2, .f32⟩
  | _ => ⟨S50000x160, .f32⟩

abbrev hbmTy (i : Nat) : BufTy := match i / 128 with
  | 0 => hbmTy0_0 i
  | 1 => hbmTy0_1 i
  | _ => ⟨S50000x160, .f32⟩

abbrev bufTy : (tb : Table) → Fin (tcTables nBuf tb) → BufTy
  | .hbm, ⟨i, _⟩ => hbmTy i
  | .local _ .vmem, ⟨0, _⟩ => ⟨S5000x160, .f32⟩
  | .local _ .vmem, ⟨1, _⟩ => ⟨S5000x160, .f32⟩
  | .local _ .vmem, ⟨2, _⟩ => ⟨S5000x160, .f32⟩
  | .local _ .vmem, ⟨3, _⟩ => ⟨S5000x160, .f32⟩
  | .local _ .vmem, ⟨4, _⟩ => ⟨S5000x160, .f32⟩
  | .local _ .vmem, ⟨5, _⟩ => ⟨S5000x160, .f32⟩
  | .local _ .vmem, ⟨6, _⟩ => ⟨S160x128, .bf16⟩
  | .local _ .vmem, ⟨7, _⟩ => ⟨S160x128, .bf16⟩
  | .local _ .vmem, ⟨8, _⟩ => ⟨S160x128, .bf16⟩
  | .local _ .vmem, ⟨9, _⟩ => ⟨S1x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S128x64, .bf16⟩
  | .local _ .vmem, ⟨19, _⟩ => ⟨S128x64, .bf16⟩
  | .local _ .vmem, ⟨20, _⟩ => ⟨S128x64, .bf16⟩
  | .local _ .vmem, ⟨21, _⟩ => ⟨S1x64, .f32⟩
  | .local _ .vmem, ⟨22, _⟩ => ⟨S5000x64, .f32⟩
  | .local _ .vmem, ⟨23, _⟩ => ⟨S5000x64, .f32⟩
  | .local _ .vmem, ⟨24, _⟩ => ⟨S5000x64, .f32⟩
  | .local _ .vmem, ⟨25, _⟩ => ⟨S5000x64, .f32⟩
  | .local _ .vmem, ⟨26, _⟩ => ⟨S5000x64, .f32⟩
  | .local _ .vmem, ⟨27, _⟩ => ⟨S5000x64, .f32⟩
  | .local _ .vmem, ⟨28, _⟩ => ⟨S5000x64, .f32⟩
  | .local _ .vmem, ⟨29, _⟩ => ⟨S5000x64, .f32⟩
  | .local _ .vmem, ⟨30, _⟩ => ⟨S64x32, .bf16⟩
  | .local _ .vmem, ⟨31, _⟩ => ⟨S64x32, .bf16⟩
  | .local _ .vmem, ⟨32, _⟩ => ⟨S64x32, .bf16⟩
  | .local _ .vmem, ⟨33, _⟩ => ⟨S1x32, .f32⟩
  | .local _ .vmem, ⟨34, _⟩ => ⟨S5000x32, .f32⟩
  | .local _ .vmem, ⟨35, _⟩ => ⟨S5000x32, .f32⟩
  | _, _ => ⟨S50000x160, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst_0 : Ref sig .tc := ⟨.hbm, 20, rfl⟩
abbrev main_v7 : Ref sig .tc := ⟨.hbm, 21, rfl⟩
abbrev main_v8 : Ref sig .tc := ⟨.hbm, 22, rfl⟩
abbrev main_cst_1 : Ref sig .tc := ⟨.hbm, 23, rfl⟩
abbrev main_call0_v0 : Ref sig .tc := ⟨.hbm, 24, rfl⟩
abbrev main_call0_v1 : Ref sig .tc := ⟨.hbm, 25, rfl⟩
abbrev main_v9 : Ref sig .tc := ⟨.hbm, 26, rfl⟩
abbrev main_cst_2 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_cst_3 : Ref sig .tc := ⟨.hbm, 31, rfl⟩
abbrev main_call1_v0 : Ref sig .tc := ⟨.hbm, 32, rfl⟩
abbrev main_call1_v1 : Ref sig .tc := ⟨.hbm, 33, rfl⟩
abbrev main_v13 : Ref sig .tc := ⟨.hbm, 34, rfl⟩
abbrev main_c : Ref sig .tc := ⟨.hbm, 35, rfl⟩
abbrev main_v14 : Ref sig .tc := ⟨.hbm, 36, rfl⟩
abbrev main_v15 : Ref sig .tc := ⟨.hbm, 37, rfl⟩
abbrev main_c_4 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_c_5 : Ref sig .tc := ⟨.hbm, 46, rfl⟩
abbrev main_v23 : Ref sig .tc := ⟨.hbm, 47, rfl⟩
abbrev main_v24 : Ref sig .tc := ⟨.hbm, 48, rfl⟩
abbrev main_c_6 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_c_7 : Ref sig .tc := ⟨.hbm, 57, rfl⟩
abbrev main_v32 : Ref sig .tc := ⟨.hbm, 58, rfl⟩
abbrev main_v33 : Ref sig .tc := ⟨.hbm, 59, rfl⟩
abbrev main_c_8 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_cst_9 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_c_10 : Ref sig .tc := ⟨.hbm, 73, rfl⟩
abbrev main_v45 : Ref sig .tc := ⟨.hbm, 74, rfl⟩
abbrev main_v46 : Ref sig .tc := ⟨.hbm, 75, rfl⟩
abbrev main_c_11 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_cst_12 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_c_13 : Ref sig .tc := ⟨.hbm, 100, rfl⟩
abbrev main_v69 : Ref sig .tc := ⟨.hbm, 101, rfl⟩
abbrev main_v70 : Ref sig .tc := ⟨.hbm, 102, rfl⟩
abbrev main_c_14 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_cst_15 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_c_16 : Ref sig .tc := ⟨.hbm, 116, rfl⟩
abbrev main_v82 : Ref sig .tc := ⟨.hbm, 117, rfl⟩
abbrev main_v83 : Ref sig .tc := ⟨.hbm, 118, rfl⟩
abbrev main_c_17 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_cst_18 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩
abbrev main_v104 : Ref sig .tc := ⟨.hbm, 141, rfl⟩
abbrev main_v105 : Ref sig .tc := ⟨.hbm, 142, rfl⟩
abbrev main_c_19 : Ref sig .tc := ⟨.hbm, 143, rfl⟩
abbrev main_v106 : Ref sig .tc := ⟨.hbm, 144, rfl⟩
abbrev main_v107 : Ref sig .tc := ⟨.hbm, 145, rfl⟩
abbrev main_c_20 : Ref sig .tc := ⟨.hbm, 146, rfl⟩
abbrev main_v108 : Ref sig .tc := ⟨.hbm, 147, rfl⟩
abbrev main_v109 : Ref sig .tc := ⟨.hbm, 148, rfl⟩
abbrev main_v110 : Ref sig .tc := ⟨.hbm, 149, rfl⟩
abbrev main_v111 : Ref sig .tc := ⟨.hbm, 150, rfl⟩
abbrev main_v112 : Ref sig .tc := ⟨.hbm, 151, rfl⟩
abbrev main_v113 : Ref sig .tc := ⟨.hbm, 152, rfl⟩
abbrev main_v114 : Ref sig .tc := ⟨.hbm, 153, rfl⟩
abbrev main_cst_21 : Ref sig .tc := ⟨.hbm, 154, rfl⟩
abbrev main_v115 : Ref sig .tc := ⟨.hbm, 155, rfl⟩
abbrev main_v116 : Ref sig .tc := ⟨.hbm, 156, rfl⟩
abbrev main_v117 : Ref sig .tc := ⟨.hbm, 157, rfl⟩
abbrev main_v118 : Ref sig .tc := ⟨.hbm, 158, rfl⟩
abbrev main_c_22 : Ref sig .tc := ⟨.hbm, 159, rfl⟩
abbrev main_v119 : Ref sig .tc := ⟨.hbm, 160, rfl⟩
abbrev main_v120 : Ref sig .tc := ⟨.hbm, 161, rfl⟩
abbrev main_c_23 : Ref sig .tc := ⟨.hbm, 162, rfl⟩
abbrev main_v121 : Ref sig .tc := ⟨.hbm, 163, rfl⟩
abbrev main_v122 : Ref sig .tc := ⟨.hbm, 164, rfl⟩
abbrev main_v123 : Ref sig .tc := ⟨.hbm, 165, rfl⟩
abbrev main_v124 : Ref sig .tc := ⟨.hbm, 166, rfl⟩
abbrev main_v125 : Ref sig .tc := ⟨.hbm, 167, rfl⟩
abbrev main_v126 : Ref sig .tc := ⟨.hbm, 168, rfl⟩
abbrev main_v127 : Ref sig .tc := ⟨.hbm, 169, rfl⟩
abbrev main_cst_24 : Ref sig .tc := ⟨.hbm, 170, rfl⟩
abbrev main_v128 : Ref sig .tc := ⟨.hbm, 171, rfl⟩
abbrev main_v129 : Ref sig .tc := ⟨.hbm, 172, rfl⟩
abbrev main_v130 : Ref sig .tc := ⟨.hbm, 173, rfl⟩
abbrev main_v131 : Ref sig .tc := ⟨.hbm, 174, rfl⟩
abbrev main_v132 : Ref sig .tc := ⟨.hbm, 175, rfl⟩
abbrev main_v133 : Ref sig .tc := ⟨.hbm, 176, rfl⟩
abbrev main_v134 : Ref sig .tc := ⟨.hbm, 177, rfl⟩
abbrev main_v135 : Ref sig .tc := ⟨.hbm, 178, rfl⟩
abbrev main_v136 : Ref sig .tc := ⟨.hbm, 179, rfl⟩
abbrev main_v137 : Ref sig .tc := ⟨.hbm, 180, rfl⟩
abbrev main_v138 : Ref sig .tc := ⟨.hbm, 181, rfl⟩
abbrev main_v139 : Ref sig .tc := ⟨.hbm, 182, rfl⟩
abbrev main_v140 : Ref sig .tc := ⟨.hbm, 183, rfl⟩
abbrev main_v141 : Ref sig .tc := ⟨.hbm, 184, rfl⟩
abbrev main_cst_25 : Ref sig .tc := ⟨.hbm, 185, rfl⟩
abbrev main_v142 : Ref sig .tc := ⟨.hbm, 186, rfl⟩
abbrev main_v143 : Ref sig .tc := ⟨.hbm, 187, rfl⟩
abbrev main_v144 : Ref sig .tc := ⟨.hbm, 188, rfl⟩
abbrev main_cst_26 : Ref sig .tc := ⟨.hbm, 189, rfl⟩
abbrev main_v145 : Ref sig .tc := ⟨.hbm, 190, rfl⟩
abbrev main_cst_27 : Ref sig .tc := ⟨.hbm, 191, rfl⟩
abbrev main_v146 : Ref sig .tc := ⟨.hbm, 192, rfl⟩
abbrev main_v147 : Ref sig .tc := ⟨.hbm, 193, rfl⟩
abbrev main_v148 : Ref sig .tc := ⟨.hbm, 194, rfl⟩
abbrev main_cst_28 : Ref sig .tc := ⟨.hbm, 195, rfl⟩
abbrev main_v149 : Ref sig .tc := ⟨.hbm, 196, rfl⟩
abbrev main_v150 : Ref sig .tc := ⟨.hbm, 197, rfl⟩
abbrev main_v151 : Ref sig .tc := ⟨.hbm, 198, rfl⟩
abbrev main_v152 : Ref sig .tc := ⟨.hbm, 199, rfl⟩
abbrev main_v153 : Ref sig .tc := ⟨.hbm, 200, rfl⟩
abbrev main_v154 : Ref sig .tc := ⟨.hbm, 201, rfl⟩
abbrev main_v155 : Ref sig .tc := ⟨.hbm, 202, rfl⟩
abbrev main_v156 : Ref sig .tc := ⟨.hbm, 203, rfl⟩
abbrev main_v157 : Ref sig .tc := ⟨.hbm, 204, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg4_0 : Ref sig .tc := ⟨.vmem, 19, rfl⟩
abbrev cc1_stg5_0 : Ref sig .tc := ⟨.vmem, 20, rfl⟩
abbrev cc1_stg6_0 : Ref sig .tc := ⟨.vmem, 21, rfl⟩
abbrev cc1_stg7_0 : Ref sig .tc := ⟨.vmem, 22, rfl⟩
abbrev cc1_stg7_1 : Ref sig .tc := ⟨.vmem, 23, rfl⟩
abbrev cc2_stg0_0 : Ref sig .tc := ⟨.vmem, 24, rfl⟩
abbrev cc2_stg0_1 : Ref sig .tc := ⟨.vmem, 25, rfl⟩
abbrev cc2_stg1_0 : Ref sig .tc := ⟨.vmem, 26, rfl⟩
abbrev cc2_stg1_1 : Ref sig .tc := ⟨.vmem, 27, rfl⟩
abbrev cc2_stg2_0 : Ref sig .tc := ⟨.vmem, 28, rfl⟩
abbrev cc2_stg2_1 : Ref sig .tc := ⟨.vmem, 29, rfl⟩
abbrev cc2_stg3_0 : Ref sig .tc := ⟨.vmem, 30, rfl⟩
abbrev cc2_stg4_0 : Ref sig .tc := ⟨.vmem, 31, rfl⟩
abbrev cc2_stg5_0 : Ref sig .tc := ⟨.vmem, 32, rfl⟩
abbrev cc2_stg6_0 : Ref sig .tc := ⟨.vmem, 33, rfl⟩
abbrev cc2_stg7_0 : Ref sig .tc := ⟨.vmem, 34, rfl⟩
abbrev cc2_stg7_1 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem4_0 : DmaSem sig := 19
abbrev cc1_sem5_0 : DmaSem sig := 20
abbrev cc1_sem6_0 : DmaSem sig := 21
abbrev cc1_sem7_0 : DmaSem sig := 22
abbrev cc1_sem7_1 : DmaSem sig := 23
abbrev cc2_sem0_0 : DmaSem sig := 24
abbrev cc2_sem0_1 : DmaSem sig := 25
abbrev cc2_sem1_0 : DmaSem sig := 26
abbrev cc2_sem1_1 : DmaSem sig := 27
abbrev cc2_sem2_0 : DmaSem sig := 28
abbrev cc2_sem2_1 : DmaSem sig := 29
abbrev cc2_sem3_0 : DmaSem sig := 30
abbrev cc2_sem4_0 : DmaSem sig := 31
abbrev cc2_sem5_0 : DmaSem sig := 32
abbrev cc2_sem6_0 : DmaSem sig := 33
abbrev cc2_sem7_0 : DmaSem sig := 34
abbrev cc2_sem7_1 : DmaSem sig := 35

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x160 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x160 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x160 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S160x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S160x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S160x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S5000x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x64 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x64 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x64 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S5000x64 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S64x32 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S64x32 .bf16 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S64x32 .bf16 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x32 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S5000x32 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

class Facts₀ : Prop where
  slices_S2x500000_S1x500000_0_0 : S2x500000.Slices ![0, 0] S1x500000
  shapeCasts_S1x500000_S500000 : S1x500000.ShapeCasts S500000
  slices_S2x500000_S1x500000_1_0 : S2x500000.Slices ![1, 0] S1x500000
  bcast_S_S50000 : S_.BroadcastsInDim S50000 (![] : Fin 0 → Fin S50000.rank)
  bcast_S500000_S500000x1_0 : S500000.BroadcastsInDim S500000x1 (![0] : Fin 1 → Fin S500000x1.rank)
  bcast_S_S500000 : S_.BroadcastsInDim S500000 (![] : Fin 0 → Fin S500000.rank)
  bcast_S500000x1_S500000x160_0_1 : S500000x1.BroadcastsInDim S500000x160 (![0, 1] : Fin 2 → Fin S500000x160.rank)
  bcast_S_S50000x160 : S_.BroadcastsInDim S50000x160 (![] : Fin 0 → Fin S50000x160.rank)
  slices_S3x160x128_S1x160x128_0_0_0 : S3x160x128.Slices ![0, 0, 0] S1x160x128
  shapeCasts_S1x160x128_S160x128 : S1x160x128.ShapeCasts S160x128
  bitsLt_bf16_f32 : FTy.bits .bf16 < FTy.bits .f32
  slices_S3x160x128_S1x160x128_1_0_0 : S3x160x128.Slices ![1, 0, 0] S1x160x128
  slices_S3x160x128_S1x160x128_2_0_0 : S3x160x128.Slices ![2, 0, 0] S1x160x128
  shapeCasts_S128_S1x128 : S128.ShapeCasts S1x128
  inb_S5000x160_S5000x160_0_0 : ∀ a, (![0, 0] : Fin 2 → Nat) a + S5000x160.size a ≤ S5000x160.size a
  h_S5000x160 : 0 < S5000x160.numel
  shapeCasts_S5000x160_S5000x160 : S5000x160.ShapeCasts S5000x160
  inb_S160x128_S160x128_0_0 : ∀ a, (![0, 0] : Fin 2 → Nat) a + S160x128.size a ≤ S160x128.size a
  h_S160x128 : 0 < S160x128.numel
  shapeCasts_S160x128_S160x128 : S160x128.ShapeCasts S160x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S5000x128_S5000x128_0_0 : ∀ a, (![0, 0] : Fin 2 → Nat) a + S5000x128.size a ≤ S5000x128.size a
  h_S5000x128 : 0 < S5000x128.numel
  bcast_S500000x1_S500000x128_0_1 : S500000x1.BroadcastsInDim S500000x128 (![0, 1] : Fin 2 → Fin S500000x128.rank)
  bcast_S_S50000x128 : S_.BroadcastsInDim S50000x128 (![] : Fin 0 → Fin S50000x128.rank)
  slices_S3x128x64_S1x128x64_0_0_0 : S3x128x64.Slices ![0, 0, 0] S1x128x64
  shapeCasts_S1x128x64_S128x64 : S1x128x64.ShapeCasts S128x64
  slices_S3x128x64_S1x128x64_1_0_0 : S3x128x64.Slices ![1, 0, 0] S1x128x64
  slices_S3x128x64_S1x128x64_2_0_0 : S3x128x64.Slices ![2, 0, 0] S1x128x64
  shapeCasts_S64_S1x64 : S64.ShapeCasts S1x64
  shapeCasts_S5000x128_S5000x128 : S5000x128.ShapeCasts S5000x128
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  bcast_S500000x1_S500000x64_0_1 : S500000x1.BroadcastsInDim S500000x64 (![0, 1] : Fin 2 → Fin S500000x64.rank)
  bcast_S_S50000x64 : S_.BroadcastsInDim S50000x64 (![] : Fin 0 → Fin S50000x64.rank)
  slices_S3x64x32_S1x64x32_0_0_0 : S3x64x32.Slices ![0, 0, 0] S1x64x32
  shapeCasts_S1x64x32_S64x32 : S1x64x32.ShapeCasts S64x32
  slices_S3x64x32_S1x64x32_1_0_0 : S3x64x32.Slices ![1, 0, 0] S1x64x32
  slices_S3x64x32_S1x64x32_2_0_0 : S3x64x32.Slices ![2, 0, 0] S1x64x32
  shapeCasts_S32_S1x32 : S32.ShapeCasts S1x32
  shapeCasts_S5000x64_S5000x64 : S5000x64.ShapeCasts S5000x64
  inb_S64x32_S64x32_0_0 : ∀ a, (![0, 0] : Fin 2 → Nat) a + S64x32.size a ≤ S64x32.size a
  h_S64x32 : 0 < S64x32.numel
  shapeCasts_S64x32_S64x32 : S64x32.ShapeCasts S64x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S5000x32 : S1x32.Broadcasts S5000x32
  inb_S5000x32_S5000x32_0_0 : ∀ a, (![0, 0] : Fin 2 → Nat) a + S5000x32.size a ≤ S5000x32.size a
  h_S5000x32 : 0 < S5000x32.numel
  bcast_S_S128x32 : S_.BroadcastsInDim S128x32 (![] : Fin 0 → Fin S128x32.rank)
  bcast_S50000_S50000x1_0 : S50000.BroadcastsInDim S50000x1 (![0] : Fin 1 → Fin S50000x1.rank)
  bcast_S_S128 : S_.BroadcastsInDim S128 (![] : Fin 0 → Fin S128.rank)
  bcast_S128_S128x1_0 : S128.BroadcastsInDim S128x1 (![0] : Fin 1 → Fin S128x1.rank)
  bcast_S128x1_S128x32_0_1 : S128x1.BroadcastsInDim S128x32 (![0, 1] : Fin 2 → Fin S128x32.rank)
  bcast_S2_S1x2_1 : S2.BroadcastsInDim S1x2 (![1] : Fin 1 → Fin S1x2.rank)
  bcast_S1x2_S128x2_0_1 : S1x2.BroadcastsInDim S128x2 (![0, 1] : Fin 2 → Fin S128x2.rank)
  scatter_S50000_S500000x1_S500000_n_0_0_1_wf : ScatterDims.WF S50000 S500000x1 S500000 [] [0] [0] 1
  gather_S50000_S500000x1_S500000_n_0_n_n_0_1_1_wf : GatherDims.WF S50000 S500000x1 S500000 [] [0] [] [0] [] 1 ![1]
  gather_S50000x160_S500000x1_S500000x160_1_0_n_n_0_1_1160_wf : GatherDims.WF S50000x160 S500000x1 S500000x160 [1] [0] [] [0] [] 1 ![1, 160]
  scatter_S50000x160_S500000x1_S500000x160_1_0_0_1_wf : ScatterDims.WF S50000x160 S500000x1 S500000x160 [1] [0] [0] 1
  dot_S5000x160_S160x128_S5000x128_1_0_0_1_n_n_wf : DotDims.WF S5000x160 S160x128 S5000x128 [1] [0] [0] [1] [] []
  gather_S50000x128_S500000x1_S500000x128_1_0_n_n_0_1_1128_wf : GatherDims.WF S50000x128 S500000x1 S500000x128 [1] [0] [] [0] [] 1 ![1, 128]
  scatter_S50000x128_S500000x1_S500000x128_1_0_0_1_wf : ScatterDims.WF S50000x128 S500000x1 S500000x128 [1] [0] [0] 1
  dot_S5000x128_S128x64_S5000x64_1_0_0_1_n_n_wf : DotDims.WF S5000x128 S128x64 S5000x64 [1] [0] [0] [1] [] []
  gather_S50000x64_S500000x1_S500000x64_1_0_n_n_0_1_164_wf : GatherDims.WF S50000x64 S500000x1 S500000x64 [1] [0] [] [0] [] 1 ![1, 64]
  scatter_S50000x64_S500000x1_S500000x64_1_0_0_1_wf : ScatterDims.WF S50000x64 S500000x1 S500000x64 [1] [0] [0] 1
  dot_S5000x64_S64x32_S5000x32_1_0_0_1_n_n_wf : DotDims.WF S5000x64 S64x32 S5000x32 [1] [0] [0] [1] [] []
  scatter_S128x32_S50000x1_S50000x32_1_0_0_1_wf : ScatterDims.WF S128x32 S50000x1 S50000x32 [1] [0] [0] 1
  scatter_S128_S50000x1_S50000_n_0_0_1_wf : ScatterDims.WF S128 S50000x1 S50000 [] [0] [0] 1
  dot_S128x32_S32x2_S128x2_1_0_0_1_n_n_wf : DotDims.WF S128x32 S32x2 S128x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x160.size a ≤ S50000x160.size a
  hwx0_0 : ∀ i : grid0.Coords, EltTy.bits .f32 = 32 ∨ (Rect.block (s := S50000x160) S5000x160.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x160.size a ≤ S50000x160.size a
  hwx0_1 : ∀ i : grid0.Coords, EltTy.bits .f32 = 32 ∨ (Rect.block (s := S50000x160) S5000x160.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x160.size a ≤ S50000x160.size a
  hwx0_2 : ∀ i : grid0.Coords, EltTy.bits .f32 = 32 ∨ (Rect.block (s := S50000x160) S5000x160.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S160x128.size a ≤ S160x128.size a
  hwx0_3 : ∀ i : grid0.Coords, EltTy.bits .bf16 = 32 ∨ (Rect.block (s := S160x128) S160x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S160x128.size a ≤ S160x128.size a
  hwx0_4 : ∀ i : grid0.Coords, EltTy.bits .bf16 = 32 ∨ (Rect.block (s := S160x128) S160x128.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S160x128.size a ≤ S160x128.size a
  hwx0_5 : ∀ i : grid0.Coords, EltTy.bits .bf16 = 32 ∨ (Rect.block (s := S160x128) S160x128.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S5000x128.size a ≤ S50000x128.size a
  hwx0_7 : ∀ i : grid0.Coords, EltTy.bits .f32 = 32 ∨ (Rect.block (s := S50000x128) S5000x128.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S50000x128.size a
  hwx1_2 : ∀ i : grid1.Coords, EltTy.bits .f32 = 32 ∨ (Rect.block (s := S50000x128) S5000x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x64.size a ≤ S128x64.size a
  hwx1_3 : ∀ i : grid1.Coords, EltTy.bits .bf16 = 32 ∨ (Rect.block (s := S128x64) S128x64.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x64.size a ≤ S128x64.size a
  hwx1_4 : ∀ i : grid1.Coords, EltTy.bits .bf16 = 32 ∨ (Rect.block (s := S128x64) S128x64.size (cc1_transform_4 i) (hinb1_4 i)).WholeWords (EltTy.packing .bf16)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x64.size a ≤ S128x64.size a
  hwx1_5 : ∀ i : grid1.Coords, EltTy.bits .bf16 = 32 ∨ (Rect.block (s := S128x64) S128x64.size (cc1_transform_5 i) (hinb1_5 i)).WholeWords (EltTy.packing .bf16)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x64.size a ≤ S1x64.size a
  hwx1_6 : ∀ i : grid1.Coords, EltTy.bits .f32 = 32 ∨ (Rect.block (s := S1x64) S1x64.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S5000x64.size a ≤ S50000x64.size a
  hwx1_7 : ∀ i : grid1.Coords, EltTy.bits .f32 = 32 ∨ (Rect.block (s := S50000x64) S5000x64.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S50000x64.size a
  hwx2_0 : ∀ i : grid2.Coords, EltTy.bits .f32 = 32 ∨ (Rect.block (s := S50000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x64.size a ≤ S50000x64.size a
  hwx2_1 : ∀ i : grid2.Coords, EltTy.bits .f32 = 32 ∨ (Rect.block (s := S50000x64) S5000x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S50000x64.size a
  hwx2_2 : ∀ i : grid2.Coords, EltTy.bits .f32 = 32 ∨ (Rect.block (s := S50000x64) S5000x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x32.size a ≤ S64x32.size a
  hwx2_3 : ∀ i : grid2.Coords, EltTy.bits .bf16 = 32 ∨ (Rect.block (s := S64x32) S64x32.size (cc2_transform_3 i) (hinb2_3 i)).WholeWords (EltTy.packing .bf16)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64x32.size a ≤ S64x32.size a
  hwx2_4 : ∀ i : grid2.Coords, EltTy.bits .bf16 = 32 ∨ (Rect.block (s := S64x32) S64x32.size (cc2_transform_4 i) (hinb2_4 i)).WholeWords (EltTy.packing .bf16)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S64x32.size a ≤ S64x32.size a
  hwx2_5 : ∀ i : grid2.Coords, EltTy.bits .bf16 = 32 ∨ (Rect.block (s := S64x32) S64x32.size (cc2_transform_5 i) (hinb2_5 i)).WholeWords (EltTy.packing .bf16)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x32.size a ≤ S1x32.size a
  hwx2_6 : ∀ i : grid2.Coords, EltTy.bits .f32 = 32 ∨ (Rect.block (s := S1x32) S1x32.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S5000x32.size a ≤ S50000x32.size a
  hwx2_7 : ∀ i : grid2.Coords, EltTy.bits .f32 = 32 ∨ (Rect.block (s := S50000x32) S5000x32.size (cc2_transform_7 i) (hinb2_7 i)).WholeWords (EltTy.packing .f32)

variable [Facts₀]

def scatter_S50000_S500000x1_S500000_n_0_0_1 : ScatterDims S50000 S500000x1 S500000 where
  updateWindowDims := []
  insertedWindowDims := [0]
  scatterDimsToOperandDims := [0]
  indexVectorDim := 1
  wf := scatter_S50000_S500000x1_S500000_n_0_0_1_wf
def gather_S50000_S500000x1_S500000_n_0_n_n_0_1_1 : GatherDims S50000 S500000x1 S500000 where
  offsetDims := []
  collapsedSliceDims := [0]
  operandBatchingDims := []
  startIndicesBatchingDims := []
  startIndexMap := [0]
  indexVectorDim := 1
  sliceSizes := ![1]
  wf := gather_S50000_S500000x1_S500000_n_0_n_n_0_1_1_wf
def gather_S50000x160_S500000x1_S500000x160_1_0_n_n_0_1_1160 : GatherDims S50000x160 S500000x1 S500000x160 where
  offsetDims := [1]
  collapsedSliceDims := [0]
  operandBatchingDims := []
  startIndicesBatchingDims := []
  startIndexMap := [0]
  indexVectorDim := 1
  sliceSizes := ![1, 160]
  wf := gather_S50000x160_S500000x1_S500000x160_1_0_n_n_0_1_1160_wf
def scatter_S50000x160_S500000x1_S500000x160_1_0_0_1 : ScatterDims S50000x160 S500000x1 S500000x160 where
  updateWindowDims := [1]
  insertedWindowDims := [0]
  scatterDimsToOperandDims := [0]
  indexVectorDim := 1
  wf := scatter_S50000x160_S500000x1_S500000x160_1_0_0_1_wf
def dot_S5000x160_S160x128_S5000x128_1_0_0_1_n_n : DotDims S5000x160 S160x128 S5000x128 where
  lhsContracting := [1]
  rhsContracting := [0]
  lhsNonContracting := [0]
  rhsNonContracting := [1]
  lhsBatch := []
  rhsBatch := []
  wf := dot_S5000x160_S160x128_S5000x128_1_0_0_1_n_n_wf
def gather_S50000x128_S500000x1_S500000x128_1_0_n_n_0_1_1128 : GatherDims S50000x128 S500000x1 S500000x128 where
  offsetDims := [1]
  collapsedSliceDims := [0]
  operandBatchingDims := []
  startIndicesBatchingDims := []
  startIndexMap := [0]
  indexVectorDim := 1
  sliceSizes := ![1, 128]
  wf := gather_S50000x128_S500000x1_S500000x128_1_0_n_n_0_1_1128_wf
def scatter_S50000x128_S500000x1_S500000x128_1_0_0_1 : ScatterDims S50000x128 S500000x1 S500000x128 where
  updateWindowDims := [1]
  insertedWindowDims := [0]
  scatterDimsToOperandDims := [0]
  indexVectorDim := 1
  wf := scatter_S50000x128_S500000x1_S500000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S50000x64_S500000x1_S500000x64_1_0_n_n_0_1_164 : GatherDims S50000x64 S500000x1 S500000x64 where
  offsetDims := [1]
  collapsedSliceDims := [0]
  operandBatchingDims := []
  startIndicesBatchingDims := []
  startIndexMap := [0]
  indexVectorDim := 1
  sliceSizes := ![1, 64]
  wf := gather_S50000x64_S500000x1_S500000x64_1_0_n_n_0_1_164_wf
def scatter_S50000x64_S500000x1_S500000x64_1_0_0_1 : ScatterDims S50000x64 S500000x1 S500000x64 where
  updateWindowDims := [1]
  insertedWindowDims := [0]
  scatterDimsToOperandDims := [0]
  indexVectorDim := 1
  wf := scatter_S50000x64_S500000x1_S500000x64_1_0_0_1_wf
def dot_S5000x64_S64x32_S5000x32_1_0_0_1_n_n : DotDims S5000x64 S64x32 S5000x32 where
  lhsContracting := [1]
  rhsContracting := [0]
  lhsNonContracting := [0]
  rhsNonContracting := [1]
  lhsBatch := []
  rhsBatch := []
  wf := dot_S5000x64_S64x32_S5000x32_1_0_0_1_n_n_wf
def scatter_S128x32_S50000x1_S50000x32_1_0_0_1 : ScatterDims S128x32 S50000x1 S50000x32 where
  updateWindowDims := [1]
  insertedWindowDims := [0]
  scatterDimsToOperandDims := [0]
  indexVectorDim := 1
  wf := scatter_S128x32_S50000x1_S50000x32_1_0_0_1_wf
def scatter_S128_S50000x1_S50000_n_0_0_1 : ScatterDims S128 S50000x1 S50000 where
  updateWindowDims := []
  insertedWindowDims := [0]
  scatterDimsToOperandDims := [0]
  indexVectorDim := 1
  wf := scatter_S128_S50000x1_S50000_n_0_0_1_wf
def dot_S128x32_S32x2_S128x2_1_0_0_1_n_n : DotDims S128x32 S32x2 S128x2 where
  lhsContracting := [1]
  rhsContracting := [0]
  lhsNonContracting := [0]
  rhsNonContracting := [1]
  lhsBatch := []
  rhsBatch := []
  wf := dot_S128x32_S32x2_S128x2_1_0_0_1_n_n_wf

abbrev win0_0 : Pipeline.Window sig grid0 :=
  Pipeline.Window.ofSpec (Memref.whole main_arg0) S5000x160.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v43) S5000x160.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v56) S5000x160.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v59) S160x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v62) S160x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v65) S160x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v66) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v67) S5000x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v67) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v80) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v93) S5000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v96) S128x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v99) S128x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v102) S128x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v103) S1x64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v104) S5000x64.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v104) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v117) S5000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v130) S5000x64.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v133) S64x32.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v136) S64x32.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v139) S64x32.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v140) S1x32.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v141) S5000x32.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

class Facts : Prop extends Facts₀ where

variable [Facts]
-- ==== ReferenceIdeal.lean ====
abbrev S50000x160 : Shape := ⟨2, ![50000, 160]⟩
abbrev S2x500000 : Shape := ⟨2, ![2, 500000]⟩
abbrev S500000 : Shape := ⟨1, ![500000]⟩
abbrev S50000 : Shape := ⟨1, ![50000]⟩
abbrev S3x160x128 : Shape := ⟨3, ![3, 160, 128]⟩
abbrev S128 : Shape := ⟨1, ![128]⟩
abbrev S3x128x64 : Shape := ⟨3, ![3, 128, 64]⟩
abbrev S64 : Shape := ⟨1, ![64]⟩
abbrev S3x64x32 : Shape := ⟨3, ![3, 64, 32]⟩
abbrev S32 : Shape := ⟨1, ![32]⟩
abbrev S32x2 : Shape := ⟨2, ![32, 2]⟩
abbrev S2 : Shape := ⟨1, ![2]⟩
abbrev S1x500000 : Shape := ⟨2, ![1, 500000]⟩
abbrev S_ : Shape := ⟨0, ![]⟩
abbrev S500000x1 : Shape := ⟨2, ![500000, 1]⟩
abbrev S1x160x128 : Shape := ⟨3, ![1, 160, 128]⟩
abbrev S160x128 : Shape := ⟨2, ![160, 128]⟩
abbrev S50000x128 : Shape := ⟨2, ![50000, 128]⟩
abbrev S500000x160 : Shape := ⟨2, ![500000, 160]⟩
abbrev S1x128 : Shape := ⟨2, ![1, 128]⟩
abbrev S1x128x64 : Shape := ⟨3, ![1, 128, 64]⟩
abbrev S128x64 : Shape := ⟨2, ![128, 64]⟩
abbrev S50000x64 : Shape := ⟨2, ![50000, 64]⟩
abbrev S500000x128 : Shape := ⟨2, ![500000, 128]⟩
abbrev S1x64 : Shape := ⟨2, ![1, 64]⟩
abbrev S1x64x32 : Shape := ⟨3, ![1, 64, 32]⟩
abbrev S64x32 : Shape := ⟨2, ![64, 32]⟩
abbrev S50000x32 : Shape := ⟨2, ![50000, 32]⟩
abbrev S500000x64 : Shape := ⟨2, ![500000, 64]⟩
abbrev S1x32 : Shape := ⟨2, ![1, 32]⟩
abbrev S128x32 : Shape := ⟨2, ![128, 32]⟩
abbrev S50000x1 : Shape := ⟨2, ![50000, 1]⟩
abbrev S128x1 : Shape := ⟨2, ![128, 1]⟩
abbrev S128x2 : Shape := ⟨2, ![128, 2]⟩
abbrev S1x2 : Shape := ⟨2, ![1, 2]⟩

abbrev nBuf : Space → Nat
  | .hbm => 235
  | .vmem => 0
  | .smem => 0
  | _ => 0

abbrev hbmTy0_0 (i : Nat) : BufTy := match i % 128 with
  | 0 => ⟨S50000x160, .f32⟩
  | 1 => ⟨S2x500000, .i32⟩
  | 2 => ⟨S500000, .f32⟩
  | 3 => ⟨S50000, .i32⟩
  | 4 => ⟨S3x160x128, .f32⟩
  | 5 => ⟨S128, .f32⟩
  | 6 => ⟨S3x128x64, .f32⟩
  | 7 => ⟨S64, .f32⟩
  | 8 => ⟨S3x64x32, .f32⟩
  | 9 => ⟨S32, .f32⟩
  | 10 => ⟨S32x2, .f32⟩
  | 11 => ⟨S2, .f32⟩
  | 12 => ⟨S1x500000, .i32⟩
  | 13 => ⟨S500000, .i32⟩
  | 14 => ⟨S1x500000, .i32⟩
  | 15 => ⟨S500000, .i32⟩
  | 16 => ⟨S_, .f32⟩
  | 17 => ⟨S50000, .f32⟩
  | 18 => ⟨S500000x1, .i32⟩
  | 19 => ⟨S50000, .f32⟩
  | 20 => ⟨S_, .f32⟩
  | 21 => ⟨S50000, .f32⟩
  | 22 => ⟨S50000, .i1⟩
  | 23 => ⟨S_, .f32⟩
  | 24 => ⟨S_, .f32⟩
  | 25 => ⟨S50000, .f32⟩
  | 26 => ⟨S50000, .f32⟩
  | 27 => ⟨S_, .f32⟩
  | 28 => ⟨S50000, .f32⟩
  | 29 => ⟨S50000, .i1⟩
  | 30 => ⟨S50000, .f32⟩
  | 31 => ⟨S_, .f32⟩
  | 32 => ⟨S_, .f32⟩
  | 33 => ⟨S50000, .f32⟩
  | 34 => ⟨S50000, .f32⟩
  | 35 => ⟨S_, .i32⟩
  | 36 => ⟨S500000, .i32⟩
  | 37 => ⟨S500000, .i1⟩
  | 38 => ⟨S_, .i32⟩
  | 39 => ⟨S500000, .i32⟩
  | 40 => ⟨S500000, .i32⟩
  | 41 => ⟨S500000, .i32⟩
  | 42 => ⟨S500000x1, .i32⟩
  | 43 => ⟨S500000, .f32⟩
  | 44 => ⟨S500000, .f32⟩
  | 45 => ⟨S500000, .f32⟩
  | 46 => ⟨S_, .i32⟩
  | 47 => ⟨S500000, .i32⟩
  | 48 => ⟨S500000, .i1⟩
  | 49 => ⟨S_, .i32⟩
  | 50 => ⟨S500000, .i32⟩
  | 51 => ⟨S500000, .i32⟩
  | 52 => ⟨S500000, .i32⟩
  | 53 => ⟨S500000x1, .i32⟩
  | 54 => ⟨S500000, .f32⟩
  | 55 => ⟨S500000, .f32⟩
  | 56 => ⟨S1x160x128, .f32⟩
  | 57 => ⟨S160x128, .f32⟩
  | 58 => ⟨S50000x128, .f32⟩
  | 59 => ⟨S500000x1, .f32⟩
  | 60 => ⟨S_, .i32⟩
  | 61 => ⟨S500000, .i32⟩
  | 62 => ⟨S500000, .i1⟩
  | 63 => ⟨S_, .i32⟩
  | 64 => ⟨S500000, .i32⟩
  | 65 => ⟨S500000, .i32⟩
  | 66 => ⟨S500000, .i32⟩
  | 67 => ⟨S500000x1, .i32⟩
  | 68 => ⟨S500000x160, .f32⟩
  | 69 => ⟨S500000x160, .f32⟩
  | 70 => ⟨S500000x160, .f32⟩
  | 71 => ⟨S_, .f32⟩
  | 72 => ⟨S50000x160, .f32⟩
  | 73 => ⟨S500000x1, .i32⟩
  | 74 => ⟨S50000x160, .f32⟩
  | 75 => ⟨S1x160x128, .f32⟩
  | 76 => ⟨S160x128, .f32⟩
  | 77 => ⟨S50000x128, .f32⟩
  | 78 => ⟨S50000x128, .f32⟩
  | 79 => ⟨S500000x1, .f32⟩
  | 80 => ⟨S_, .i32⟩
  | 81 => ⟨S500000, .i32⟩
  | 82 => ⟨S500000, .i1⟩
  | 83 => ⟨S_, .i32⟩
  | 84 => ⟨S500000, .i32⟩
  | 85 => ⟨S500000, .i32⟩
  | 86 => ⟨S500000, .i32⟩
  | 87 => ⟨S500000x1, .i32⟩
  | 88 => ⟨S500000x160, .f32⟩
  | 89 => ⟨S500000x160, .f32⟩
  | 90 => ⟨S500000x160, .f32⟩
  | 91 => ⟨S_, .f32⟩
  | 92 => ⟨S50000x160, .f32⟩
  | 93 => ⟨S500000x1, .i32⟩
  | 94 => ⟨S50000x160, .f32⟩
  | 95 => ⟨S_, .f32⟩
  | 96 => ⟨S50000x160, .f32⟩
  | 97 => ⟨S50000x160, .f32⟩
  | 98 => ⟨S50000x160, .f32⟩
  | 99 => ⟨S1x160x128, .f32⟩
  | 100 => ⟨S160x128, .f32⟩
  | 101 => ⟨S50000x128, .f32⟩
  | 102 => ⟨S50000x128, .f32⟩
  | 103 => ⟨S1x128, .f32⟩
  | 104 => ⟨S50000x128, .f32⟩
  | 105 => ⟨S50000x128, .f32⟩
  | 106 => ⟨S_, .f32⟩
  | 107 => ⟨S50000x128, .f32⟩
  | 108 => ⟨S50000x128, .f32⟩
  | 109 => ⟨S1x128x64, .f32⟩
  | 110 => ⟨S128x64, .f32⟩
  | 111 => ⟨S50000x64, .f32⟩
  | 112 => ⟨S500000x1, .f32⟩
  | 113 => ⟨S_, .i32⟩
  | 114 => ⟨S500000, .i32⟩
  | 115 => ⟨S500000, .i1⟩
  | 116 => ⟨S_, .i32⟩
  | 117 => ⟨S500000, .i32⟩
  | 118 => ⟨S500000, .i32⟩
  | 119 => ⟨S500000, .i32⟩
  | 120 => ⟨S500000x1, .i32⟩
  | 121 => ⟨S500000x128, .f32⟩
  | 122 => ⟨S500000x128, .f32⟩
  | 123 => ⟨S500000x128, .f32⟩
  | 124 => ⟨S_, .f32⟩
  | 125 => ⟨S50000x128, .f32⟩
  | 126 => ⟨S500000x1, .i32⟩
  | 127 => ⟨S50000x128, .f32⟩
  | _ => ⟨S50000x160, .f32⟩

abbrev hbmTy0_1 (i : Nat) : BufTy := match i % 128 with
  | 0 => ⟨S1x128x64, .f32⟩
  | 1 => ⟨S128x64, .f32⟩
  | 2 => ⟨S50000x64, .f32⟩
  | 3 => ⟨S50000x64, .f32⟩
  | 4 => ⟨S500000x1, .f32⟩
  | 5 => ⟨S_, .i32⟩
  | 6 => ⟨S500000, .i32⟩
  | 7 => ⟨S500000, .i1⟩
  | 8 => ⟨S_, .i32⟩
  | 9 => ⟨S500000, .i32⟩
  | 10 => ⟨S500000, .i32⟩
  | 11 => ⟨S500000, .i32⟩
  | 12 => ⟨S500000x1, .i32⟩
  | 13 => ⟨S500000x128, .f32⟩
  | 14 => ⟨S500000x128, .f32⟩
  | 15 => ⟨S500000x128, .f32⟩
  | 16 => ⟨S_, .f32⟩
  | 17 => ⟨S50000x128, .f32⟩
  | 18 => ⟨S500000x1, .i32⟩
  | 19 => ⟨S50000x128, .f32⟩
  | 20 => ⟨S_, .f32⟩
  | 21 => ⟨S50000x128, .f32⟩
  | 22 => ⟨S50000x128, .f32⟩
  | 23 => ⟨S50000x128, .f32⟩
  | 24 => ⟨S1x128x64, .f32⟩
  | 25 => ⟨S128x64, .f32⟩
  | 26 => ⟨S50000x64, .f32⟩
  | 27 => ⟨S50000x64, .f32⟩
  | 28 => ⟨S1x64, .f32⟩
  | 29 => ⟨S50000x64, .f32⟩
  | 30 => ⟨S50000x64, .f32⟩
  | 31 => ⟨S_, .f32⟩
  | 32 => ⟨S50000x64, .f32⟩
  | 33 => ⟨S50000x64, .f32⟩
  | 34 => ⟨S1x64x32, .f32⟩
  | 35 => ⟨S64x32, .f32⟩
  | 36 => ⟨S50000x32, .f32⟩
  | 37 => ⟨S500000x1, .f32⟩
  | 38 => ⟨S_, .i32⟩
  | 39 => ⟨S500000, .i32⟩
  | 40 => ⟨S500000, .i1⟩
  | 41 => ⟨S_, .i32⟩
  | 42 => ⟨S500000, .i32⟩
  | 43 => ⟨S500000, .i32⟩
  | 44 => ⟨S500000, .i32⟩
  | 45 => ⟨S500000x1, .i32⟩
  | 46 => ⟨S500000x64, .f32⟩
  | 47 => ⟨S500000x64, .f32⟩
  | 48 => ⟨S500000x64, .f32⟩
  | 49 => ⟨S_, .f32⟩
  | 50 => ⟨S50000x64, .f32⟩
  | 51 => ⟨S500000x1, .i32⟩
  | 52 => ⟨S50000x64, .f32⟩
  | 53 => ⟨S1x64x32, .f32⟩
  | 54 => ⟨S64x32, .f32⟩
  | 55 => ⟨S50000x32, .f32⟩
  | 56 => ⟨S50000x32, .f32⟩
  | 57 => ⟨S500000x1, .f32⟩
  | 58 => ⟨S_, .i32⟩
  | 59 => ⟨S500000, .i32⟩
  | 60 => ⟨S500000, .i1⟩
  | 61 => ⟨S_, .i32⟩
  | 62 => ⟨S500000, .i32⟩
  | 63 => ⟨S500000, .i32⟩
  | 64 => ⟨S500000, .i32⟩
  | 65 => ⟨S500000x1, .i32⟩
  | 66 => ⟨S500000x64, .f32⟩
  | 67 => ⟨S500000x64, .f32⟩
  | 68 => ⟨S500000x64, .f32⟩
  | 69 => ⟨S_, .f32⟩
  | 70 => ⟨S50000x64, .f32⟩
  | 71 => ⟨S500000x1, .i32⟩
  | 72 => ⟨S50000x64, .f32⟩
  | 73 => ⟨S_, .f32⟩
  | 74 => ⟨S50000x64, .f32⟩
  | 75 => ⟨S50000x64, .f32⟩
  | 76 => ⟨S50000x64, .f32⟩
  | 77 => ⟨S1x64x32, .f32⟩
  | 78 => ⟨S64x32, .f32⟩
  | 79 => ⟨S50000x32, .f32⟩
  | 80 => ⟨S50000x32, .f32⟩
  | 81 => ⟨S1x32, .f32⟩
  | 82 => ⟨S50000x32, .f32⟩
  | 83 => ⟨S50000x32, .f32⟩
  | 84 => ⟨S_, .f32⟩
  | 85 => ⟨S50000x32, .f32⟩
  | 86 => ⟨S50000x32, .f32⟩
  | 87 => ⟨S_, .f32⟩
  | 88 => ⟨S128x32, .f32⟩
  | 89 => ⟨S50000x1, .i32⟩
  | 90 => ⟨S128x32, .f32⟩
  | 91 => ⟨S_, .f32⟩
  | 92 => ⟨S50000, .f32⟩
  | 93 => ⟨S_, .f32⟩
  | 94 => ⟨S128, .f32⟩
  | 95 => ⟨S50000x1, .i32⟩
  | 96 => ⟨S128, .f32⟩
  | 97 => ⟨S_, .f32⟩
  | 98 => ⟨S128, .f32⟩
  | 99 => ⟨S128, .f32⟩
  | 100 => ⟨S128x1, .f32⟩
  | 101 => ⟨S128x32, .f32⟩
  | 102 => ⟨S128x32, .f32⟩
  | 103 => ⟨S128x2, .f32⟩
  | 104 => ⟨S1x2, .f32⟩
  | 105 => ⟨S128x2, .f32⟩
  | 106 => ⟨S128x2, .f32⟩
  | _ => ⟨S50000x160, .f32⟩

abbrev hbmTy (i : Nat) : BufTy := match i / 128 with
  | 0 => hbmTy0_0 i
  | 1 => hbmTy0_1 i
  | _ => ⟨S50000x160, .f32⟩

abbrev bufTy : (tb : Table) → Fin (tcTables nBuf tb) → BufTy
  | .hbm, ⟨i, _⟩ => hbmTy i
  | _, _ => ⟨S50000x160, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst_0 : Ref sig .tc := ⟨.hbm, 20, rfl⟩
abbrev main_v7 : Ref sig .tc := ⟨.hbm, 21, rfl⟩
abbrev main_v8 : Ref sig .tc := ⟨.hbm, 22, rfl⟩
abbrev main_cst_1 : Ref sig .tc := ⟨.hbm, 23, rfl⟩
abbrev main_call0_v0 : Ref sig .tc := ⟨.hbm, 24, rfl⟩
abbrev main_call0_v1 : Ref sig .tc := ⟨.hbm, 25, rfl⟩
abbrev main_v9 : Ref sig .tc := ⟨.hbm, 26, rfl⟩
abbrev main_cst_2 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_cst_3 : Ref sig .tc := ⟨.hbm, 31, rfl⟩
abbrev main_call1_v0 : Ref sig .tc := ⟨.hbm, 32, rfl⟩
abbrev main_call1_v1 : Ref sig .tc := ⟨.hbm, 33, rfl⟩
abbrev main_v13 : Ref sig .tc := ⟨.hbm, 34, rfl⟩
abbrev main_c : Ref sig .tc := ⟨.hbm, 35, rfl⟩
abbrev main_v14 : Ref sig .tc := ⟨.hbm, 36, rfl⟩
abbrev main_v15 : Ref sig .tc := ⟨.hbm, 37, rfl⟩
abbrev main_c_4 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_c_5 : Ref sig .tc := ⟨.hbm, 46, rfl⟩
abbrev main_v23 : Ref sig .tc := ⟨.hbm, 47, rfl⟩
abbrev main_v24 : Ref sig .tc := ⟨.hbm, 48, rfl⟩
abbrev main_c_6 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_c_7 : Ref sig .tc := ⟨.hbm, 60, rfl⟩
abbrev main_v35 : Ref sig .tc := ⟨.hbm, 61, rfl⟩
abbrev main_v36 : Ref sig .tc := ⟨.hbm, 62, rfl⟩
abbrev main_c_8 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_cst_9 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_c_10 : Ref sig .tc := ⟨.hbm, 80, rfl⟩
abbrev main_v52 : Ref sig .tc := ⟨.hbm, 81, rfl⟩
abbrev main_v53 : Ref sig .tc := ⟨.hbm, 82, rfl⟩
abbrev main_c_11 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_cst_12 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_cst_13 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_call2_cst : Ref sig .tc := ⟨.hbm, 106, rfl⟩
abbrev main_call2_v0 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_c_14 : Ref sig .tc := ⟨.hbm, 113, rfl⟩
abbrev main_v79 : Ref sig .tc := ⟨.hbm, 114, rfl⟩
abbrev main_v80 : Ref sig .tc := ⟨.hbm, 115, rfl⟩
abbrev main_c_15 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_cst_16 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_c_17 : Ref sig .tc := ⟨.hbm, 133, rfl⟩
abbrev main_v96 : Ref sig .tc := ⟨.hbm, 134, rfl⟩
abbrev main_v97 : Ref sig .tc := ⟨.hbm, 135, rfl⟩
abbrev main_c_18 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩
abbrev main_v102 : Ref sig .tc := ⟨.hbm, 141, rfl⟩
abbrev main_v103 : Ref sig .tc := ⟨.hbm, 142, rfl⟩
abbrev main_v104 : Ref sig .tc := ⟨.hbm, 143, rfl⟩
abbrev main_cst_19 : Ref sig .tc := ⟨.hbm, 144, rfl⟩
abbrev main_v105 : Ref sig .tc := ⟨.hbm, 145, rfl⟩
abbrev main_v106 : Ref sig .tc := ⟨.hbm, 146, rfl⟩
abbrev main_v107 : Ref sig .tc := ⟨.hbm, 147, rfl⟩
abbrev main_cst_20 : Ref sig .tc := ⟨.hbm, 148, rfl⟩
abbrev main_v108 : Ref sig .tc := ⟨.hbm, 149, rfl⟩
abbrev main_v109 : Ref sig .tc := ⟨.hbm, 150, rfl⟩
abbrev main_v110 : Ref sig .tc := ⟨.hbm, 151, rfl⟩
abbrev main_v111 : Ref sig .tc := ⟨.hbm, 152, rfl⟩
abbrev main_v112 : Ref sig .tc := ⟨.hbm, 153, rfl⟩
abbrev main_v113 : Ref sig .tc := ⟨.hbm, 154, rfl⟩
abbrev main_v114 : Ref sig .tc := ⟨.hbm, 155, rfl⟩
abbrev main_v115 : Ref sig .tc := ⟨.hbm, 156, rfl⟩
abbrev main_v116 : Ref sig .tc := ⟨.hbm, 157, rfl⟩
abbrev main_v117 : Ref sig .tc := ⟨.hbm, 158, rfl⟩
abbrev main_call3_cst : Ref sig .tc := ⟨.hbm, 159, rfl⟩
abbrev main_call3_v0 : Ref sig .tc := ⟨.hbm, 160, rfl⟩
abbrev main_v118 : Ref sig .tc := ⟨.hbm, 161, rfl⟩
abbrev main_v119 : Ref sig .tc := ⟨.hbm, 162, rfl⟩
abbrev main_v120 : Ref sig .tc := ⟨.hbm, 163, rfl⟩
abbrev main_v121 : Ref sig .tc := ⟨.hbm, 164, rfl⟩
abbrev main_v122 : Ref sig .tc := ⟨.hbm, 165, rfl⟩
abbrev main_c_21 : Ref sig .tc := ⟨.hbm, 166, rfl⟩
abbrev main_v123 : Ref sig .tc := ⟨.hbm, 167, rfl⟩
abbrev main_v124 : Ref sig .tc := ⟨.hbm, 168, rfl⟩
abbrev main_c_22 : Ref sig .tc := ⟨.hbm, 169, rfl⟩
abbrev main_v125 : Ref sig .tc := ⟨.hbm, 170, rfl⟩
abbrev main_v126 : Ref sig .tc := ⟨.hbm, 171, rfl⟩
abbrev main_v127 : Ref sig .tc := ⟨.hbm, 172, rfl⟩
abbrev main_v128 : Ref sig .tc := ⟨.hbm, 173, rfl⟩
abbrev main_v129 : Ref sig .tc := ⟨.hbm, 174, rfl⟩
abbrev main_v130 : Ref sig .tc := ⟨.hbm, 175, rfl⟩
abbrev main_v131 : Ref sig .tc := ⟨.hbm, 176, rfl⟩
abbrev main_cst_23 : Ref sig .tc := ⟨.hbm, 177, rfl⟩
abbrev main_v132 : Ref sig .tc := ⟨.hbm, 178, rfl⟩
abbrev main_v133 : Ref sig .tc := ⟨.hbm, 179, rfl⟩
abbrev main_v134 : Ref sig .tc := ⟨.hbm, 180, rfl⟩
abbrev main_v135 : Ref sig .tc := ⟨.hbm, 181, rfl⟩
abbrev main_v136 : Ref sig .tc := ⟨.hbm, 182, rfl⟩
abbrev main_v137 : Ref sig .tc := ⟨.hbm, 183, rfl⟩
abbrev main_v138 : Ref sig .tc := ⟨.hbm, 184, rfl⟩
abbrev main_v139 : Ref sig .tc := ⟨.hbm, 185, rfl⟩
abbrev main_c_24 : Ref sig .tc := ⟨.hbm, 186, rfl⟩
abbrev main_v140 : Ref sig .tc := ⟨.hbm, 187, rfl⟩
abbrev main_v141 : Ref sig .tc := ⟨.hbm, 188, rfl⟩
abbrev main_c_25 : Ref sig .tc := ⟨.hbm, 189, rfl⟩
abbrev main_v142 : Ref sig .tc := ⟨.hbm, 190, rfl⟩
abbrev main_v143 : Ref sig .tc := ⟨.hbm, 191, rfl⟩
abbrev main_v144 : Ref sig .tc := ⟨.hbm, 192, rfl⟩
abbrev main_v145 : Ref sig .tc := ⟨.hbm, 193, rfl⟩
abbrev main_v146 : Ref sig .tc := ⟨.hbm, 194, rfl⟩
abbrev main_v147 : Ref sig .tc := ⟨.hbm, 195, rfl⟩
abbrev main_v148 : Ref sig .tc := ⟨.hbm, 196, rfl⟩
abbrev main_cst_26 : Ref sig .tc := ⟨.hbm, 197, rfl⟩
abbrev main_v149 : Ref sig .tc := ⟨.hbm, 198, rfl⟩
abbrev main_v150 : Ref sig .tc := ⟨.hbm, 199, rfl⟩
abbrev main_v151 : Ref sig .tc := ⟨.hbm, 200, rfl⟩
abbrev main_cst_27 : Ref sig .tc := ⟨.hbm, 201, rfl⟩
abbrev main_v152 : Ref sig .tc := ⟨.hbm, 202, rfl⟩
abbrev main_v153 : Ref sig .tc := ⟨.hbm, 203, rfl⟩
abbrev main_v154 : Ref sig .tc := ⟨.hbm, 204, rfl⟩
abbrev main_v155 : Ref sig .tc := ⟨.hbm, 205, rfl⟩
abbrev main_v156 : Ref sig .tc := ⟨.hbm, 206, rfl⟩
abbrev main_v157 : Ref sig .tc := ⟨.hbm, 207, rfl⟩
abbrev main_v158 : Ref sig .tc := ⟨.hbm, 208, rfl⟩
abbrev main_v159 : Ref sig .tc := ⟨.hbm, 209, rfl⟩
abbrev main_v160 : Ref sig .tc := ⟨.hbm, 210, rfl⟩
abbrev main_v161 : Ref sig .tc := ⟨.hbm, 211, rfl⟩
abbrev main_call4_cst : Ref sig .tc := ⟨.hbm, 212, rfl⟩
abbrev main_call4_v0 : Ref sig .tc := ⟨.hbm, 213, rfl⟩
abbrev main_v162 : Ref sig .tc := ⟨.hbm, 214, rfl⟩
abbrev main_cst_28 : Ref sig .tc := ⟨.hbm, 215, rfl⟩
abbrev main_v163 : Ref sig .tc := ⟨.hbm, 216, rfl⟩
abbrev main_v164 : Ref sig .tc := ⟨.hbm, 217, rfl⟩
abbrev main_v165 : Ref sig .tc := ⟨.hbm, 218, rfl⟩
abbrev main_cst_29 : Ref sig .tc := ⟨.hbm, 219, rfl⟩
abbrev main_v166 : Ref sig .tc := ⟨.hbm, 220, rfl⟩
abbrev main_cst_30 : Ref sig .tc := ⟨.hbm, 221, rfl⟩
abbrev main_v167 : Ref sig .tc := ⟨.hbm, 222, rfl⟩
abbrev main_v168 : Ref sig .tc := ⟨.hbm, 223, rfl⟩
abbrev main_v169 : Ref sig .tc := ⟨.hbm, 224, rfl⟩
abbrev main_cst_31 : Ref sig .tc := ⟨.hbm, 225, rfl⟩
abbrev main_v170 : Ref sig .tc := ⟨.hbm, 226, rfl⟩
abbrev main_v171 : Ref sig .tc := ⟨.hbm, 227, rfl⟩
abbrev main_v172 : Ref sig .tc := ⟨.hbm, 228, rfl⟩
abbrev main_v173 : Ref sig .tc := ⟨.hbm, 229, rfl⟩
abbrev main_v174 : Ref sig .tc := ⟨.hbm, 230, rfl⟩
abbrev main_v175 : Ref sig .tc := ⟨.hbm, 231, rfl⟩
abbrev main_v176 : Ref sig .tc := ⟨.hbm, 232, rfl⟩
abbrev main_v177 : Ref sig .tc := ⟨.hbm, 233, rfl⟩
abbrev main_v178 : Ref sig .tc := ⟨.hbm, 234, rfl⟩

abbrev nD : Nat := 1
abbrev τ : Topo := Topo.v7x

variable {F : FTy → Type} [FloatOps F]

class Facts₀ : Prop where
  slices_S2x500000_S1x500000_0_0 : S2x500000.Slices ![0, 0] S1x500000
  shapeCasts_S1x500000_S500000 : S1x500000.ShapeCasts S500000
  slices_S2x500000_S1x500000_1_0 : S2x500000.Slices ![1, 0] S1x500000
  bcast_S_S50000 : S_.BroadcastsInDim S50000 (![] : Fin 0 → Fin S50000.rank)
  bcast_S500000_S500000x1_0 : S500000.BroadcastsInDim S500000x1 (![0] : Fin 1 → Fin S500000x1.rank)
  bcast_S_S500000 : S_.BroadcastsInDim S500000 (![] : Fin 0 → Fin S500000.rank)
  slices_S3x160x128_S1x160x128_0_0_0 : S3x160x128.Slices ![0, 0, 0] S1x160x128
  shapeCasts_S1x160x128_S160x128 : S1x160x128.ShapeCasts S160x128
  bcast_S500000x1_S500000x160_0_1 : S500000x1.BroadcastsInDim S500000x160 (![0, 1] : Fin 2 → Fin S500000x160.rank)
  bcast_S_S50000x160 : S_.BroadcastsInDim S50000x160 (![] : Fin 0 → Fin S50000x160.rank)
  slices_S3x160x128_S1x160x128_1_0_0 : S3x160x128.Slices ![1, 0, 0] S1x160x128
  slices_S3x160x128_S1x160x128_2_0_0 : S3x160x128.Slices ![2, 0, 0] S1x160x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S50000x128 : S_.BroadcastsInDim S50000x128 (![] : Fin 0 → Fin S50000x128.rank)
  slices_S3x128x64_S1x128x64_0_0_0 : S3x128x64.Slices ![0, 0, 0] S1x128x64
  shapeCasts_S1x128x64_S128x64 : S1x128x64.ShapeCasts S128x64
  bcast_S500000x1_S500000x128_0_1 : S500000x1.BroadcastsInDim S500000x128 (![0, 1] : Fin 2 → Fin S500000x128.rank)
  slices_S3x128x64_S1x128x64_1_0_0 : S3x128x64.Slices ![1, 0, 0] S1x128x64
  slices_S3x128x64_S1x128x64_2_0_0 : S3x128x64.Slices ![2, 0, 0] S1x128x64
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S50000x64 : S_.BroadcastsInDim S50000x64 (![] : Fin 0 → Fin S50000x64.rank)
  slices_S3x64x32_S1x64x32_0_0_0 : S3x64x32.Slices ![0, 0, 0] S1x64x32
  shapeCasts_S1x64x32_S64x32 : S1x64x32.ShapeCasts S64x32
  bcast_S500000x1_S500000x64_0_1 : S500000x1.BroadcastsInDim S500000x64 (![0, 1] : Fin 2 → Fin S500000x64.rank)
  slices_S3x64x32_S1x64x32_1_0_0 : S3x64x32.Slices ![1, 0, 0] S1x64x32
  slices_S3x64x32_S1x64x32_2_0_0 : S3x64x32.Slices ![2, 0, 0] S1x64x32
  bcast_S32_S1x32_1 : S32.BroadcastsInDim S1x32 (![1] : Fin 1 → Fin S1x32.rank)
  bcast_S1x32_S50000x32_0_1 : S1x32.BroadcastsInDim S50000x32 (![0, 1] : Fin 2 → Fin S50000x32.rank)
  bcast_S_S50000x32 : S_.BroadcastsInDim S50000x32 (![] : Fin 0 → Fin S50000x32.rank)
  bcast_S_S128x32 : S_.BroadcastsInDim S128x32 (![] : Fin 0 → Fin S128x32.rank)
  bcast_S50000_S50000x1_0 : S50000.BroadcastsInDim S50000x1 (![0] : Fin 1 → Fin S50000x1.rank)
  bcast_S_S128 : S_.BroadcastsInDim S128 (![] : Fin 0 → Fin S128.rank)
  bcast_S128_S128x1_0 : S128.BroadcastsInDim S128x1 (![0] : Fin 1 → Fin S128x1.rank)
  bcast_S128x1_S128x32_0_1 : S128x1.BroadcastsInDim S128x32 (![0, 1] : Fin 2 → Fin S128x32.rank)
  bcast_S2_S1x2_1 : S2.BroadcastsInDim S1x2 (![1] : Fin 1 → Fin S1x2.rank)
  bcast_S1x2_S128x2_0_1 : S1x2.BroadcastsInDim S128x2 (![0, 1] : Fin 2 → Fin S128x2.rank)
  scatter_S50000_S500000x1_S500000_n_0_0_1_wf : ScatterDims.WF S50000 S500000x1 S500000 [] [0] [0] 1
  gather_S50000_S500000x1_S500000_n_0_n_n_0_1_1_wf : GatherDims.WF S50000 S500000x1 S500000 [] [0] [] [0] [] 1 ![1]
  dot_S50000x160_S160x128_S50000x128_1_0_0_1_n_n_wf : DotDims.WF S50000x160 S160x128 S50000x128 [1] [0] [0] [1] [] []
  gather_S50000x160_S500000x1_S500000x160_1_0_n_n_0_1_1160_wf : GatherDims.WF S50000x160 S500000x1 S500000x160 [1] [0] [] [0] [] 1 ![1, 160]
  scatter_S50000x160_S500000x1_S500000x160_1_0_0_1_wf : ScatterDims.WF S50000x160 S500000x1 S500000x160 [1] [0] [0] 1
  dot_S50000x128_S128x64_S50000x64_1_0_0_1_n_n_wf : DotDims.WF S50000x128 S128x64 S50000x64 [1] [0] [0] [1] [] []
  gather_S50000x128_S500000x1_S500000x128_1_0_n_n_0_1_1128_wf : GatherDims.WF S50000x128 S500000x1 S500000x128 [1] [0] [] [0] [] 1 ![1, 128]
  scatter_S50000x128_S500000x1_S500000x128_1_0_0_1_wf : ScatterDims.WF S50000x128 S500000x1 S500000x128 [1] [0] [0] 1
  dot_S50000x64_S64x32_S50000x32_1_0_0_1_n_n_wf : DotDims.WF S50000x64 S64x32 S50000x32 [1] [0] [0] [1] [] []
  gather_S50000x64_S500000x1_S500000x64_1_0_n_n_0_1_164_wf : GatherDims.WF S50000x64 S500000x1 S500000x64 [1] [0] [] [0] [] 1 ![1, 64]
  scatter_S50000x64_S500000x1_S500000x64_1_0_0_1_wf : ScatterDims.WF S50000x64 S500000x1 S500000x64 [1] [0] [0] 1
  scatter_S128x32_S50000x1_S50000x32_1_0_0_1_wf : ScatterDims.WF S128x32 S50000x1 S50000x32 [1] [0] [0] 1
  scatter_S128_S50000x1_S50000_n_0_0_1_wf : ScatterDims.WF S128 S50000x1 S50000 [] [0] [0] 1
  dot_S128x32_S32x2_S128x2_1_0_0_1_n_n_wf : DotDims.WF S128x32 S32x2 S128x2 [1] [0] [0] [1] [] []

variable [Facts₀]

def scatter_S50000_S500000x1_S500000_n_0_0_1 : ScatterDims S50000 S500000x1 S500000 where
  updateWindowDims := []
  insertedWindowDims := [0]
  scatterDimsToOperandDims := [0]
  indexVectorDim := 1
  wf := scatter_S50000_S500000x1_S500000_n_0_0_1_wf
def gather_S50000_S500000x1_S500000_n_0_n_n_0_1_1 : GatherDims S50000 S500000x1 S500000 where
  offsetDims := []
  collapsedSliceDims := [0]
  operandBatchingDims := []
  startIndicesBatchingDims := []
  startIndexMap := [0]
  indexVectorDim := 1
  sliceSizes := ![1]
  wf := gather_S50000_S500000x1_S500000_n_0_n_n_0_1_1_wf
def dot_S50000x160_S160x128_S50000x128_1_0_0_1_n_n : DotDims S50000x160 S160x128 S50000x128 where
  lhsContracting := [1]
  rhsContracting := [0]
  lhsNonContracting := [0]
  rhsNonContracting := [1]
  lhsBatch := []
  rhsBatch := []
  wf := dot_S50000x160_S160x128_S50000x128_1_0_0_1_n_n_wf
def gather_S50000x160_S500000x1_S500000x160_1_0_n_n_0_1_1160 : GatherDims S50000x160 S500000x1 S500000x160 where
  offsetDims := [1]
  collapsedSliceDims := [0]
  operandBatchingDims := []
  startIndicesBatchingDims := []
  startIndexMap := [0]
  indexVectorDim := 1
  sliceSizes := ![1, 160]
  wf := gather_S50000x160_S500000x1_S500000x160_1_0_n_n_0_1_1160_wf
def scatter_S50000x160_S500000x1_S500000x160_1_0_0_1 : ScatterDims S50000x160 S500000x1 S500000x160 where
  updateWindowDims := [1]
  insertedWindowDims := [0]
  scatterDimsToOperandDims := [0]
  indexVectorDim := 1
  wf := scatter_S50000x160_S500000x1_S500000x160_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x128_S500000x1_S500000x128_1_0_n_n_0_1_1128 : GatherDims S50000x128 S500000x1 S500000x128 where
  offsetDims := [1]
  collapsedSliceDims := [0]
  operandBatchingDims := []
  startIndicesBatchingDims := []
  startIndexMap := [0]
  indexVectorDim := 1
  sliceSizes := ![1, 128]
  wf := gather_S50000x128_S500000x1_S500000x128_1_0_n_n_0_1_1128_wf
def scatter_S50000x128_S500000x1_S500000x128_1_0_0_1 : ScatterDims S50000x128 S500000x1 S500000x128 where
  updateWindowDims := [1]
  insertedWindowDims := [0]
  scatterDimsToOperandDims := [0]
  indexVectorDim := 1
  wf := scatter_S50000x128_S500000x1_S500000x128_1_0_0_1_wf
def dot_S50000x64_S64x32_S50000x32_1_0_0_1_n_n : DotDims S50000x64 S64x32 S50000x32 where
  lhsContracting := [1]
  rhsContracting := [0]
  lhsNonContracting := [0]
  rhsNonContracting := [1]
  lhsBatch := []
  rhsBatch := []
  wf := dot_S50000x64_S64x32_S50000x32_1_0_0_1_n_n_wf
def gather_S50000x64_S500000x1_S500000x64_1_0_n_n_0_1_164 : GatherDims S50000x64 S500000x1 S500000x64 where
  offsetDims := [1]
  collapsedSliceDims := [0]
  operandBatchingDims := []
  startIndicesBatchingDims := []
  startIndexMap := [0]
  indexVectorDim := 1
  sliceSizes := ![1, 64]
  wf := gather_S50000x64_S500000x1_S500000x64_1_0_n_n_0_1_164_wf
def scatter_S50000x64_S500000x1_S500000x64_1_0_0_1 : ScatterDims S50000x64 S500000x1 S500000x64 where
  updateWindowDims := [1]
  insertedWindowDims := [0]
  scatterDimsToOperandDims := [0]
  indexVectorDim := 1
  wf := scatter_S50000x64_S500000x1_S500000x64_1_0_0_1_wf
def scatter_S128x32_S50000x1_S50000x32_1_0_0_1 : ScatterDims S128x32 S50000x1 S50000x32 where
  updateWindowDims := [1]
  insertedWindowDims := [0]
  scatterDimsToOperandDims := [0]
  indexVectorDim := 1
  wf := scatter_S128x32_S50000x1_S50000x32_1_0_0_1_wf
def scatter_S128_S50000x1_S50000_n_0_0_1 : ScatterDims S128 S50000x1 S50000 where
  updateWindowDims := []
  insertedWindowDims := [0]
  scatterDimsToOperandDims := [0]
  indexVectorDim := 1
  wf := scatter_S128_S50000x1_S50000_n_0_0_1_wf
def dot_S128x32_S32x2_S128x2_1_0_0_1_n_n : DotDims S128x32 S32x2 S128x2 where
  lhsContracting := [1]
  rhsContracting := [0]
  lhsNonContracting := [0]
  rhsNonContracting := [1]
  lhsBatch := []
  rhsBatch := []
  wf := dot_S128x32_S32x2_S128x2_1_0_0_1_n_n_wf

class Facts : Prop extends Facts₀ where

variable [Facts]
-- ==== Proof.RunResult.lean ====
/-
  The idealized kernel program's run with its RESULT named.

  The program is eleven segments: stretches of host operations and three kernel regions. The contents of the
  TensorCore's buffers at each segment boundary form a fold from the launch memory: a host stretch applies its
  operations in order, a region replaces its output array by what its grid points wrote back and leaves every other
  buffer as it found it. Every weakly fair execution terminates without a fault in a state whose unscoped buffers hold
  the last boundary's contents; so the result buffer ends at the fold's value there, and the twelve argument arrays end
  as launched.
-/
import proofs.«143596_j22514218566432_2_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting, with the result buffer at the last boundary's contents
    and every argument array as launched. -/
theorem result_at_last_boundary : θ_run defs (onTc (τ := τ) (main (F := F))) ⟨m, fun _ => 0, ρ⟩ (fun r => ∀ c : Dev nD,
      r.2.mem ((c.tc : Thread nD τ).loc main_v157) = W11 m ρ c (Proc.devRef .tc main_v157)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) := by
  refine Pipeline.θ_run_regions_kit (pcfgs (F := F)) adm (pdats m ρ) () cellOf_inj emb₁ defs₀ 𝒱₀ L lv m ρ main (segs m ρ)
    (fun c Q => by rw [main_run m ρ c]) ?nodup 0 (fun _ _ => rfl) (fun _ => iprop(emp))
    (initOf (Pipeline.cells cfgs cellOf_inj) (Pipeline.launchToks cfgs cellOf_inj)) ?launch
    (fun c => iprop(StableHlo.held (c : Thread nD τ) (Pipeline.ucRefs τ sig) (W0 m ρ c) ∗ R c)) (Tₙ m ρ) ?chain ?first
    (fun c s => ∀ b ∈ Pipeline.ucRefs τ sig, s.mem (((c : Thread nD τ)).1, b) = W11 m ρ c b) ?last ?post
  case nodup =>
    -- the three regions are three different pipelines
    simp only [segs, Pipeline.Seg.pipes_host, Pipeline.Seg.pipes_region, Pipeline.Seg.pipes_nil]
    decide
  case launch =>
    -- the launch element is the pipelines' own; no core needs a ghost resource of its own
    iintro Hu
    imodintro
    isplitl [Hu]
    · -- the same element, the pipelines' configurations read through their pinning
      iapply (show (ownU (initOf (Pipeline.cells cfgs cellOf_inj) (Pipeline.launchToks cfgs cellOf_inj)) : sProp 𝕄)
          ⊢ BI.own (emb₁ (initOf (Pipeline.cells (Pipeline.pin (pcfgs (F := F)) adm) cellOf_inj)
              (Pipeline.launchToks (Pipeline.pin (pcfgs (F := F)) adm) cellOf_inj))) from .rfl)
      iexact Hu
    · iapply (show (BI.emp : sProp 𝕄) ⊢ bigSep Finset.univ (fun _ : Dev nD => (BI.emp : sProp 𝕄)) from by
        rw [BI.bigSep_emp_const])
      iempintro
  case chain =>
    -- each segment starts from the contents the one before it ends at; after the last, regroup
    refine ⟨fun _ => .rfl, fun _ => .rfl, fun _ => .rfl, fun _ => .rfl, fun _ => .rfl, fun _ => .rfl, fun _ => .rfl,
      fun _ => .rfl, fun _ => .rfl, fun _ => .rfl, fun _ => .rfl, fun c => ?_⟩
    show iprop(StableHlo.held (c : Thread nD τ) (Pipeline.ucRefs τ sig) (W11 m ρ c) ∗ R c) ⊢ _
    iintro ⟨Hbufs, Hreg, Howes⟩
    isplitr [Howes]
    · isplitl [Hbufs]
      · iexact Hbufs
      · iexact Hreg
    · iexact Howes
  case first =>
    -- per core: the launch's unscoped buffers are the first boundary's contents; the register and the empty debt ride along
    refine Pipeline.initEach L lv fun c => ?_
    rw [show unscopedBufs c (fun b => m ((c : Thread nD τ).loc b))
        = StableHlo.held (c : Thread nD τ) (Pipeline.ucRefs τ sig) (W0 m ρ c) from Pipeline.unscopedBufs_held c (W0 m ρ c)]
    iintro ⟨⟨Hbufs, -, Howes, -, Hreg, -⟩, -⟩
    imodintro
    isplitl [Hbufs]
    · iexact Hbufs
    isplitl [Hreg]
    · iexists _
      iexact Hreg
    · iexists ∅
      iexact Howes
  case last =>
    -- the buffers held at the last boundary's contents, read against a final state
    intro c s'
    iintro ⟨⟨Hbufs, -⟩, HSI⟩
    unfold StableHlo.held
    imodintro
    iapply (pointsTo_read_all (Pipeline.ucRefs τ sig) (fun b => (((c : Thread nD τ)).1, b)) (W11 m ρ c) s')
    isplitl [Hbufs] <;> iassumption
  case post =>
    intro s h c
    exact ⟨h c _ (mem_uc main_v157 (by decide)),
      (h c _ (mem_uc main_arg0 (by decide))).trans (W11_main_arg0 m ρ c),
      (h c _ (mem_uc main_arg1 (by decide))).trans (W11_main_arg1 m ρ c),
      (h c _ (mem_uc main_arg2 (by decide))).trans (W11_main_arg2 m ρ c),
      (h c _ (mem_uc main_arg3 (by decide))).trans (W11_main_arg3 m ρ c),
      (h c _ (mem_uc main_arg4 (by decide))).trans (W11_main_arg4 m ρ c),
      (h c _ (mem_uc main_arg5 (by decide))).trans (W11_main_arg5 m ρ c),
      (h c _ (mem_uc main_arg6 (by decide))).trans (W11_main_arg6 m ρ c),
      (h c _ (mem_uc main_arg7 (by decide))).trans (W11_main_arg7 m ρ c),
      (h c _ (mem_uc main_arg8 (by decide))).trans (W11_main_arg8 m ρ c),
      (h c _ (mem_uc main_arg9 (by decide))).trans (W11_main_arg9 m ρ c),
      (h c _ (mem_uc main_arg10 (by decide))).trans (W11_main_arg10 m ρ c),
      (h c _ (mem_uc main_arg11 (by decide))).trans (W11_main_arg11 m ρ c)⟩

end Cert.KernelIdeal.Run

end
-- ==== Proof.FoldEntry.lean ====
/-
  What the kernel program's buffers hold when its first region is entered.

  Before its first kernel region the kernel program runs the same host operations as the reference: the two rows of
  the edge list, the degree of every node as a scatter-add of the edge attributes, the symmetric normalization
  `w = −d(src)^(-1/2) · attr · d(dst)^(-1/2)` with the guard at degree zero, the features propagated once and twice
  along the weighted edges (a gather at the sources, the product with `w`, a scatter-add at the destinations), and the
  three slices of the first layer's weights. So each of those buffers holds the corresponding stage of the reference
  at the launch arguments. The kernel program additionally narrows each weight slice to half precision, which over
  the extended reals changes nothing, and presents the bias as a one-row matrix.
-/
import proofs.«143596_j22514218566432_2_alg».proof.Proof.Gen.KernelIdeal.Frame
import proofs.«143596_j22514218566432_2_alg».proof.Proof.Gen.ReferenceIdeal.Read
import Idealize.ShloMosaic.Lib.StableHlo.Run
import Idealize.ShloMosaic.Lib.ValueIdx
import Idealize.ShloMosaic.Lib.ValueLayout
import Idealize.ShloMosaic.PureOps.Ideal

set_option maxRecDepth 16384

noncomputable section

namespace Cert.Fold

open Cert.KernelIdeal Cert.KernelIdeal.Gen Cert.ReferenceIdeal.Read
open Idealize.ShloMosaic Idealize.ShloMosaic.TcCoe Idealize.SL.Sem Idealize.ShloMosaic.StableHlo Idealize.ShloMosaic.ValueIdx

variable (m : (ℓ : Loc nD τ sig) → Buf (Elt Ideal) ℓ) (ρ : Dev nD → PrngReg) (c : Dev nD)

/-- The contents of a buffer at the first region's entry, as a pure term of the launch contents: the five host
    stretches before the region applied in order. -/
local macro "through_the_prefix" : tactic =>
  `(tactic| (dsimp only [W5, W4, W3, W2, W1, hostOps0, hostOps0_1, hostOps0_2, hostOps0_3, hostOps0_4]
             after_results_simp))

/-! ## The argument arrays are untouched -/

theorem entry_arg0 : W5 m ρ c (Proc.devRef .tc main_arg0) = m ((c : Thread nD τ).loc main_arg0) := by
  through_the_prefix <;> rfl
theorem entry_arg3 : W5 m ρ c (Proc.devRef .tc main_arg3) = m ((c : Thread nD τ).loc main_arg3) := by
  through_the_prefix <;> rfl
theorem entry_arg6 : W5 m ρ c (Proc.devRef .tc main_arg6) = m ((c : Thread nD τ).loc main_arg6) := by
  through_the_prefix <;> rfl
theorem entry_arg7 : W5 m ρ c (Proc.devRef .tc main_arg7) = m ((c : Thread nD τ).loc main_arg7) := by
  through_the_prefix <;> rfl
theorem entry_arg8 : W5 m ρ c (Proc.devRef .tc main_arg8) = m ((c : Thread nD τ).loc main_arg8) := by
  through_the_prefix <;> rfl
theorem entry_arg9 : W5 m ρ c (Proc.devRef .tc main_arg9) = m ((c : Thread nD τ).loc main_arg9) := by
  through_the_prefix <;> rfl
theorem entry_arg10 : W5 m ρ c (Proc.devRef .tc main_arg10) = m ((c : Thread nD τ).loc main_arg10) := by
  through_the_prefix <;> rfl
theorem entry_arg11 : W5 m ρ c (Proc.devRef .tc main_arg11) = m ((c : Thread nD τ).loc main_arg11) := by
  through_the_prefix <;> rfl

/-! ## The edge data: sources, destinations, normalized weights -/

/-- The edges' source nodes: row 0 of the edge list. -/
theorem entry_src : W5 m ρ c (Proc.devRef .tc main_v1) = val_main_v1 (F := Ideal) (m ((c : Thread nD τ).loc main_arg1)) := by
  through_the_prefix <;> rfl
/-- The edges' destination nodes: row 1 of the edge list. -/
theorem entry_dst : W5 m ρ c (Proc.devRef .tc main_v3) = val_main_v3 (F := Ideal) (m ((c : Thread nD τ).loc main_arg1)) := by
  through_the_prefix <;> rfl
/-! ### The normalization, one host stretch at a time

The two guarded selections of the normalization (the degree replaced by one where it is not positive; the inverse
root replaced by zero there) are calls of an outlined function, whose operands pass through a change of type that is
the identity. Each is read with the contents before its stretch as an arbitrary valuation, so that its operands stay
unopened. -/

/-- Degrees: the edge attributes scatter-added at the sources. -/
theorem deg_at1 : W1 m ρ c (Proc.devRef .tc main_v6) = val_main_v6 (F := Ideal) (m ((c : Thread nD τ).loc main_arg1)) (m ((c : Thread nD τ).loc main_arg2)) := by
  dsimp only [W1, hostOps0]
  after_results_simp <;> rfl
theorem pos_at1 : W1 m ρ c (Proc.devRef .tc main_v8) = val_main_v8 (F := Ideal) (m ((c : Thread nD τ).loc main_arg1)) (m ((c : Thread nD τ).loc main_arg2)) := by
  dsimp only [W1, hostOps0]
  after_results_simp <;> rfl
theorem one_at1 : W1 m ρ c (Proc.devRef .tc main_cst_1) = val_main_cst_1 (F := Ideal) := by
  dsimp only [W1, hostOps0]
  after_results_simp <;> rfl

/-- The guard at degree zero, from any contents: the degree where it is positive, one elsewhere. -/
theorem guard_of (V : Valuation τ sig (Elt Ideal)) :
    StableHlo.after hostOps0_1 V (Proc.devRef .tc main_v9)
      = select (V (Proc.devRef .tc main_v8)) (V (Proc.devRef .tc main_v6))
          (broadcastInDim S50000 ![] bcast_S_S50000 (id (V (Proc.devRef .tc main_cst_1)))) := by
  dsimp only [hostOps0_1]
  after_results_simp <;> rfl

theorem guarded_at2 : W2 m ρ c (Proc.devRef .tc main_v9) = val_main_v9 (F := Ideal) (m ((c : Thread nD τ).loc main_arg1)) (m ((c : Thread nD τ).loc main_arg2)) := by
  refine (guard_of (W1 m ρ c)).trans ?_
  rw [deg_at1 m ρ c, pos_at1 m ρ c, one_at1 m ρ c]
  rfl
theorem deg_at2 : W2 m ρ c (Proc.devRef .tc main_v6) = val_main_v6 (F := Ideal) (m ((c : Thread nD τ).loc main_arg1)) (m ((c : Thread nD τ).loc main_arg2)) := by
  dsimp only [W2, W1, hostOps0, hostOps0_1]
  after_results_simp <;> rfl

/-- The inverse square root of the guarded degree, and the positivity test again, from any contents. -/
theorem inv_root_of (V : Valuation τ sig (Elt Ideal)) :
    StableHlo.after hostOps0_2 V (Proc.devRef .tc main_v12) = Host.rsqrt (F := Ideal) (s := S50000) (φ := .f32) (V (Proc.devRef .tc main_v9)) := by
  dsimp only [hostOps0_2]
  after_results_simp <;> rfl
theorem pos_again_of (V : Valuation τ sig (Elt Ideal)) :
    StableHlo.after hostOps0_2 V (Proc.devRef .tc main_v11)
      = cmpf (F := Ideal) .ogt (V (Proc.devRef .tc main_v6))
          (broadcastInDim S50000 ![] bcast_S_S50000 (constant (F := Ideal) S_ .f32 0x00000000#32)) := by
  dsimp only [hostOps0_2]
  after_results_simp <;> rfl
theorem zero_of (V : Valuation τ sig (Elt Ideal)) :
    StableHlo.after hostOps0_2 V (Proc.devRef .tc main_cst_3) = constant (F := Ideal) S_ .f32 0x00000000#32 := by
  dsimp only [hostOps0_2]
  after_results_simp <;> rfl

theorem inv_root_at3 : W3 m ρ c (Proc.devRef .tc main_v12) = val_main_v12 (F := Ideal) (m ((c : Thread nD τ).loc main_arg1)) (m ((c : Thread nD τ).loc main_arg2)) := by
  refine (inv_root_of (W2 m ρ c)).trans ?_
  rw [guarded_at2 m ρ c]
  rfl
theorem pos_at3 : W3 m ρ c (Proc.devRef .tc main_v11) = val_main_v11 (F := Ideal) (m ((c : Thread nD τ).loc main_arg1)) (m ((c : Thread nD τ).loc main_arg2)) := by
  refine (pos_again_of (W2 m ρ c)).trans ?_
  rw [deg_at2 m ρ c]
  rfl
theorem zero_at3 : W3 m ρ c (Proc.devRef .tc main_cst_3) = val_main_cst_3 (F := Ideal) :=
  (zero_of (W2 m ρ c)).trans rfl

/-- The guarded inverse root, from any contents: the inverse root where the degree is positive, zero elsewhere. -/
theorem guarded_inv_of (V : Valuation τ sig (Elt Ideal)) :
    StableHlo.after hostOps0_3 V (Proc.devRef .tc main_v13)
      = select (V (Proc.devRef .tc main_v11)) (V (Proc.devRef .tc main_v12))
          (broadcastInDim S50000 ![] bcast_S_S50000 (id (V (Proc.devRef .tc main_cst_3)))) := by
  dsimp only [hostOps0_3]
  after_results_simp <;> rfl

/-- `d^(-1/2)`, zero at nodes of degree zero. -/
theorem inv_at4 : W4 m ρ c (Proc.devRef .tc main_v13) = val_main_v13 (F := Ideal) (m ((c : Thread nD τ).loc main_arg1)) (m ((c : Thread nD τ).loc main_arg2)) := by
  refine (guarded_inv_of (W3 m ρ c)).trans ?_
  rw [pos_at3 m ρ c, inv_root_at3 m ρ c, zero_at3 m ρ c]
  rfl

/-! What the last stretch before the region reads besides: sources, destinations, attributes, features. -/

local macro "through_four_stretches" : tactic =>
  `(tactic| (dsimp only [W4, W3, W2, W1, hostOps0, hostOps0_1, hostOps0_2, hostOps0_3]
             after_results_simp))

theorem src_at4 : W4 m ρ c (Proc.devRef .tc main_v1) = val_main_v1 (F := Ideal) (m ((c : Thread nD τ).loc main_arg1)) := by
  through_four_stretches <;> rfl
theorem dst_at4 : W4 m ρ c (Proc.devRef .tc main_v3) = val_main_v3 (F := Ideal) (m ((c : Thread nD τ).loc main_arg1)) := by
  through_four_stretches <;> rfl
theorem attr_at4 : W4 m ρ c (Proc.devRef .tc main_arg2) = (m ((c : Thread nD τ).loc main_arg2)) := by
  through_four_stretches <;> rfl
theorem feat_at4 : W4 m ρ c (Proc.devRef .tc main_arg0) = (m ((c : Thread nD τ).loc main_arg0)) := by
  through_four_stretches <;> rfl

/-- The last stretch before the region, with the contents before it an arbitrary valuation that holds the reference's
    stages at the five buffers the stretch reads for the edge weights and the propagations. -/
local macro "last_stretch_from" h13:ident h1:ident h3:ident h2:ident h0:ident : tactic =>
  `(tactic| (dsimp only [hostOps0_4]
             after_results_simp
             simp only [$h13:ident, $h1:ident, $h3:ident, $h2:ident, $h0:ident]))

/-- The normalized edge weights `−d(src)^(-1/2) · attr · d(dst)^(-1/2)`. -/
theorem entry_weight : W5 m ρ c (Proc.devRef .tc main_v30) = val_main_v30 (F := Ideal) (m ((c : Thread nD τ).loc main_arg1)) (m ((c : Thread nD τ).loc main_arg2)) := by
  have h13 := inv_at4 m ρ c
  have h1 := src_at4 m ρ c
  have h3 := dst_at4 m ρ c
  have h2 := attr_at4 m ρ c
  have h0 := feat_at4 m ρ c
  show StableHlo.after hostOps0_4 (W4 m ρ c) (Proc.devRef .tc main_v30) = _
  generalize W4 m ρ c = V at h13 h1 h3 h2 h0 ⊢
  last_stretch_from h13 h1 h3 h2 h0
  rfl

/-! ## The first layer's operands -/

/-- The input features propagated once along the edges. -/
theorem entry_once : W5 m ρ c (Proc.devRef .tc main_v43) = val_main_v46 (F := Ideal) (m ((c : Thread nD τ).loc main_arg0)) (m ((c : Thread nD τ).loc main_arg1)) (m ((c : Thread nD τ).loc main_arg2)) := by
  have h13 := inv_at4 m ρ c
  have h1 := src_at4 m ρ c
  have h3 := dst_at4 m ρ c
  have h2 := attr_at4 m ρ c
  have h0 := feat_at4 m ρ c
  show StableHlo.after hostOps0_4 (W4 m ρ c) (Proc.devRef .tc main_v43) = _
  generalize W4 m ρ c = V at h13 h1 h3 h2 h0 ⊢
  last_stretch_from h13 h1 h3 h2 h0
  rfl
/-- The input features propagated twice. -/
theorem entry_twice : W5 m ρ c (Proc.devRef .tc main_v56) = val_main_v63 (F := Ideal) (m ((c : Thread nD τ).loc main_arg0)) (m ((c : Thread nD τ).loc main_arg1)) (m ((c : Thread nD τ).loc main_arg2)) := by
  have h13 := inv_at4 m ρ c
  have h1 := src_at4 m ρ c
  have h3 := dst_at4 m ρ c
  have h2 := attr_at4 m ρ c
  have h0 := feat_at4 m ρ c
  show StableHlo.after hostOps0_4 (W4 m ρ c) (Proc.devRef .tc main_v56) = _
  generalize W4 m ρ c = V at h13 h1 h3 h2 h0 ⊢
  last_stretch_from h13 h1 h3 h2 h0
  rfl
/-- The three weight slices; the narrowing to half precision is the identity on extended reals. -/
theorem entry_w0 : W5 m ρ c (Proc.devRef .tc main_v59) = val_main_v32 (F := Ideal) (m ((c : Thread nD τ).loc main_arg4)) := by
  through_the_prefix <;> rfl
theorem entry_w1 : W5 m ρ c (Proc.devRef .tc main_v62) = val_main_v48 (F := Ideal) (m ((c : Thread nD τ).loc main_arg4)) := by
  through_the_prefix <;> rfl
theorem entry_w2 : W5 m ρ c (Proc.devRef .tc main_v65) = val_main_v68 (F := Ideal) (m ((c : Thread nD τ).loc main_arg4)) := by
  through_the_prefix <;> rfl
/-- The bias presented as a one-row matrix reads, in its only row, the bias. -/
theorem entry_bias : (fun i : (⟨1, ![128]⟩ : Shape).Idx => W5 m ρ c (Proc.devRef .tc main_v66) (ix2 (0 : Fin 1) (i 0)))
    = m ((c : Thread nD τ).loc main_arg5) := by
  have e : W5 m ρ c (Proc.devRef .tc main_v66)
      = shapeCast S1x128 (m ((c : Thread nD τ).loc main_arg5)) shapeCasts_S128_S1x128 := by
    through_the_prefix <;> rfl
  funext i
  rw [e]
  exact (shapeCast_a_1a_apply (m ((c : Thread nD τ).loc main_arg5)) shapeCasts_S128_S1x128 0 (i 0)).trans
    (congrArg (m ((c : Thread nD τ).loc main_arg5)) (eq_ix1 i).symm)

end Cert.Fold

end
-- ==== Proof.ChebLayer.lean ====
/-
  One Chebyshev graph-convolution layer's dense tail, as a function of whole arrays.

  A layer takes three node-feature arrays of N rows and K columns — `t0` (the layer's input), `t1` (the input
  propagated once along the edges) and `p2` (propagated twice) —, three K × M weight matrices, and a bias of M
  entries. The third Chebyshev term is `2 · p2 − t0`; the layer's entry at row `r`, column `c` is

      max ( ((Σₖ t0[r,k]·w0[k,c]  +  Σₖ t1[r,k]·w1[k,c])  +  Σₖ (2·p2[r,k] − t0[r,k])·w2[k,c])  +  b[c] ,  0 )

  over the extended reals, the three products summed in this order and the bias added last. Row `r` of the result
  depends on row `r` of the three feature arrays only, which is why a computation that handles the rows in
  blocks of any size produces the same array.
-/
import Idealize.ShloMosaic.PureOps.Ideal
import Idealize.ShloMosaic.PureOps.Ideal.Laws
import Idealize.ShloMosaic.Lib.ValueIdx

noncomputable section

namespace Cert.Cheb

open Idealize.ShloMosaic Idealize.ShloMosaic.ValueIdx

/-- The literal `2` of the recurrence `2 · p2 − t0`, as the extended real its single-precision word denotes. -/
abbrev two : EReal := Ideal.ofBits .f32 0x40000000#32

/-- The floor of the rectifier, as the extended real the zero word denotes. -/
abbrev floor0 : EReal := Ideal.ofBits .f32 0x00000000#32

/-- Entry (`r`, `c`) of the layer: the three matrix products summed left to right, the bias, the rectifier. -/
def layerAt {N K M : Nat} (t0 t1 p2 : (⟨2, ![N, K]⟩ : Shape).Idx → EReal) (w0 w1 w2 : (⟨2, ![K, M]⟩ : Shape).Idx → EReal)
    (b : (⟨1, ![M]⟩ : Shape).Idx → EReal) (r : Fin N) (c : Fin M) : EReal :=
  max ((((∑ k : Fin K, t0 (ix2 r k) * w0 (ix2 k c)) + ∑ k : Fin K, t1 (ix2 r k) * w1 (ix2 k c))
        + ∑ k : Fin K, (two * p2 (ix2 r k) - t0 (ix2 r k)) * w2 (ix2 k c))
       + b (ix1 c)) floor0

/-- The layer as an array of N rows and M columns. -/
def layer {N K M : Nat} (t0 t1 p2 : (⟨2, ![N, K]⟩ : Shape).Idx → EReal) (w0 w1 w2 : (⟨2, ![K, M]⟩ : Shape).Idx → EReal)
    (b : (⟨1, ![M]⟩ : Shape).Idx → EReal) : (⟨2, ![N, M]⟩ : Shape).Idx → EReal :=
  fun j => layerAt t0 t1 p2 w0 w1 w2 b (j 0) (j 1)

theorem layer_ix2 {N K M : Nat} (t0 t1 p2 : (⟨2, ![N, K]⟩ : Shape).Idx → EReal) (w0 w1 w2 : (⟨2, ![K, M]⟩ : Shape).Idx → EReal)
    (b : (⟨1, ![M]⟩ : Shape).Idx → EReal) (r : Fin N) (c : Fin M) :
    layer t0 t1 p2 w0 w1 w2 b (ix2 r c) = layerAt t0 t1 p2 w0 w1 w2 b r c := rfl

end Cert.Cheb

end
-- ==== Proof.RegionLayers.lean ====
/-
  The three kernel regions, each read as one Chebyshev layer of the arrays it finds.

  A region runs over ten grid points. Point `t` loads rows `5000·t … 5000·t + 4999` of the three feature arrays, the
  whole of the three weight matrices and of the one-row bias, and stores one 5000-row block of the result. Here:
  the stored value at row `p`, column `q` of that block is the layer's entry computed from the loaded blocks (the three
  matrix products as sums over the contracted axis, the recurrence term `2·p2 − t0`, the bias row, the rectifier);
  the loaded blocks are the named rows of the arrays, so what point `t` writes back is block `t` of the layer of the
  whole arrays; the ten blocks cover the 50000 rows (row `r` lies in block `r / 5000`); hence the array the region
  leaves is the layer of the arrays it found.
-/
import proofs.«143596_j22514218566432_2_alg».proof.Proof.Gen.KernelIdeal.Frame
import proofs.«143596_j22514218566432_2_alg».proof.Proof.ChebLayer
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.RegionLayers

open Cert.KernelIdeal Cert.KernelIdeal.Gen Idealize.ShloMosaic Idealize.ShloMosaic.TcCoe Idealize.SL.Sem
open Idealize.ShloMosaic.Pipeline (Dat)
open Idealize.ShloMosaic.ValueIdx

/-! ## The layer's entry depends only on the rows, columns and bias entry it names -/

/-- Two sets of arrays that agree on row `r` (resp. `r'`) of the features, column `c` of the weights and entry `c` of the
    bias give the same layer entry. -/
theorem layerAt_congr {N N' K M : Nat}
    (t0 t1 p2 : (⟨2, ![N, K]⟩ : Shape).Idx → EReal) (t0' t1' p2' : (⟨2, ![N', K]⟩ : Shape).Idx → EReal)
    (w0 w1 w2 w0' w1' w2' : (⟨2, ![K, M]⟩ : Shape).Idx → EReal) (b b' : (⟨1, ![M]⟩ : Shape).Idx → EReal)
    (r : Fin N) (r' : Fin N') (c : Fin M)
    (h0 : ∀ k : Fin K, t0 (ix2 r k) = t0' (ix2 r' k)) (h1 : ∀ k : Fin K, t1 (ix2 r k) = t1' (ix2 r' k))
    (h2 : ∀ k : Fin K, p2 (ix2 r k) = p2' (ix2 r' k))
    (hw0 : ∀ k : Fin K, w0 (ix2 k c) = w0' (ix2 k c)) (hw1 : ∀ k : Fin K, w1 (ix2 k c) = w1' (ix2 k c))
    (hw2 : ∀ k : Fin K, w2 (ix2 k c) = w2' (ix2 k c)) (hb : b (ix1 c) = b' (ix1 c)) :
    Cert.Cheb.layerAt t0 t1 p2 w0 w1 w2 b r c = Cert.Cheb.layerAt t0' t1' p2' w0' w1' w2' b' r' c := by
  unfold Cert.Cheb.layerAt
  simp only [h0, h1, h2, hw0, hw1, hw2, hb]

theorem hz : (![0, 0] : Fin 2 → Nat) = fun _ => 0 := funext fun a => by fin_cases a <;> rfl

/-! ## Region 0: the body's arithmetic at one entry -/

theorem lhs0_row (i : S5000x128.Idx) (q : dot_S5000x160_S160x128_S5000x128_1_0_0_1_n_n.contr.Idx) :
    (dot_S5000x160_S160x128_S5000x128_1_0_0_1_n_n.lhsIdx i q 0).val = (i 0).val := by
  unfold DotDims.lhsIdx
  rw [dif_neg (show ¬(0 : Fin S5000x160.rank) ∈ dot_S5000x160_S160x128_S5000x128_1_0_0_1_n_n.lhsBatch by decide), dif_pos (show (0 : Fin S5000x160.rank) ∈ dot_S5000x160_S160x128_S5000x128_1_0_0_1_n_n.lhsNonContracting by decide)]
  rfl
theorem lhs0_contr (i : S5000x128.Idx) (q : dot_S5000x160_S160x128_S5000x128_1_0_0_1_n_n.contr.Idx) :
    (dot_S5000x160_S160x128_S5000x128_1_0_0_1_n_n.lhsIdx i q 1).val = (q ⟨0, by decide⟩).val :=
  dot_S5000x160_S160x128_S5000x128_1_0_0_1_n_n.lhsIdx_val_of_single rfl i q
theorem rhs0_contr (i : S5000x128.Idx) (q : dot_S5000x160_S160x128_S5000x128_1_0_0_1_n_n.contr.Idx) :
    (dot_S5000x160_S160x128_S5000x128_1_0_0_1_n_n.rhsIdx i q 0).val = (q ⟨0, by decide⟩).val :=
  dot_S5000x160_S160x128_S5000x128_1_0_0_1_n_n.rhsIdx_val_of_single rfl i q
theorem rhs0_col (i : S5000x128.Idx) (q : dot_S5000x160_S160x128_S5000x128_1_0_0_1_n_n.contr.Idx) :
    (dot_S5000x160_S160x128_S5000x128_1_0_0_1_n_n.rhsIdx i q 1).val = (i 1).val := by
  unfold DotDims.rhsIdx
  rw [dif_neg (show ¬(1 : Fin S160x128.rank) ∈ dot_S5000x160_S160x128_S5000x128_1_0_0_1_n_n.rhsBatch by decide), dif_pos (show (1 : Fin S160x128.rank) ∈ dot_S5000x160_S160x128_S5000x128_1_0_0_1_n_n.rhsNonContracting by decide)]
  rfl

/-- A matrix product into the zero accumulator, read at row `p` and column `q`: the sum over the 160 contracted positions. -/
theorem matmul0_apply (x : FVec Ideal S5000x160 .bf16) (w : FVec Ideal S160x128 .bf16) (p : Fin 5000) (q : Fin 128) :
    matmul dot_S5000x160_S160x128_S5000x128_1_0_0_1_n_n none x w (constant S5000x128 .f32 0x00000000#32) (ix2 p q)
      = ∑ k : Fin 160, x (ix2 p k) * w (ix2 k q) := by
  simp only [matmul]
  rw [Ideal.matmul_constant_zero_apply, ← Equiv.sum_comp (ValueIdx.contrEquiv1 dot_S5000x160_S160x128_S5000x128_1_0_0_1_n_n 160 rfl rfl).symm]
  refine Finset.sum_congr rfl fun k _ => ?_
  have hk := ValueIdx.contrEquiv1_symm_val dot_S5000x160_S160x128_S5000x128_1_0_0_1_n_n 160 rfl rfl k
  have el : dot_S5000x160_S160x128_S5000x128_1_0_0_1_n_n.lhsIdx (ix2 p q) ((ValueIdx.contrEquiv1 dot_S5000x160_S160x128_S5000x128_1_0_0_1_n_n 160 rfl rfl).symm k) = ix2 p k := funext fun a => Fin.ext (by
    match a with
    | ⟨0, _⟩ => exact lhs0_row _ _
    | ⟨1, _⟩ => exact (lhs0_contr _ _).trans hk)
  have er : dot_S5000x160_S160x128_S5000x128_1_0_0_1_n_n.rhsIdx (ix2 p q) ((ValueIdx.contrEquiv1 dot_S5000x160_S160x128_S5000x128_1_0_0_1_n_n 160 rfl rfl).symm k) = ix2 k q := funext fun a => Fin.ext (by
    match a with
    | ⟨0, _⟩ => exact (rhs0_contr _ _).trans hk
    | ⟨1, _⟩ => exact rhs0_col _ _)
  rw [el, er]

set_option maxHeartbeats 400000 in
/-- The body's one stored value at row `p`, column `q` of its block is the layer's entry computed from the blocks it loaded. -/
theorem pay0_apply (x0 x1 x2 : FVec Ideal S5000x160 .f32) (w0 w1 w2 : FVec Ideal S160x128 .bf16) (b : FVec Ideal S1x128 .f32)
    (p : Fin 5000) (q : Fin 128) :
    k0_pay1 (F := Ideal) x0 x1 x2 w0 w1 w2 b (ix2 p q)
      = Cert.Cheb.layerAt (N := 5000) (K := 160) (M := 128) x0 x1 x2 w0 w1 w2 (fun i => b (ix2 (0 : Fin 1) (i 0))) p q := by
  unfold k0_pay1 Cert.Cheb.layerAt
  simp only [shapeCast_self]
  rw [maximumf_apply, addf_apply, addf_apply, addf_apply, broadcast_apply, broadcastTo_1b_ab_apply,
    matmul0_apply, matmul0_apply, matmul0_apply]
  simp only [truncf_apply, subf_apply, mulf_apply, broadcast_apply]
  rfl

/-! ## Region 0: from the blocks to the array -/

section Region0
variable (V : (c : Dev nD) → (b : Ref sig .tc) → Buf (Elt Ideal) ((c : Thread nD τ).loc b))

/-- The printed index maps, decided over the ten grid points: the feature windows and the output window sit at block
    row `t`, the weight and bias windows at block (0, 0). -/
theorem idx_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0 :=
  (by decide +kernel : ∀ t : Fin grid0.N, _)

/-- The block of feature window 0 at point `t` holds rows `5000·t … 5000·t + 4999` of its array. -/
theorem feat0_0 (c : Dev nD) (t : Fin cfg0.N) (p : Fin 5000) (j : Fin 160) (r : Fin 50000) (hr : r.val = 5000 * t.val + p.val) :
    (iblk0 (F := Ideal) V c 0 t : FVec Ideal S5000x160 .f32) (ix2 p j) = (V c main_arg0 : S50000x160.Idx → EReal) (ix2 r j) := by
  have hi := idx_facts0 t
  unfold iblk0
  rw [View.read_apply]
  show V c main_arg0 _ = V c main_arg0 _
  congr 1
  funext a
  apply Fin.ext
  match a with
  | ⟨0, _⟩ => show win0_0.index t (0 : Fin 2) * 5000 + 1 * p.val = r.val; omega
  | ⟨1, _⟩ => show win0_0.index t (1 : Fin 2) * 160 + 1 * j.val = j.val; omega

/-- The block of feature window 1 at point `t` holds rows `5000·t … 5000·t + 4999` of its array. -/
theorem feat0_1 (c : Dev nD) (t : Fin cfg0.N) (p : Fin 5000) (j : Fin 160) (r : Fin 50000) (hr : r.val = 5000 * t.val + p.val) :
    (iblk0 (F := Ideal) V c 1 t : FVec Ideal S5000x160 .f32) (ix2 p j) = (V c main_v43 : S50000x160.Idx → EReal) (ix2 r j) := by
  have hi := idx_facts0 t
  unfold iblk0
  rw [View.read_apply]
  show V c main_v43 _ = V c main_v43 _
  congr 1
  funext a
  apply Fin.ext
  match a with
  | ⟨0, _⟩ => show win0_1.index t (0 : Fin 2) * 5000 + 1 * p.val = r.val; omega
  | ⟨1, _⟩ => show win0_1.index t (1 : Fin 2) * 160 + 1 * j.val = j.val; omega

/-- The block of feature window 2 at point `t` holds rows `5000·t … 5000·t + 4999` of its array. -/
theorem feat0_2 (c : Dev nD) (t : Fin cfg0.N) (p : Fin 5000) (j : Fin 160) (r : Fin 50000) (hr : r.val = 5000 * t.val + p.val) :
    (iblk0 (F := Ideal) V c 2 t : FVec Ideal S5000x160 .f32) (ix2 p j) = (V c main_v56 : S50000x160.Idx → EReal) (ix2 r j) := by
  have hi := idx_facts0 t
  unfold iblk0
  rw [View.read_apply]
  show V c main_v56 _ = V c main_v56 _
  congr 1
  funext a
  apply Fin.ext
  match a with
  | ⟨0, _⟩ => show win0_2.index t (0 : Fin 2) * 5000 + 1 * p.val = r.val; omega
  | ⟨1, _⟩ => show win0_2.index t (1 : Fin 2) * 160 + 1 * j.val = j.val; omega

/-- The block of weight window 3 is its whole array at every point. -/
theorem weight0_3 (c : Dev nD) (t : Fin cfg0.N) (j : Fin 160) (q : Fin 128) :
    (iblk0 (F := Ideal) V c 3 t : FVec Ideal S160x128 .bf16) (ix2 j q) = (V c main_v59 : S160x128.Idx → EReal) (ix2 j q) := by
  have hi := idx_facts0 t
  unfold iblk0
  rw [View.read_apply]
  show V c main_v59 _ = V c main_v59 _
  congr 1
  funext a
  apply Fin.ext
  match a with
  | ⟨0, _⟩ => show win0_3.index t (0 : Fin 2) * 160 + 1 * j.val = j.val; omega
  | ⟨1, _⟩ => show win0_3.index t (1 : Fin 2) * 128 + 1 * q.val = q.val; omega

/-- The block of weight window 4 is its whole array at every point. -/
theorem weight0_4 (c : Dev nD) (t : Fin cfg0.N) (j : Fin 160) (q : Fin 128) :
    (iblk0 (F := Ideal) V c 4 t : FVec Ideal S160x128 .bf16) (ix2 j q) = (V c main_v62 : S160x128.Idx → EReal) (ix2 j q) := by
  have hi := idx_facts0 t
  unfold iblk0
  rw [View.read_apply]
  show V c main_v62 _ = V c main_v62 _
  congr 1
  funext a
  apply Fin.ext
  match a with
  | ⟨0, _⟩ => show win0_4.index t (0 : Fin 2) * 160 + 1 * j.val = j.val; omega
  | ⟨1, _⟩ => show win0_4.index t (1 : Fin 2) * 128 + 1 * q.val = q.val; omega

/-- The block of weight window 5 is its whole array at every point. -/
theorem weight0_5 (c : Dev nD) (t : Fin cfg0.N) (j : Fin 160) (q : Fin 128) :
    (iblk0 (F := Ideal) V c 5 t : FVec Ideal S160x128 .bf16) (ix2 j q) = (V c main_v65 : S160x128.Idx → EReal) (ix2 j q) := by
  have hi := idx_facts0 t
  unfold iblk0
  rw [View.read_apply]
  show V c main_v65 _ = V c main_v65 _
  congr 1
  funext a
  apply Fin.ext
  match a with
  | ⟨0, _⟩ => show win0_5.index t (0 : Fin 2) * 160 + 1 * j.val = j.val; omega
  | ⟨1, _⟩ => show win0_5.index t (1 : Fin 2) * 128 + 1 * q.val = q.val; omega

/-- The block of the bias window is its whole one-row array at every point. -/
theorem bias0_6 (c : Dev nD) (t : Fin cfg0.N) (q : Fin 128) :
    (iblk0 (F := Ideal) V c 6 t : FVec Ideal S1x128 .f32) (ix2 (0 : Fin 1) q) = (V c main_v66 : S1x128.Idx → EReal) (ix2 (0 : Fin 1) q) := by
  have hi := idx_facts0 t
  unfold iblk0
  rw [View.read_apply]
  show V c main_v66 _ = V c main_v66 _
  congr 1
  funext a
  apply Fin.ext
  match a with
  | ⟨0, _⟩ => show win0_6.index t (0 : Fin 2) * 1 + 1 * 0 = 0; omega
  | ⟨1, _⟩ => show win0_6.index t (1 : Fin 2) * 128 + 1 * q.val = q.val; omega

/-- The layer of the arrays the region finds, as the array it is to leave in window 7's place. -/
abbrev spec0 (c : Dev nD) : S50000x128.Idx → EReal :=
  Cert.Cheb.layer (N := 50000) (K := 160) (M := 128) (V c main_arg0) (V c main_v43) (V c main_v56)
    (V c main_v59) (V c main_v62) (V c main_v65) (fun i => V c main_v66 (ix2 (0 : Fin 1) (i 0)))

set_option maxHeartbeats 400000 in
/-- What point `t` writes back is block `t` of the layer of the arrays the region finds. -/
theorem flushed0_eq (c : Dev nD) (t : Fin cfg0.N) :
    (dat0 (F := Ideal) V c).flushed 7 t = ((cfg0.win 7).blk t).view.read (Elt Ideal) (spec0 V c) := by
  show (cfg0.win 7).cut (grid0.coords t) ((dat0 V c).after 7 t) = _
  rw [after0_7]
  unfold out0_7
  rw [View.canon_unit_zero hz]
  simp only [View.ld_unit_zero (S := S5000x160) hz, View.ld_unit_zero (S := S160x128) hz, View.ld_unit_zero (S := S1x128) hz]
  have hi := idx_facts0 t
  have hN : cfg0.N = 10 := N_0
  refine funext fun (j : S5000x128.Idx) => ?_
  obtain ⟨p, q, rfl⟩ : ∃ (p : Fin 5000) (q : Fin 128), j = ix2 p q := ⟨j 0, j 1, eq_ix2 j⟩
  have ht : t.val < 10 := hN ▸ t.isLt
  have hrow : 5000 * t.val + p.val < 50000 := by have := p.isLt; omega
  have hemb : ((cfg0.win 7).blk t).view.emb (ix2 p q) = (ix2 (⟨5000 * t.val + p.val, hrow⟩ : Fin 50000) q : S50000x128.Idx) := by
    funext a
    apply Fin.ext
    match a with
    | ⟨0, _⟩ => show win0_7.index t (0 : Fin 2) * 5000 + 1 * p.val = 5000 * t.val + p.val; omega
    | ⟨1, _⟩ => show win0_7.index t (1 : Fin 2) * 128 + 1 * q.val = q.val; omega
  show k0_pay1 (F := Ideal) (iblk0 V c 0 t) (iblk0 V c 1 t) (iblk0 V c 2 t) (iblk0 V c 3 t) (iblk0 V c 4 t) (iblk0 V c 5 t) (iblk0 V c 6 t) (ix2 p q)
      = spec0 V c (((cfg0.win 7).blk t).view.emb (ix2 p q))
  rw [hemb]
  refine (pay0_apply (iblk0 V c 0 t) (iblk0 V c 1 t) (iblk0 V c 2 t) (iblk0 V c 3 t) (iblk0 V c 4 t) (iblk0 V c 5 t) (iblk0 V c 6 t) p q).trans ?_
  refine (layerAt_congr (N := 5000) (N' := 50000) (K := 160) (M := 128) _ _ _ _ _ _ _ _ _ _ _ _
    (fun i : (⟨1, ![128]⟩ : Shape).Idx => iblk0 (F := Ideal) V c 6 t (ix2 (0 : Fin 1) (i 0)))
    (fun i : (⟨1, ![128]⟩ : Shape).Idx => V c main_v66 (ix2 (0 : Fin 1) (i 0))) p ⟨5000 * t.val + p.val, hrow⟩ q
    (fun j => feat0_0 V c t p j _ rfl) (fun j => feat0_1 V c t p j _ rfl) (fun j => feat0_2 V c t p j _ rfl)
    (fun j => weight0_3 V c t j q) (fun j => weight0_4 V c t j q) (fun j => weight0_5 V c t j q)
    (bias0_6 V c t q)).trans ?_
  rfl

/-- Every row of the array is in the block of the point its number divided by 5000 names. -/
theorem cover0 (i : S50000x128.Idx) :
    ∃ t : Fin cfg0.N, (cfg0.win 7).flush t = true ∧ i ∈ ((cfg0.win 7).blk t).view.set := by
  have hN : cfg0.N = 10 := N_0
  have h0 : (i 0).val < 50000 := (i 0).isLt
  have h1 : (i 1).val < 128 := (i 1).isLt
  have hlt : (i 0).val / 5000 < cfg0.N := by rw [hN]; omega
  refine ⟨⟨(i 0).val / 5000, hlt⟩, flush0_7 _, ?_⟩
  have hi := idx_facts0 ⟨(i 0).val / 5000, hlt⟩
  show i ∈ ((View.whole main_v67).slice (win0_7.rect ⟨(i 0).val / 5000, hlt⟩)).set
  rw [View.set_slice_whole, Rect.mem_set_unit]
  intro a
  match a with
  | ⟨0, _⟩ =>
    show win0_7.index ⟨(i 0).val / 5000, hlt⟩ (0 : Fin 2) * 5000 ≤ (i 0).val ∧ (i 0).val < win0_7.index ⟨(i 0).val / 5000, hlt⟩ (0 : Fin 2) * 5000 + 5000
    have e : win0_7.index ⟨(i 0).val / 5000, hlt⟩ (0 : Fin 2) = (i 0).val / 5000 := hi.2.2.2.2.2.2.2.2.2.2.2.2.2.2.1
    omega
  | ⟨1, _⟩ =>
    show win0_7.index ⟨(i 0).val / 5000, hlt⟩ (1 : Fin 2) * 128 ≤ (i 1).val ∧ (i 1).val < win0_7.index ⟨(i 0).val / 5000, hlt⟩ (1 : Fin 2) * 128 + 128
    have e : win0_7.index ⟨(i 0).val / 5000, hlt⟩ (1 : Fin 2) = 0 := hi.2.2.2.2.2.2.2.2.2.2.2.2.2.2.2
    omega

/-- The array the region leaves in window 7's place is the layer of the arrays it found. -/
theorem array0 (c : Dev nD) :
    (Gen.dat0 (F := Ideal) V c).arrAt 7 cfg0.N
      = Cert.Cheb.layer (N := 50000) (K := 160) (M := 128) (V c main_arg0) (V c main_v43) (V c main_v56)
          (V c main_v59) (V c main_v62) (V c main_v65) (fun i => V c main_v66 (ix2 (0 : Fin 1) (i 0))) :=
  (dat0 (F := Ideal) V c).arrAt_eq_of_cover 7 (spec0 V c) (fun t _ => flushed0_eq V c t) (cover0)

end Region0

/-! ## Region 1: the body's arithmetic at one entry -/

theorem lhs1_row (i : S5000x64.Idx) (q : dot_S5000x128_S128x64_S5000x64_1_0_0_1_n_n.contr.Idx) :
    (dot_S5000x128_S128x64_S5000x64_1_0_0_1_n_n.lhsIdx i q 0).val = (i 0).val := by
  unfold DotDims.lhsIdx
  rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
  rfl
theorem lhs1_contr (i : S5000x64.Idx) (q : dot_S5000x128_S128x64_S5000x64_1_0_0_1_n_n.contr.Idx) :
    (dot_S5000x128_S128x64_S5000x64_1_0_0_1_n_n.lhsIdx i q 1).val = (q ⟨0, by decide⟩).val :=
  dot_S5000x128_S128x64_S5000x64_1_0_0_1_n_n.lhsIdx_val_of_single rfl i q
theorem rhs1_contr (i : S5000x64.Idx) (q : dot_S5000x128_S128x64_S5000x64_1_0_0_1_n_n.contr.Idx) :
    (dot_S5000x128_S128x64_S5000x64_1_0_0_1_n_n.rhsIdx i q 0).val = (q ⟨0, by decide⟩).val :=
  dot_S5000x128_S128x64_S5000x64_1_0_0_1_n_n.rhsIdx_val_of_single rfl i q
theorem rhs1_col (i : S5000x64.Idx) (q : dot_S5000x128_S128x64_S5000x64_1_0_0_1_n_n.contr.Idx) :
    (dot_S5000x128_S128x64_S5000x64_1_0_0_1_n_n.rhsIdx i q 1).val = (i 1).val := by
  unfold DotDims.rhsIdx
  rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
  rfl

/-- A matrix product into the zero accumulator, read at row `p` and column `q`: the sum over the 128 contracted positions. -/
theorem matmul1_apply (x : FVec Ideal S5000x128 .bf16) (w : FVec Ideal S128x64 .bf16) (p : Fin 5000) (q : Fin 64) :
    matmul dot_S5000x128_S128x64_S5000x64_1_0_0_1_n_n none x w (constant S5000x64 .f32 0x00000000#32) (ix2 p q)
      = ∑ k : Fin 128, x (ix2 p k) * w (ix2 k q) := by
  simp only [matmul]
  rw [Ideal.matmul_constant_zero_apply, ← Equiv.sum_comp (ValueIdx.contrEquiv1 dot_S5000x128_S128x64_S5000x64_1_0_0_1_n_n 128 rfl rfl).symm]
  refine Finset.sum_congr rfl fun k _ => ?_
  have hk := ValueIdx.contrEquiv1_symm_val dot_S5000x128_S128x64_S5000x64_1_0_0_1_n_n 128 rfl rfl k
  have el : dot_S5000x128_S128x64_S5000x64_1_0_0_1_n_n.lhsIdx (ix2 p q) ((ValueIdx.contrEquiv1 dot_S5000x128_S128x64_S5000x64_1_0_0_1_n_n 128 rfl rfl).symm k) = ix2 p k := funext fun a => Fin.ext (by
    match a with
    | ⟨0, _⟩ => exact lhs1_row _ _
    | ⟨1, _⟩ => exact (lhs1_contr _ _).trans hk)
  have er : dot_S5000x128_S128x64_S5000x64_1_0_0_1_n_n.rhsIdx (ix2 p q) ((ValueIdx.contrEquiv1 dot_S5000x128_S128x64_S5000x64_1_0_0_1_n_n 128 rfl rfl).symm k) = ix2 k q := funext fun a => Fin.ext (by
    match a with
    | ⟨0, _⟩ => exact (rhs1_contr _ _).trans hk
    | ⟨1, _⟩ => exact rhs1_col _ _)
  rw [el, er]

set_option maxHeartbeats 400000 in
/-- The body's one stored value at row `p`, column `q` of its block is the layer's entry computed from the blocks it loaded. -/
theorem pay1_apply (x0 x1 x2 : FVec Ideal S5000x128 .f32) (w0 w1 w2 : FVec Ideal S128x64 .bf16) (b : FVec Ideal S1x64 .f32)
    (p : Fin 5000) (q : Fin 64) :
    k1_pay1 (F := Ideal) x0 x1 x2 w0 w1 w2 b (ix2 p q)
      = Cert.Cheb.layerAt (N := 5000) (K := 128) (M := 64) x0 x1 x2 w0 w1 w2 (fun i => b (ix2 (0 : Fin 1) (i 0))) p q := by
  unfold k1_pay1 Cert.Cheb.layerAt
  simp only [shapeCast_self]
  rw [maximumf_apply, addf_apply, addf_apply, addf_apply, broadcast_apply, broadcastTo_1b_ab_apply,
    matmul1_apply, matmul1_apply, matmul1_apply]
  simp only [truncf_apply, subf_apply, mulf_apply, broadcast_apply]
  rfl

/-! ## Region 1: from the blocks to the array -/

section Region1
variable (V : (c : Dev nD) → (b : Ref sig .tc) → Buf (Elt Ideal) ((c : Thread nD τ).loc b))

/-- The printed index maps, decided over the ten grid points: the feature windows and the output window sit at block
    row `t`, the weight and bias windows at block (0, 0). -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = t.val ∧ win1_7.index t (1 : Fin 2) = 0 :=
  (by decide +kernel : ∀ t : Fin grid1.N, _)

/-- The block of feature window 0 at point `t` holds rows `5000·t … 5000·t + 4999` of its array. -/
theorem feat1_0 (c : Dev nD) (t : Fin cfg1.N) (p : Fin 5000) (j : Fin 128) (r : Fin 50000) (hr : r.val = 5000 * t.val + p.val) :
    (iblk1 (F := Ideal) V c 0 t : FVec Ideal S5000x128 .f32) (ix2 p j) = (V c main_v67 : S50000x128.Idx → EReal) (ix2 r j) := by
  have hi := idx_facts1 t
  unfold iblk1
  rw [View.read_apply]
  show V c main_v67 _ = V c main_v67 _
  congr 1
  funext a
  apply Fin.ext
  match a with
  | ⟨0, _⟩ => show win1_0.index t (0 : Fin 2) * 5000 + 1 * p.val = r.val; omega
  | ⟨1, _⟩ => show win1_0.index t (1 : Fin 2) * 128 + 1 * j.val = j.val; omega

/-- The block of feature window 1 at point `t` holds rows `5000·t … 5000·t + 4999` of its array. -/
theorem feat1_1 (c : Dev nD) (t : Fin cfg1.N) (p : Fin 5000) (j : Fin 128) (r : Fin 50000) (hr : r.val = 5000 * t.val + p.val) :
    (iblk1 (F := Ideal) V c 1 t : FVec Ideal S5000x128 .f32) (ix2 p j) = (V c main_v80 : S50000x128.Idx → EReal) (ix2 r j) := by
  have hi := idx_facts1 t
  unfold iblk1
  rw [View.read_apply]
  show V c main_v80 _ = V c main_v80 _
  congr 1
  funext a
  apply Fin.ext
  match a with
  | ⟨0, _⟩ => show win1_1.index t (0 : Fin 2) * 5000 + 1 * p.val = r.val; omega
  | ⟨1, _⟩ => show win1_1.index t (1 : Fin 2) * 128 + 1 * j.val = j.val; omega

/-- The block of feature window 2 at point `t` holds rows `5000·t … 5000·t + 4999` of its array. -/
theorem feat1_2 (c : Dev nD) (t : Fin cfg1.N) (p : Fin 5000) (j : Fin 128) (r : Fin 50000) (hr : r.val = 5000 * t.val + p.val) :
    (iblk1 (F := Ideal) V c 2 t : FVec Ideal S5000x128 .f32) (ix2 p j) = (V c main_v93 : S50000x128.Idx → EReal) (ix2 r j) := by
  have hi := idx_facts1 t
  unfold iblk1
  rw [View.read_apply]
  show V c main_v93 _ = V c main_v93 _
  congr 1
  funext a
  apply Fin.ext
  match a with
  | ⟨0, _⟩ => show win1_2.index t (0 : Fin 2) * 5000 + 1 * p.val = r.val; omega
  | ⟨1, _⟩ => show win1_2.index t (1 : Fin 2) * 128 + 1 * j.val = j.val; omega

/-- The block of weight window 3 is its whole array at every point. -/
theorem weight1_3 (c : Dev nD) (t : Fin cfg1.N) (j : Fin 128) (q : Fin 64) :
    (iblk1 (F := Ideal) V c 3 t : FVec Ideal S128x64 .bf16) (ix2 j q) = (V c main_v96 : S128x64.Idx → EReal) (ix2 j q) := by
  have hi := idx_facts1 t
  unfold iblk1
  rw [View.read_apply]
  show V c main_v96 _ = V c main_v96 _
  congr 1
  funext a
  apply Fin.ext
  match a with
  | ⟨0, _⟩ => show win1_3.index t (0 : Fin 2) * 128 + 1 * j.val = j.val; omega
  | ⟨1, _⟩ => show win1_3.index t (1 : Fin 2) * 64 + 1 * q.val = q.val; omega

/-- The block of weight window 4 is its whole array at every point. -/
theorem weight1_4 (c : Dev nD) (t : Fin cfg1.N) (j : Fin 128) (q : Fin 64) :
    (iblk1 (F := Ideal) V c 4 t : FVec Ideal S128x64 .bf16) (ix2 j q) = (V c main_v99 : S128x64.Idx → EReal) (ix2 j q) := by
  have hi := idx_facts1 t
  unfold iblk1
  rw [View.read_apply]
  show V c main_v99 _ = V c main_v99 _
  congr 1
  funext a
  apply Fin.ext
  match a with
  | ⟨0, _⟩ => show win1_4.index t (0 : Fin 2) * 128 + 1 * j.val = j.val; omega
  | ⟨1, _⟩ => show win1_4.index t (1 : Fin 2) * 64 + 1 * q.val = q.val; omega

/-- The block of weight window 5 is its whole array at every point. -/
theorem weight1_5 (c : Dev nD) (t : Fin cfg1.N) (j : Fin 128) (q : Fin 64) :
    (iblk1 (F := Ideal) V c 5 t : FVec Ideal S128x64 .bf16) (ix2 j q) = (V c main_v102 : S128x64.Idx → EReal) (ix2 j q) := by
  have hi := idx_facts1 t
  unfold iblk1
  rw [View.read_apply]
  show V c main_v102 _ = V c main_v102 _
  congr 1
  funext a
  apply Fin.ext
  match a with
  | ⟨0, _⟩ => show win1_5.index t (0 : Fin 2) * 128 + 1 * j.val = j.val; omega
  | ⟨1, _⟩ => show win1_5.index t (1 : Fin 2) * 64 + 1 * q.val = q.val; omega

/-- The block of the bias window is its whole one-row array at every point. -/
theorem bias1_6 (c : Dev nD) (t : Fin cfg1.N) (q : Fin 64) :
    (iblk1 (F := Ideal) V c 6 t : FVec Ideal S1x64 .f32) (ix2 (0 : Fin 1) q) = (V c main_v103 : S1x64.Idx → EReal) (ix2 (0 : Fin 1) q) := by
  have hi := idx_facts1 t
  unfold iblk1
  rw [View.read_apply]
  show V c main_v103 _ = V c main_v103 _
  congr 1
  funext a
  apply Fin.ext
  match a with
  | ⟨0, _⟩ => show win1_6.index t (0 : Fin 2) * 1 + 1 * 0 = 0; omega
  | ⟨1, _⟩ => show win1_6.index t (1 : Fin 2) * 64 + 1 * q.val = q.val; omega

/-- The layer of the arrays the region finds, as the array it is to leave in window 7's place. -/
abbrev spec1 (c : Dev nD) : S50000x64.Idx → EReal :=
  Cert.Cheb.layer (N := 50000) (K := 128) (M := 64) (V c main_v67) (V c main_v80) (V c main_v93)
    (V c main_v96) (V c main_v99) (V c main_v102) (fun i => V c main_v103 (ix2 (0 : Fin 1) (i 0)))

set_option maxHeartbeats 400000 in
/-- What point `t` writes back is block `t` of the layer of the arrays the region finds. -/
theorem flushed1_eq (c : Dev nD) (t : Fin cfg1.N) :
    (dat1 (F := Ideal) V c).flushed 7 t = ((cfg1.win 7).blk t).view.read (Elt Ideal) (spec1 V c) := by
  show (cfg1.win 7).cut (grid1.coords t) ((dat1 V c).after 7 t) = _
  rw [after1_7]
  unfold out1_7
  rw [View.canon_unit_zero hz]
  simp only [View.ld_unit_zero (S := S5000x128) hz, View.ld_unit_zero (S := S128x64) hz, View.ld_unit_zero (S := S1x64) hz]
  have hi := idx_facts1 t
  have hN : cfg1.N = 10 := N_1
  refine funext fun (j : S5000x64.Idx) => ?_
  obtain ⟨p, q, rfl⟩ : ∃ (p : Fin 5000) (q : Fin 64), j = ix2 p q := ⟨j 0, j 1, eq_ix2 j⟩
  have ht : t.val < 10 := hN ▸ t.isLt
  have hrow : 5000 * t.val + p.val < 50000 := by have := p.isLt; omega
  have hemb : ((cfg1.win 7).blk t).view.emb (ix2 p q) = (ix2 (⟨5000 * t.val + p.val, hrow⟩ : Fin 50000) q : S50000x64.Idx) := by
    funext a
    apply Fin.ext
    match a with
    | ⟨0, _⟩ => show win1_7.index t (0 : Fin 2) * 5000 + 1 * p.val = 5000 * t.val + p.val; omega
    | ⟨1, _⟩ => show win1_7.index t (1 : Fin 2) * 64 + 1 * q.val = q.val; omega
  show k1_pay1 (F := Ideal) (iblk1 V c 0 t) (iblk1 V c 1 t) (iblk1 V c 2 t) (iblk1 V c 3 t) (iblk1 V c 4 t) (iblk1 V c 5 t) (iblk1 V c 6 t) (ix2 p q)
      = spec1 V c (((cfg1.win 7).blk t).view.emb (ix2 p q))
  rw [hemb]
  refine (pay1_apply (iblk1 V c 0 t) (iblk1 V c 1 t) (iblk1 V c 2 t) (iblk1 V c 3 t) (iblk1 V c 4 t) (iblk1 V c 5 t) (iblk1 V c 6 t) p q).trans ?_
  refine (layerAt_congr (N := 5000) (N' := 50000) (K := 128) (M := 64) _ _ _ _ _ _ _ _ _ _ _ _
    (fun i : (⟨1, ![64]⟩ : Shape).Idx => iblk1 (F := Ideal) V c 6 t (ix2 (0 : Fin 1) (i 0)))
    (fun i : (⟨1, ![64]⟩ : Shape).Idx => V c main_v103 (ix2 (0 : Fin 1) (i 0))) p ⟨5000 * t.val + p.val, hrow⟩ q
    (fun j => feat1_0 V c t p j _ rfl) (fun j => feat1_1 V c t p j _ rfl) (fun j => feat1_2 V c t p j _ rfl)
    (fun j => weight1_3 V c t j q) (fun j => weight1_4 V c t j q) (fun j => weight1_5 V c t j q)
    (bias1_6 V c t q)).trans ?_
  rfl

/-- Every row of the array is in the block of the point its number divided by 5000 names. -/
theorem cover1 (i : S50000x64.Idx) :
    ∃ t : Fin cfg1.N, (cfg1.win 7).flush t = true ∧ i ∈ ((cfg1.win 7).blk t).view.set := by
  have hN : cfg1.N = 10 := N_1
  have h0 : (i 0).val < 50000 := (i 0).isLt
  have h1 : (i 1).val < 64 := (i 1).isLt
  have hlt : (i 0).val / 5000 < cfg1.N := by rw [hN]; omega
  refine ⟨⟨(i 0).val / 5000, hlt⟩, flush1_7 _, ?_⟩
  have hi := idx_facts1 ⟨(i 0).val / 5000, hlt⟩
  show i ∈ ((View.whole main_v104).slice (win1_7.rect ⟨(i 0).val / 5000, hlt⟩)).set
  rw [View.set_slice_whole, Rect.mem_set_unit]
  intro a
  match a with
  | ⟨0, _⟩ =>
    show win1_7.index ⟨(i 0).val / 5000, hlt⟩ (0 : Fin 2) * 5000 ≤ (i 0).val ∧ (i 0).val < win1_7.index ⟨(i 0).val / 5000, hlt⟩ (0 : Fin 2) * 5000 + 5000
    have e : win1_7.index ⟨(i 0).val / 5000, hlt⟩ (0 : Fin 2) = (i 0).val / 5000 := hi.2.2.2.2.2.2.2.2.2.2.2.2.2.2.1
    omega
  | ⟨1, _⟩ =>
    show win1_7.index ⟨(i 0).val / 5000, hlt⟩ (1 : Fin 2) * 64 ≤ (i 1).val ∧ (i 1).val < win1_7.index ⟨(i 0).val / 5000, hlt⟩ (1 : Fin 2) * 64 + 64
    have e : win1_7.index ⟨(i 0).val / 5000, hlt⟩ (1 : Fin 2) = 0 := hi.2.2.2.2.2.2.2.2.2.2.2.2.2.2.2
    omega

/-- The array the region leaves in window 7's place is the layer of the arrays it found. -/
theorem array1 (c : Dev nD) :
    (Gen.dat1 (F := Ideal) V c).arrAt 7 cfg1.N
      = Cert.Cheb.layer (N := 50000) (K := 128) (M := 64) (V c main_v67) (V c main_v80) (V c main_v93)
          (V c main_v96) (V c main_v99) (V c main_v102) (fun i => V c main_v103 (ix2 (0 : Fin 1) (i 0))) :=
  (dat1 (F := Ideal) V c).arrAt_eq_of_cover 7 (spec1 V c) (fun t _ => flushed1_eq V c t) (cover1)

end Region1

/-! ## Region 2: the body's arithmetic at one entry -/

theorem lhs2_row (i : S5000x32.Idx) (q : dot_S5000x64_S64x32_S5000x32_1_0_0_1_n_n.contr.Idx) :
    (dot_S5000x64_S64x32_S5000x32_1_0_0_1_n_n.lhsIdx i q 0).val = (i 0).val := by
  unfold DotDims.lhsIdx
  rw [dif_neg (show ¬(0 : Fin S5000x64.rank) ∈ dot_S5000x64_S64x32_S5000x32_1_0_0_1_n_n.lhsBatch by decide), dif_pos (show (0 : Fin S5000x64.rank) ∈ dot_S5000x64_S64x32_S5000x32_1_0_0_1_n_n.lhsNonContracting by decide)]
  rfl
theorem lhs2_contr (i : S5000x32.Idx) (q : dot_S5000x64_S64x32_S5000x32_1_0_0_1_n_n.contr.Idx) :
    (dot_S5000x64_S64x32_S5000x32_1_0_0_1_n_n.lhsIdx i q 1).val = (q ⟨0, by decide⟩).val :=
  dot_S5000x64_S64x32_S5000x32_1_0_0_1_n_n.lhsIdx_val_of_single rfl i q
theorem rhs2_contr (i : S5000x32.Idx) (q : dot_S5000x64_S64x32_S5000x32_1_0_0_1_n_n.contr.Idx) :
    (dot_S5000x64_S64x32_S5000x32_1_0_0_1_n_n.rhsIdx i q 0).val = (q ⟨0, by decide⟩).val :=
  dot_S5000x64_S64x32_S5000x32_1_0_0_1_n_n.rhsIdx_val_of_single rfl i q
theorem rhs2_col (i : S5000x32.Idx) (q : dot_S5000x64_S64x32_S5000x32_1_0_0_1_n_n.contr.Idx) :
    (dot_S5000x64_S64x32_S5000x32_1_0_0_1_n_n.rhsIdx i q 1).val = (i 1).val := by
  unfold DotDims.rhsIdx
  rw [dif_neg (show ¬(1 : Fin S64x32.rank) ∈ dot_S5000x64_S64x32_S5000x32_1_0_0_1_n_n.rhsBatch by decide), dif_pos (show (1 : Fin S64x32.rank) ∈ dot_S5000x64_S64x32_S5000x32_1_0_0_1_n_n.rhsNonContracting by decide)]
  rfl

/-- A matrix product into the zero accumulator, read at row `p` and column `q`: the sum over the 64 contracted positions. -/
theorem matmul2_apply (x : FVec Ideal S5000x64 .bf16) (w : FVec Ideal S64x32 .bf16) (p : Fin 5000) (q : Fin 32) :
    matmul dot_S5000x64_S64x32_S5000x32_1_0_0_1_n_n none x w (constant S5000x32 .f32 0x00000000#32) (ix2 p q)
      = ∑ k : Fin 64, x (ix2 p k) * w (ix2 k q) := by
  simp only [matmul]
  rw [Ideal.matmul_constant_zero_apply, ← Equiv.sum_comp (ValueIdx.contrEquiv1 dot_S5000x64_S64x32_S5000x32_1_0_0_1_n_n 64 rfl rfl).symm]
  refine Finset.sum_congr rfl fun k _ => ?_
  have hk := ValueIdx.contrEquiv1_symm_val dot_S5000x64_S64x32_S5000x32_1_0_0_1_n_n 64 rfl rfl k
  have el : dot_S5000x64_S64x32_S5000x32_1_0_0_1_n_n.lhsIdx (ix2 p q) ((ValueIdx.contrEquiv1 dot_S5000x64_S64x32_S5000x32_1_0_0_1_n_n 64 rfl rfl).symm k) = ix2 p k := funext fun a => Fin.ext (by
    match a with
    | ⟨0, _⟩ => exact lhs2_row _ _
    | ⟨1, _⟩ => exact (lhs2_contr _ _).trans hk)
  have er : dot_S5000x64_S64x32_S5000x32_1_0_0_1_n_n.rhsIdx (ix2 p q) ((ValueIdx.contrEquiv1 dot_S5000x64_S64x32_S5000x32_1_0_0_1_n_n 64 rfl rfl).symm k) = ix2 k q := funext fun a => Fin.ext (by
    match a with
    | ⟨0, _⟩ => exact (rhs2_contr _ _).trans hk
    | ⟨1, _⟩ => exact rhs2_col _ _)
  rw [el, er]

set_option maxHeartbeats 400000 in
/-- The body's one stored value at row `p`, column `q` of its block is the layer's entry computed from the blocks it loaded. -/
theorem pay2_apply (x0 x1 x2 : FVec Ideal S5000x64 .f32) (w0 w1 w2 : FVec Ideal S64x32 .bf16) (b : FVec Ideal S1x32 .f32)
    (p : Fin 5000) (q : Fin 32) :
    k2_pay1 (F := Ideal) x0 x1 x2 w0 w1 w2 b (ix2 p q)
      = Cert.Cheb.layerAt (N := 5000) (K := 64) (M := 32) x0 x1 x2 w0 w1 w2 (fun i => b (ix2 (0 : Fin 1) (i 0))) p q := by
  unfold k2_pay1 Cert.Cheb.layerAt
  simp only [shapeCast_self]
  rw [maximumf_apply, addf_apply, addf_apply, addf_apply, broadcast_apply, broadcastTo_1b_ab_apply,
    matmul2_apply, matmul2_apply, matmul2_apply]
  simp only [truncf_apply, subf_apply, mulf_apply, broadcast_apply]
  rfl

/-! ## Region 2: from the blocks to the array -/

section Region2
variable (V : (c : Dev nD) → (b : Ref sig .tc) → Buf (Elt Ideal) ((c : Thread nD τ).loc b))

/-- The printed index maps, decided over the ten grid points: the feature windows and the output window sit at block
    row `t`, the weight and bias windows at block (0, 0). -/
theorem idx_facts2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = t.val ∧ win2_7.index t (1 : Fin 2) = 0 :=
  (by decide +kernel : ∀ t : Fin grid2.N, _)

/-- The block of feature window 0 at point `t` holds rows `5000·t … 5000·t + 4999` of its array. -/
theorem feat2_0 (c : Dev nD) (t : Fin cfg2.N) (p : Fin 5000) (j : Fin 64) (r : Fin 50000) (hr : r.val = 5000 * t.val + p.val) :
    (iblk2 (F := Ideal) V c 0 t : FVec Ideal S5000x64 .f32) (ix2 p j) = (V c main_v104 : S50000x64.Idx → EReal) (ix2 r j) := by
  have hi := idx_facts2 t
  unfold iblk2
  rw [View.read_apply]
  show V c main_v104 _ = V c main_v104 _
  congr 1
  funext a
  apply Fin.ext
  match a with
  | ⟨0, _⟩ => show win2_0.index t (0 : Fin 2) * 5000 + 1 * p.val = r.val; omega
  | ⟨1, _⟩ => show win2_0.index t (1 : Fin 2) * 64 + 1 * j.val = j.val; omega

/-- The block of feature window 1 at point `t` holds rows `5000·t … 5000·t + 4999` of its array. -/
theorem feat2_1 (c : Dev nD) (t : Fin cfg2.N) (p : Fin 5000) (j : Fin 64) (r : Fin 50000) (hr : r.val = 5000 * t.val + p.val) :
    (iblk2 (F := Ideal) V c 1 t : FVec Ideal S5000x64 .f32) (ix2 p j) = (V c main_v117 : S50000x64.Idx → EReal) (ix2 r j) := by
  have hi := idx_facts2 t
  unfold iblk2
  rw [View.read_apply]
  show V c main_v117 _ = V c main_v117 _
  congr 1
  funext a
  apply Fin.ext
  match a with
  | ⟨0, _⟩ => show win2_1.index t (0 : Fin 2) * 5000 + 1 * p.val = r.val; omega
  | ⟨1, _⟩ => show win2_1.index t (1 : Fin 2) * 64 + 1 * j.val = j.val; omega

/-- The block of feature window 2 at point `t` holds rows `5000·t … 5000·t + 4999` of its array. -/
theorem feat2_2 (c : Dev nD) (t : Fin cfg2.N) (p : Fin 5000) (j : Fin 64) (r : Fin 50000) (hr : r.val = 5000 * t.val + p.val) :
    (iblk2 (F := Ideal) V c 2 t : FVec Ideal S5000x64 .f32) (ix2 p j) = (V c main_v130 : S50000x64.Idx → EReal) (ix2 r j) := by
  have hi := idx_facts2 t
  unfold iblk2
  rw [View.read_apply]
  show V c main_v130 _ = V c main_v130 _
  congr 1
  funext a
  apply Fin.ext
  match a with
  | ⟨0, _⟩ => show win2_2.index t (0 : Fin 2) * 5000 + 1 * p.val = r.val; omega
  | ⟨1, _⟩ => show win2_2.index t (1 : Fin 2) * 64 + 1 * j.val = j.val; omega

/-- The block of weight window 3 is its whole array at every point. -/
theorem weight2_3 (c : Dev nD) (t : Fin cfg2.N) (j : Fin 64) (q : Fin 32) :
    (iblk2 (F := Ideal) V c 3 t : FVec Ideal S64x32 .bf16) (ix2 j q) = (V c main_v133 : S64x32.Idx → EReal) (ix2 j q) := by
  have hi := idx_facts2 t
  unfold iblk2
  rw [View.read_apply]
  show V c main_v133 _ = V c main_v133 _
  congr 1
  funext a
  apply Fin.ext
  match a with
  | ⟨0, _⟩ => show win2_3.index t (0 : Fin 2) * 64 + 1 * j.val = j.val; omega
  | ⟨1, _⟩ => show win2_3.index t (1 : Fin 2) * 32 + 1 * q.val = q.val; omega

/-- The block of weight window 4 is its whole array at every point. -/
theorem weight2_4 (c : Dev nD) (t : Fin cfg2.N) (j : Fin 64) (q : Fin 32) :
    (iblk2 (F := Ideal) V c 4 t : FVec Ideal S64x32 .bf16) (ix2 j q) = (V c main_v136 : S64x32.Idx → EReal) (ix2 j q) := by
  have hi := idx_facts2 t
  unfold iblk2
  rw [View.read_apply]
  show V c main_v136 _ = V c main_v136 _
  congr 1
  funext a
  apply Fin.ext
  match a with
  | ⟨0, _⟩ => show win2_4.index t (0 : Fin 2) * 64 + 1 * j.val = j.val; omega
  | ⟨1, _⟩ => show win2_4.index t (1 : Fin 2) * 32 + 1 * q.val = q.val; omega

/-- The block of weight window 5 is its whole array at every point. -/
theorem weight2_5 (c : Dev nD) (t : Fin cfg2.N) (j : Fin 64) (q : Fin 32) :
    (iblk2 (F := Ideal) V c 5 t : FVec Ideal S64x32 .bf16) (ix2 j q) = (V c main_v139 : S64x32.Idx → EReal) (ix2 j q) := by
  have hi := idx_facts2 t
  unfold iblk2
  rw [View.read_apply]
  show V c main_v139 _ = V c main_v139 _
  congr 1
  funext a
  apply Fin.ext
  match a with
  | ⟨0, _⟩ => show win2_5.index t (0 : Fin 2) * 64 + 1 * j.val = j.val; omega
  | ⟨1, _⟩ => show win2_5.index t (1 : Fin 2) * 32 + 1 * q.val = q.val; omega

/-- The block of the bias window is its whole one-row array at every point. -/
theorem bias2_6 (c : Dev nD) (t : Fin cfg2.N) (q : Fin 32) :
    (iblk2 (F := Ideal) V c 6 t : FVec Ideal S1x32 .f32) (ix2 (0 : Fin 1) q) = (V c main_v140 : S1x32.Idx → EReal) (ix2 (0 : Fin 1) q) := by
  have hi := idx_facts2 t
  unfold iblk2
  rw [View.read_apply]
  show V c main_v140 _ = V c main_v140 _
  congr 1
  funext a
  apply Fin.ext
  match a with
  | ⟨0, _⟩ => show win2_6.index t (0 : Fin 2) * 1 + 1 * 0 = 0; omega
  | ⟨1, _⟩ => show win2_6.index t (1 : Fin 2) * 32 + 1 * q.val = q.val; omega

/-- The layer of the arrays the region finds, as the array it is to leave in window 7's place. -/
abbrev spec2 (c : Dev nD) : S50000x32.Idx → EReal :=
  Cert.Cheb.layer (N := 50000) (K := 64) (M := 32) (V c main_v104) (V c main_v117) (V c main_v130)
    (V c main_v133) (V c main_v136) (V c main_v139) (fun i => V c main_v140 (ix2 (0 : Fin 1) (i 0)))

set_option maxHeartbeats 400000 in
/-- What point `t` writes back is block `t` of the layer of the arrays the region finds. -/
theorem flushed2_eq (c : Dev nD) (t : Fin cfg2.N) :
    (dat2 (F := Ideal) V c).flushed 7 t = ((cfg2.win 7).blk t).view.read (Elt Ideal) (spec2 V c) := by
  show (cfg2.win 7).cut (grid2.coords t) ((dat2 V c).after 7 t) = _
  rw [after2_7]
  unfold out2_7
  rw [View.canon_unit_zero hz]
  simp only [View.ld_unit_zero (S := S5000x64) hz, View.ld_unit_zero (S := S64x32) hz, View.ld_unit_zero (S := S1x32) hz]
  have hi := idx_facts2 t
  have hN : cfg2.N = 10 := N_2
  refine funext fun (j : S5000x32.Idx) => ?_
  obtain ⟨p, q, rfl⟩ : ∃ (p : Fin 5000) (q : Fin 32), j = ix2 p q := ⟨j 0, j 1, eq_ix2 j⟩
  have ht : t.val < 10 := hN ▸ t.isLt
  have hrow : 5000 * t.val + p.val < 50000 := by have := p.isLt; omega
  have hemb : ((cfg2.win 7).blk t).view.emb (ix2 p q) = (ix2 (⟨5000 * t.val + p.val, hrow⟩ : Fin 50000) q : S50000x32.Idx) := by
    funext a
    apply Fin.ext
    match a with
    | ⟨0, _⟩ => show win2_7.index t (0 : Fin 2) * 5000 + 1 * p.val = 5000 * t.val + p.val; omega
    | ⟨1, _⟩ => show win2_7.index t (1 : Fin 2) * 32 + 1 * q.val = q.val; omega
  show k2_pay1 (F := Ideal) (iblk2 V c 0 t) (iblk2 V c 1 t) (iblk2 V c 2 t) (iblk2 V c 3 t) (iblk2 V c 4 t) (iblk2 V c 5 t) (iblk2 V c 6 t) (ix2 p q)
      = spec2 V c (((cfg2.win 7).blk t).view.emb (ix2 p q))
  rw [hemb]
  refine (pay2_apply (iblk2 V c 0 t) (iblk2 V c 1 t) (iblk2 V c 2 t) (iblk2 V c 3 t) (iblk2 V c 4 t) (iblk2 V c 5 t) (iblk2 V c 6 t) p q).trans ?_
  refine (layerAt_congr (N := 5000) (N' := 50000) (K := 64) (M := 32) _ _ _ _ _ _ _ _ _ _ _ _
    (fun i : (⟨1, ![32]⟩ : Shape).Idx => iblk2 (F := Ideal) V c 6 t (ix2 (0 : Fin 1) (i 0)))
    (fun i : (⟨1, ![32]⟩ : Shape).Idx => V c main_v140 (ix2 (0 : Fin 1) (i 0))) p ⟨5000 * t.val + p.val, hrow⟩ q
    (fun j => feat2_0 V c t p j _ rfl) (fun j => feat2_1 V c t p j _ rfl) (fun j => feat2_2 V c t p j _ rfl)
    (fun j => weight2_3 V c t j q) (fun j => weight2_4 V c t j q) (fun j => weight2_5 V c t j q)
    (bias2_6 V c t q)).trans ?_
  rfl

/-- Every row of the array is in the block of the point its number divided by 5000 names. -/
theorem cover2 (i : S50000x32.Idx) :
    ∃ t : Fin cfg2.N, (cfg2.win 7).flush t = true ∧ i ∈ ((cfg2.win 7).blk t).view.set := by
  have hN : cfg2.N = 10 := N_2
  have h0 : (i 0).val < 50000 := (i 0).isLt
  have h1 : (i 1).val < 32 := (i 1).isLt
  have hlt : (i 0).val / 5000 < cfg2.N := by rw [hN]; omega
  refine ⟨⟨(i 0).val / 5000, hlt⟩, flush2_7 _, ?_⟩
  have hi := idx_facts2 ⟨(i 0).val / 5000, hlt⟩
  show i ∈ ((View.whole main_v141).slice (win2_7.rect ⟨(i 0).val / 5000, hlt⟩)).set
  rw [View.set_slice_whole, Rect.mem_set_unit]
  intro a
  match a with
  | ⟨0, _⟩ =>
    show win2_7.index ⟨(i 0).val / 5000, hlt⟩ (0 : Fin 2) * 5000 ≤ (i 0).val ∧ (i 0).val < win2_7.index ⟨(i 0).val / 5000, hlt⟩ (0 : Fin 2) * 5000 + 5000
    have e : win2_7.index ⟨(i 0).val / 5000, hlt⟩ (0 : Fin 2) = (i 0).val / 5000 := hi.2.2.2.2.2.2.2.2.2.2.2.2.2.2.1
    omega
  | ⟨1, _⟩ =>
    show win2_7.index ⟨(i 0).val / 5000, hlt⟩ (1 : Fin 2) * 32 ≤ (i 1).val ∧ (i 1).val < win2_7.index ⟨(i 0).val / 5000, hlt⟩ (1 : Fin 2) * 32 + 32
    have e : win2_7.index ⟨(i 0).val / 5000, hlt⟩ (1 : Fin 2) = 0 := hi.2.2.2.2.2.2.2.2.2.2.2.2.2.2.2
    omega

/-- The array the region leaves in window 7's place is the layer of the arrays it found. -/
theorem array2 (c : Dev nD) :
    (Gen.dat2 (F := Ideal) V c).arrAt 7 cfg2.N
      = Cert.Cheb.layer (N := 50000) (K := 64) (M := 32) (V c main_v104) (V c main_v117) (V c main_v130)
          (V c main_v133) (V c main_v136) (V c main_v139) (fun i => V c main_v140 (ix2 (0 : Fin 1) (i 0))) :=
  (dat2 (F := Ideal) V c).arrAt_eq_of_cover 7 (spec2 V c) (fun t _ => flushed2_eq V c t) (cover2)

end Region2

end Cert.KernelIdeal.RegionLayers

end
-- ==== Proof.RefLayers.lean ====
/-
  The reference's three layers. Each layer's dense tail in the reference program is a chain of host
  operations: three matrix products, the recurrence term 2 · p2 − t0, the bias broadcast over the rows,
  and the rectifier. Read entry by entry, each chain is the layer function of the specification applied
  to the earlier stages of the program (the layer's input, its two propagated forms, the three weight
  slices and the bias).
-/
import proofs.«143596_j22514218566432_2_alg».proof.Proof.Gen.ReferenceIdeal.Read
import proofs.«143596_j22514218566432_2_alg».proof.Proof.ChebLayer
import Idealize.ShloMosaic.Lib.ValueIdx
import Idealize.ShloMosaic.PureOps.Ideal.Laws

noncomputable section

namespace Cert.ReferenceIdeal.Layers

open Cert.ReferenceIdeal Cert.ReferenceIdeal.Read Idealize.ShloMosaic Idealize.ShloMosaic.TcCoe

/-! ## Layer 1: 160 input features, 128 output features -/

/-- The first product of layer 1: the layer's input against the first weight slice. -/
theorem layer1_prod0 (x0 : (⟨S50000x160, .f32⟩ : BufTy).Contents (Elt Ideal)) (x4 : (⟨S3x160x128, .f32⟩ : BufTy).Contents (Elt Ideal)) (r : Fin 50000) (c : Fin 128) :
    val_main_v33 (F := Ideal) x0 x4 (ValueIdx.ix2 r c)
      = ∑ k : Fin 160, x0 (ValueIdx.ix2 r k) * val_main_v32 (F := Ideal) x4 (ValueIdx.ix2 k c) := by
  rw [val_main_v33_apply]
  refine Finset.sum_congr rfl fun k _ => ?_
  have el : lidx_main_v33 (ValueIdx.ix2 r c) k = ValueIdx.ix2 r k :=
    funext fun a => Fin.ext (by match a with | ⟨0, _⟩ => rfl | ⟨1, _⟩ => rfl)
  have er : ridx_main_v33 (ValueIdx.ix2 r c) k = ValueIdx.ix2 k c :=
    funext fun a => Fin.ext (by match a with | ⟨0, _⟩ => rfl | ⟨1, _⟩ => rfl)
  rw [el, er]

/-- The second product: the once-propagated features against the second weight slice. -/
theorem layer1_prod1 (x0 : (⟨S50000x160, .f32⟩ : BufTy).Contents (Elt Ideal)) (x1 : (⟨S2x500000, .i32⟩ : BufTy).Contents (Elt Ideal)) (x2 : (⟨S500000, .f32⟩ : BufTy).Contents (Elt Ideal)) (x4 : (⟨S3x160x128, .f32⟩ : BufTy).Contents (Elt Ideal)) (r : Fin 50000) (c : Fin 128) :
    val_main_v49 (F := Ideal) x0 x1 x2 x4 (ValueIdx.ix2 r c)
      = ∑ k : Fin 160, val_main_v46 (F := Ideal) x0 x1 x2 (ValueIdx.ix2 r k) * val_main_v48 (F := Ideal) x4 (ValueIdx.ix2 k c) := by
  rw [val_main_v49_apply]
  refine Finset.sum_congr rfl fun k _ => ?_
  have el : lidx_main_v49 (ValueIdx.ix2 r c) k = ValueIdx.ix2 r k :=
    funext fun a => Fin.ext (by match a with | ⟨0, _⟩ => rfl | ⟨1, _⟩ => rfl)
  have er : ridx_main_v49 (ValueIdx.ix2 r c) k = ValueIdx.ix2 k c :=
    funext fun a => Fin.ext (by match a with | ⟨0, _⟩ => rfl | ⟨1, _⟩ => rfl)
  rw [el, er]

/-- The third product: the recurrence term 2 · p2 − t0, entry by entry, against the third weight slice. -/
theorem layer1_prod2 (x0 : (⟨S50000x160, .f32⟩ : BufTy).Contents (Elt Ideal)) (x1 : (⟨S2x500000, .i32⟩ : BufTy).Contents (Elt Ideal)) (x2 : (⟨S500000, .f32⟩ : BufTy).Contents (Elt Ideal)) (x4 : (⟨S3x160x128, .f32⟩ : BufTy).Contents (Elt Ideal)) (r : Fin 50000) (c : Fin 128) :
    val_main_v69 (F := Ideal) x0 x1 x2 x4 (ValueIdx.ix2 r c)
      = ∑ k : Fin 160, (Cheb.two * val_main_v63 (F := Ideal) x0 x1 x2 (ValueIdx.ix2 r k) - x0 (ValueIdx.ix2 r k))
          * val_main_v68 (F := Ideal) x4 (ValueIdx.ix2 k c) := by
  rw [val_main_v69_apply]
  refine Finset.sum_congr rfl fun k _ => ?_
  have el : lidx_main_v69 (ValueIdx.ix2 r c) k = ValueIdx.ix2 r k :=
    funext fun a => Fin.ext (by match a with | ⟨0, _⟩ => rfl | ⟨1, _⟩ => rfl)
  have er : ridx_main_v69 (ValueIdx.ix2 r c) k = ValueIdx.ix2 k c :=
    funext fun a => Fin.ext (by match a with | ⟨0, _⟩ => rfl | ⟨1, _⟩ => rfl)
  rw [el, er, val_main_v66_apply, val_main_v65_apply, val_main_v64_apply, val_main_cst_13_apply,
    Ideal.subf_def, Ideal.mulf_def, Ideal.ofBits_def]

/-- The bias, broadcast over the rows, reads the bias vector at the column. -/
theorem layer1_bias (x5 : (⟨S128, .f32⟩ : BufTy).Contents (Elt Ideal)) (r : Fin 50000) (c : Fin 128) :
    val_main_v72 (F := Ideal) x5 (ValueIdx.ix2 r c) = x5 (ValueIdx.ix1 c) := by
  rw [val_main_v72_apply, val_main_v71_apply]
  have eb : idx_main_v71 (idx_main_v72 (ValueIdx.ix2 r c)) = ValueIdx.ix1 c :=
    funext fun a => Fin.ext (by match a with | ⟨0, _⟩ => rfl)
  rw [eb]

/-- Layer 1's rectified result is the layer function of the program's input features, their two propagated forms, the three slices of the first weight array and the first bias. -/
theorem relu1 (x0 : (⟨S50000x160, .f32⟩ : BufTy).Contents (Elt Ideal)) (x1 : (⟨S2x500000, .i32⟩ : BufTy).Contents (Elt Ideal)) (x2 : (⟨S500000, .f32⟩ : BufTy).Contents (Elt Ideal)) (x4 : (⟨S3x160x128, .f32⟩ : BufTy).Contents (Elt Ideal)) (x5 : (⟨S128, .f32⟩ : BufTy).Contents (Elt Ideal)) :
    val_main_v74 (F := Ideal) x0 x1 x2 x4 x5
      = Cert.Cheb.layer (N := 50000) (K := 160) (M := 128) x0 (val_main_v46 (F := Ideal) x0 x1 x2) (val_main_v63 (F := Ideal) x0 x1 x2)
          (val_main_v32 (F := Ideal) x4) (val_main_v48 (F := Ideal) x4) (val_main_v68 (F := Ideal) x4) x5 := by
  funext j
  obtain ⟨r, c, rfl⟩ : ∃ (r : Fin 50000) (c : Fin 128), j = ValueIdx.ix2 r c := ⟨j 0, j 1, ValueIdx.eq_ix2 j⟩
  rw [Cheb.layer_ix2]
  unfold Cheb.layerAt
  rw [val_main_v74_apply, val_main_v73_apply, val_main_v70_apply, val_main_v50_apply, layer1_prod0, layer1_prod1, layer1_prod2,
    layer1_bias, val_main_call2_v0_apply, val_main_call2_cst_apply, Ideal.maximumf_def, Ideal.addf_def, Ideal.addf_def,
    Ideal.addf_def, Ideal.ofBits_def]

/-! ## Layer 2: 128 input features, 64 output features -/

/-- The first product of layer 2: the layer's input against the first weight slice. -/
theorem layer2_prod0 (x0 : (⟨S50000x160, .f32⟩ : BufTy).Contents (Elt Ideal)) (x1 : (⟨S2x500000, .i32⟩ : BufTy).Contents (Elt Ideal)) (x2 : (⟨S500000, .f32⟩ : BufTy).Contents (Elt Ideal)) (x4 : (⟨S3x160x128, .f32⟩ : BufTy).Contents (Elt Ideal)) (x5 : (⟨S128, .f32⟩ : BufTy).Contents (Elt Ideal)) (x6 : (⟨S3x128x64, .f32⟩ : BufTy).Contents (Elt Ideal)) (r : Fin 50000) (c : Fin 64) :
    val_main_v77 (F := Ideal) x0 x1 x2 x4 x5 x6 (ValueIdx.ix2 r c)
      = ∑ k : Fin 128, val_main_v74 (F := Ideal) x0 x1 x2 x4 x5 (ValueIdx.ix2 r k) * val_main_v76 (F := Ideal) x6 (ValueIdx.ix2 k c) := by
  rw [val_main_v77_apply]
  refine Finset.sum_congr rfl fun k _ => ?_
  have el : lidx_main_v77 (ValueIdx.ix2 r c) k = ValueIdx.ix2 r k :=
    funext fun a => Fin.ext (by match a with | ⟨0, _⟩ => rfl | ⟨1, _⟩ => rfl)
  have er : ridx_main_v77 (ValueIdx.ix2 r c) k = ValueIdx.ix2 k c :=
    funext fun a => Fin.ext (by match a with | ⟨0, _⟩ => rfl | ⟨1, _⟩ => rfl)
  rw [el, er]

/-- The second product: the once-propagated features against the second weight slice. -/
theorem layer2_prod1 (x0 : (⟨S50000x160, .f32⟩ : BufTy).Contents (Elt Ideal)) (x1 : (⟨S2x500000, .i32⟩ : BufTy).Contents (Elt Ideal)) (x2 : (⟨S500000, .f32⟩ : BufTy).Contents (Elt Ideal)) (x4 : (⟨S3x160x128, .f32⟩ : BufTy).Contents (Elt Ideal)) (x5 : (⟨S128, .f32⟩ : BufTy).Contents (Elt Ideal)) (x6 : (⟨S3x128x64, .f32⟩ : BufTy).Contents (Elt Ideal)) (r : Fin 50000) (c : Fin 64) :
    val_main_v93 (F := Ideal) x0 x1 x2 x4 x5 x6 (ValueIdx.ix2 r c)
      = ∑ k : Fin 128, val_main_v90 (F := Ideal) x0 x1 x2 x4 x5 (ValueIdx.ix2 r k) * val_main_v92 (F := Ideal) x6 (ValueIdx.ix2 k c) := by
  rw [val_main_v93_apply]
  refine Finset.sum_congr rfl fun k _ => ?_
  have el : lidx_main_v93 (ValueIdx.ix2 r c) k = ValueIdx.ix2 r k :=
    funext fun a => Fin.ext (by match a with | ⟨0, _⟩ => rfl | ⟨1, _⟩ => rfl)
  have er : ridx_main_v93 (ValueIdx.ix2 r c) k = ValueIdx.ix2 k c :=
    funext fun a => Fin.ext (by match a with | ⟨0, _⟩ => rfl | ⟨1, _⟩ => rfl)
  rw [el, er]

/-- The third product: the recurrence term 2 · p2 − t0, entry by entry, against the third weight slice. -/
theorem layer2_prod2 (x0 : (⟨S50000x160, .f32⟩ : BufTy).Contents (Elt Ideal)) (x1 : (⟨S2x500000, .i32⟩ : BufTy).Contents (Elt Ideal)) (x2 : (⟨S500000, .f32⟩ : BufTy).Contents (Elt Ideal)) (x4 : (⟨S3x160x128, .f32⟩ : BufTy).Contents (Elt Ideal)) (x5 : (⟨S128, .f32⟩ : BufTy).Contents (Elt Ideal)) (x6 : (⟨S3x128x64, .f32⟩ : BufTy).Contents (Elt Ideal)) (r : Fin 50000) (c : Fin 64) :
    val_main_v113 (F := Ideal) x0 x1 x2 x4 x5 x6 (ValueIdx.ix2 r c)
      = ∑ k : Fin 128, (Cheb.two * val_main_v107 (F := Ideal) x0 x1 x2 x4 x5 (ValueIdx.ix2 r k) - val_main_v74 (F := Ideal) x0 x1 x2 x4 x5 (ValueIdx.ix2 r k))
          * val_main_v112 (F := Ideal) x6 (ValueIdx.ix2 k c) := by
  rw [val_main_v113_apply]
  refine Finset.sum_congr rfl fun k _ => ?_
  have el : lidx_main_v113 (ValueIdx.ix2 r c) k = ValueIdx.ix2 r k :=
    funext fun a => Fin.ext (by match a with | ⟨0, _⟩ => rfl | ⟨1, _⟩ => rfl)
  have er : ridx_main_v113 (ValueIdx.ix2 r c) k = ValueIdx.ix2 k c :=
    funext fun a => Fin.ext (by match a with | ⟨0, _⟩ => rfl | ⟨1, _⟩ => rfl)
  rw [el, er, val_main_v110_apply, val_main_v109_apply, val_main_v108_apply, val_main_cst_20_apply,
    Ideal.subf_def, Ideal.mulf_def, Ideal.ofBits_def]

/-- The bias, broadcast over the rows, reads the bias vector at the column. -/
theorem layer2_bias (x7 : (⟨S64, .f32⟩ : BufTy).Contents (Elt Ideal)) (r : Fin 50000) (c : Fin 64) :
    val_main_v116 (F := Ideal) x7 (ValueIdx.ix2 r c) = x7 (ValueIdx.ix1 c) := by
  rw [val_main_v116_apply, val_main_v115_apply]
  have eb : idx_main_v115 (idx_main_v116 (ValueIdx.ix2 r c)) = ValueIdx.ix1 c :=
    funext fun a => Fin.ext (by match a with | ⟨0, _⟩ => rfl)
  rw [eb]

/-- Layer 2's rectified result is the layer function of layer 1's result, its two propagated forms, the three slices of the second weight array and the second bias. -/
theorem relu2 (x0 : (⟨S50000x160, .f32⟩ : BufTy).Contents (Elt Ideal)) (x1 : (⟨S2x500000, .i32⟩ : BufTy).Contents (Elt Ideal)) (x2 : (⟨S500000, .f32⟩ : BufTy).Contents (Elt Ideal)) (x4 : (⟨S3x160x128, .f32⟩ : BufTy).Contents (Elt Ideal)) (x5 : (⟨S128, .f32⟩ : BufTy).Contents (Elt Ideal)) (x6 : (⟨S3x128x64, .f32⟩ : BufTy).Contents (Elt Ideal)) (x7 : (⟨S64, .f32⟩ : BufTy).Contents (Elt Ideal)) :
    val_main_v118 (F := Ideal) x0 x1 x2 x4 x5 x6 x7
      = Cert.Cheb.layer (N := 50000) (K := 128) (M := 64) (val_main_v74 (F := Ideal) x0 x1 x2 x4 x5) (val_main_v90 (F := Ideal) x0 x1 x2 x4 x5) (val_main_v107 (F := Ideal) x0 x1 x2 x4 x5)
          (val_main_v76 (F := Ideal) x6) (val_main_v92 (F := Ideal) x6) (val_main_v112 (F := Ideal) x6) x7 := by
  funext j
  obtain ⟨r, c, rfl⟩ : ∃ (r : Fin 50000) (c : Fin 64), j = ValueIdx.ix2 r c := ⟨j 0, j 1, ValueIdx.eq_ix2 j⟩
  rw [Cheb.layer_ix2]
  unfold Cheb.layerAt
  rw [val_main_v118_apply, val_main_v117_apply, val_main_v114_apply, val_main_v94_apply, layer2_prod0, layer2_prod1, layer2_prod2,
    layer2_bias, val_main_call3_v0_apply, val_main_call3_cst_apply, Ideal.maximumf_def, Ideal.addf_def, Ideal.addf_def,
    Ideal.addf_def, Ideal.ofBits_def]

/-! ## Layer 3: 64 input features, 32 output features -/

/-- The first product of layer 3: the layer's input against the first weight slice. -/
theorem layer3_prod0 (x0 : (⟨S50000x160, .f32⟩ : BufTy).Contents (Elt Ideal)) (x1 : (⟨S2x500000, .i32⟩ : BufTy).Contents (Elt Ideal)) (x2 : (⟨S500000, .f32⟩ : BufTy).Contents (Elt Ideal)) (x4 : (⟨S3x160x128, .f32⟩ : BufTy).Contents (Elt Ideal)) (x5 : (⟨S128, .f32⟩ : BufTy).Contents (Elt Ideal)) (x6 : (⟨S3x128x64, .f32⟩ : BufTy).Contents (Elt Ideal)) (x7 : (⟨S64, .f32⟩ : BufTy).Contents (Elt Ideal)) (x8 : (⟨S3x64x32, .f32⟩ : BufTy).Contents (Elt Ideal)) (r : Fin 50000) (c : Fin 32) :
    val_main_v121 (F := Ideal) x0 x1 x2 x4 x5 x6 x7 x8 (ValueIdx.ix2 r c)
      = ∑ k : Fin 64, val_main_v118 (F := Ideal) x0 x1 x2 x4 x5 x6 x7 (ValueIdx.ix2 r k) * val_main_v120 (F := Ideal) x8 (ValueIdx.ix2 k c) := by
  rw [val_main_v121_apply]
  refine Finset.sum_congr rfl fun k _ => ?_
  have el : lidx_main_v121 (ValueIdx.ix2 r c) k = ValueIdx.ix2 r k :=
    funext fun a => Fin.ext (by match a with | ⟨0, _⟩ => rfl | ⟨1, _⟩ => rfl)
  have er : ridx_main_v121 (ValueIdx.ix2 r c) k = ValueIdx.ix2 k c :=
    funext fun a => Fin.ext (by match a with | ⟨0, _⟩ => rfl | ⟨1, _⟩ => rfl)
  rw [el, er]

/-- The second product: the once-propagated features against the second weight slice. -/
theorem layer3_prod1 (x0 : (⟨S50000x160, .f32⟩ : BufTy).Contents (Elt Ideal)) (x1 : (⟨S2x500000, .i32⟩ : BufTy).Contents (Elt Ideal)) (x2 : (⟨S500000, .f32⟩ : BufTy).Contents (Elt Ideal)) (x4 : (⟨S3x160x128, .f32⟩ : BufTy).Contents (Elt Ideal)) (x5 : (⟨S128, .f32⟩ : BufTy).Contents (Elt Ideal)) (x6 : (⟨S3x128x64, .f32⟩ : BufTy).Contents (Elt Ideal)) (x7 : (⟨S64, .f32⟩ : BufTy).Contents (Elt Ideal)) (x8 : (⟨S3x64x32, .f32⟩ : BufTy).Contents (Elt Ideal)) (r : Fin 50000) (c : Fin 32) :
    val_main_v137 (F := Ideal) x0 x1 x2 x4 x5 x6 x7 x8 (ValueIdx.ix2 r c)
      = ∑ k : Fin 64, val_main_v134 (F := Ideal) x0 x1 x2 x4 x5 x6 x7 (ValueIdx.ix2 r k) * val_main_v136 (F := Ideal) x8 (ValueIdx.ix2 k c) := by
  rw [val_main_v137_apply]
  refine Finset.sum_congr rfl fun k _ => ?_
  have el : lidx_main_v137 (ValueIdx.ix2 r c) k = ValueIdx.ix2 r k :=
    funext fun a => Fin.ext (by match a with | ⟨0, _⟩ => rfl | ⟨1, _⟩ => rfl)
  have er : ridx_main_v137 (ValueIdx.ix2 r c) k = ValueIdx.ix2 k c :=
    funext fun a => Fin.ext (by match a with | ⟨0, _⟩ => rfl | ⟨1, _⟩ => rfl)
  rw [el, er]

/-- The third product: the recurrence term 2 · p2 − t0, entry by entry, against the third weight slice. -/
theorem layer3_prod2 (x0 : (⟨S50000x160, .f32⟩ : BufTy).Contents (Elt Ideal)) (x1 : (⟨S2x500000, .i32⟩ : BufTy).Contents (Elt Ideal)) (x2 : (⟨S500000, .f32⟩ : BufTy).Contents (Elt Ideal)) (x4 : (⟨S3x160x128, .f32⟩ : BufTy).Contents (Elt Ideal)) (x5 : (⟨S128, .f32⟩ : BufTy).Contents (Elt Ideal)) (x6 : (⟨S3x128x64, .f32⟩ : BufTy).Contents (Elt Ideal)) (x7 : (⟨S64, .f32⟩ : BufTy).Contents (Elt Ideal)) (x8 : (⟨S3x64x32, .f32⟩ : BufTy).Contents (Elt Ideal)) (r : Fin 50000) (c : Fin 32) :
    val_main_v157 (F := Ideal) x0 x1 x2 x4 x5 x6 x7 x8 (ValueIdx.ix2 r c)
      = ∑ k : Fin 64, (Cheb.two * val_main_v151 (F := Ideal) x0 x1 x2 x4 x5 x6 x7 (ValueIdx.ix2 r k) - val_main_v118 (F := Ideal) x0 x1 x2 x4 x5 x6 x7 (ValueIdx.ix2 r k))
          * val_main_v156 (F := Ideal) x8 (ValueIdx.ix2 k c) := by
  rw [val_main_v157_apply]
  refine Finset.sum_congr rfl fun k _ => ?_
  have el : lidx_main_v157 (ValueIdx.ix2 r c) k = ValueIdx.ix2 r k :=
    funext fun a => Fin.ext (by match a with | ⟨0, _⟩ => rfl | ⟨1, _⟩ => rfl)
  have er : ridx_main_v157 (ValueIdx.ix2 r c) k = ValueIdx.ix2 k c :=
    funext fun a => Fin.ext (by match a with | ⟨0, _⟩ => rfl | ⟨1, _⟩ => rfl)
  rw [el, er, val_main_v154_apply, val_main_v153_apply, val_main_v152_apply, val_main_cst_27_apply,
    Ideal.subf_def, Ideal.mulf_def, Ideal.ofBits_def]

/-- The bias, broadcast over the rows, reads the bias vector at the column. -/
theorem layer3_bias (x9 : (⟨S32, .f32⟩ : BufTy).Contents (Elt Ideal)) (r : Fin 50000) (c : Fin 32) :
    val_main_v160 (F := Ideal) x9 (ValueIdx.ix2 r c) = x9 (ValueIdx.ix1 c) := by
  rw [val_main_v160_apply, val_main_v159_apply]
  have eb : idx_main_v159 (idx_main_v160 (ValueIdx.ix2 r c)) = ValueIdx.ix1 c :=
    funext fun a => Fin.ext (by match a with | ⟨0, _⟩ => rfl)
  rw [eb]

/-- Layer 3's rectified result is the layer function of layer 2's result, its two propagated forms, the three slices of the third weight array and the third bias. -/
theorem relu3 (x0 : (⟨S50000x160, .f32⟩ : BufTy).Contents (Elt Ideal)) (x1 : (⟨S2x500000, .i32⟩ : BufTy).Contents (Elt Ideal)) (x2 : (⟨S500000, .f32⟩ : BufTy).Contents (Elt Ideal)) (x4 : (⟨S3x160x128, .f32⟩ : BufTy).Contents (Elt Ideal)) (x5 : (⟨S128, .f32⟩ : BufTy).Contents (Elt Ideal)) (x6 : (⟨S3x128x64, .f32⟩ : BufTy).Contents (Elt Ideal)) (x7 : (⟨S64, .f32⟩ : BufTy).Contents (Elt Ideal)) (x8 : (⟨S3x64x32, .f32⟩ : BufTy).Contents (Elt Ideal)) (x9 : (⟨S32, .f32⟩ : BufTy).Contents (Elt Ideal)) :
    val_main_v162 (F := Ideal) x0 x1 x2 x4 x5 x6 x7 x8 x9
      = Cert.Cheb.layer (N := 50000) (K := 64) (M := 32) (val_main_v118 (F := Ideal) x0 x1 x2 x4 x5 x6 x7) (val_main_v134 (F := Ideal) x0 x1 x2 x4 x5 x6 x7) (val_main_v151 (F := Ideal) x0 x1 x2 x4 x5 x6 x7)
          (val_main_v120 (F := Ideal) x8) (val_main_v136 (F := Ideal) x8) (val_main_v156 (F := Ideal) x8) x9 := by
  funext j
  obtain ⟨r, c, rfl⟩ : ∃ (r : Fin 50000) (c : Fin 32), j = ValueIdx.ix2 r c := ⟨j 0, j 1, ValueIdx.eq_ix2 j⟩
  rw [Cheb.layer_ix2]
  unfold Cheb.layerAt
  rw [val_main_v162_apply, val_main_v161_apply, val_main_v158_apply, val_main_v138_apply, layer3_prod0, layer3_prod1, layer3_prod2,
    layer3_bias, val_main_call4_v0_apply, val_main_call4_cst_apply, Ideal.maximumf_def, Ideal.addf_def, Ideal.addf_def,
    Ideal.addf_def, Ideal.ofBits_def]

end Cert.ReferenceIdeal.Layers

end
-- ==== Proof.WrittenTables.lean ====
/-
  Tables: the buffers each of the three later host stretches writes, in the printed program's order.
  A host operation writes exactly its own result buffer, so a stretch's list is the result buffers of its operations.
-/
import proofs.«143596_j22514218566432_2_alg».proof.KernelIdeal

-- tables for the kernel's evaluation only: no executable code is wanted for them
noncomputable section

namespace Cert.KernelIdeal.Carried

open Cert.KernelIdeal Idealize.ShloMosaic

/-- The 42 buffers the host stretch between the first and the second kernel region writes. -/
def written1 : List (Ref sig .tc) := [
    main_v68, main_c_13, main_v69, main_v70, main_c_14, main_v71, main_v72, main_v73,
    main_v74, main_v75, main_v76, main_v77, main_cst_15, main_v78, main_v79, main_v80,
    main_v81, main_c_16, main_v82, main_v83, main_c_17, main_v84, main_v85, main_v86,
    main_v87, main_v88, main_v89, main_v90, main_cst_18, main_v91, main_v92, main_v93,
    main_v94, main_v95, main_v96, main_v97, main_v98, main_v99, main_v100, main_v101,
    main_v102, main_v103 ]

/-- The 42 buffers the host stretch between the second and the third kernel region writes. -/
def written2 : List (Ref sig .tc) := [
    main_v105, main_c_19, main_v106, main_v107, main_c_20, main_v108, main_v109, main_v110,
    main_v111, main_v112, main_v113, main_v114, main_cst_21, main_v115, main_v116, main_v117,
    main_v118, main_c_22, main_v119, main_v120, main_c_23, main_v121, main_v122, main_v123,
    main_v124, main_v125, main_v126, main_v127, main_cst_24, main_v128, main_v129, main_v130,
    main_v131, main_v132, main_v133, main_v134, main_v135, main_v136, main_v137, main_v138,
    main_v139, main_v140 ]

/-- The 20 buffers the host stretch after the third kernel region writes. -/
def written3 : List (Ref sig .tc) := [
    main_cst_25, main_v142, main_v143, main_v144, main_cst_26, main_v145, main_cst_27, main_v146,
    main_v147, main_v148, main_cst_28, main_v149, main_v150, main_v151, main_v152, main_v153,
    main_v154, main_v155, main_v156, main_v157 ]

end Cert.KernelIdeal.Carried

end
-- ==== Proof.Carried.lean ====
/-
  The three host stretches that follow the first kernel region leave alone every buffer they do not write.

  A stretch of host operations changes exactly the result buffers of its operations (the tables `written1`,
  `written2`, `written3`). The edge endpoints, the edge weights and the argument arrays are in none of the tables, so
  they hold at every later boundary what they held when the first region was entered.
-/
import proofs.«143596_j22514218566432_2_alg».proof.Proof.Gen.KernelIdeal.Launch
import proofs.«143596_j22514218566432_2_alg».proof.Proof.WrittenTables
import Idealize.ShloMosaic.Lib.StableHlo.Run

set_option maxRecDepth 16384

noncomputable section

namespace Cert.KernelIdeal.Carried

open Cert.KernelIdeal Cert.KernelIdeal.Gen Idealize.ShloMosaic Idealize.ShloMosaic.TcCoe Idealize.SL.Sem

variable {F : FTy → Type} [FloatOps F]

/-! Each operation of a stretch writes one buffer of the stretch's table. -/

theorem writes1 : (hostOps1 : List (HloOp τ sig (Elt F))).Forall fun op =>
    op.writes ⊆ (written1.map (Proc.devRef (τ := τ) .tc)).toFinset := by
  simp only [hostOps1, List.Forall, StableHlo.nullary_writes, StableHlo.unary_writes, StableHlo.binary_writes,
    StableHlo.ternary_writes, StableHlo.reshape_writes, Finset.singleton_subset_iff, List.mem_toFinset]
  repeat' apply And.intro
  all_goals exact List.mem_map.mpr ⟨_, by decide, rfl⟩

/-- A buffer that is none of those holds after the stretch what it held before it. -/
theorem kept1 {r : Ref sig .tc} (hr : r ∉ written1) (V : Valuation τ sig (Elt F)) :
    StableHlo.after hostOps1 V (Proc.devRef .tc r) = V (Proc.devRef .tc r) :=
  StableHlo.after_of_writes_sub hostOps1 V writes1 hr

theorem writes2 : (hostOps2 : List (HloOp τ sig (Elt F))).Forall fun op =>
    op.writes ⊆ (written2.map (Proc.devRef (τ := τ) .tc)).toFinset := by
  simp only [hostOps2, List.Forall, StableHlo.nullary_writes, StableHlo.unary_writes, StableHlo.binary_writes,
    StableHlo.ternary_writes, StableHlo.reshape_writes, Finset.singleton_subset_iff, List.mem_toFinset]
  repeat' apply And.intro
  all_goals exact List.mem_map.mpr ⟨_, by decide, rfl⟩

/-- A buffer that is none of those holds after the stretch what it held before it. -/
theorem kept2 {r : Ref sig .tc} (hr : r ∉ written2) (V : Valuation τ sig (Elt F)) :
    StableHlo.after hostOps2 V (Proc.devRef .tc r) = V (Proc.devRef .tc r) :=
  StableHlo.after_of_writes_sub hostOps2 V writes2 hr

theorem writes3 : (hostOps3 : List (HloOp τ sig (Elt F))).Forall fun op =>
    op.writes ⊆ (written3.map (Proc.devRef (τ := τ) .tc)).toFinset := by
  simp only [hostOps3, List.Forall, StableHlo.nullary_writes, StableHlo.unary_writes, StableHlo.binary_writes,
    StableHlo.ternary_writes, StableHlo.reshape_writes, Finset.singleton_subset_iff, List.mem_toFinset]
  repeat' apply And.intro
  all_goals exact List.mem_map.mpr ⟨_, by decide, rfl⟩

/-- A buffer that is none of those holds after the stretch what it held before it. -/
theorem kept3 {r : Ref sig .tc} (hr : r ∉ written3) (V : Valuation τ sig (Elt F)) :
    StableHlo.after hostOps3 V (Proc.devRef .tc r) = V (Proc.devRef .tc r) :=
  StableHlo.after_of_writes_sub hostOps3 V writes3 hr

end Cert.KernelIdeal.Carried

end
-- ==== Proof.FoldLayer1.lean ====
/-
  The first layer: the first kernel region's output, and what the second region finds.

  The first region's output array is the layer function of the arrays the region found; those hold the reference's
  stages at the launch arguments, and the reference's first rectified stage is the same layer function of the same
  stages: the output holds the reference's first layer. The host stretch that follows propagates it once and twice
  along the same weighted edges and slices the second layer's weights, exactly as the reference does with its own
  first layer; the edge data it reads were written before the first region and are touched by nothing since.
-/
import proofs.«143596_j22514218566432_2_alg».proof.Proof.FoldEntry
import proofs.«143596_j22514218566432_2_alg».proof.Proof.RegionLayers
import proofs.«143596_j22514218566432_2_alg».proof.Proof.RefLayers
import proofs.«143596_j22514218566432_2_alg».proof.Proof.Carried

set_option maxRecDepth 16384

noncomputable section

namespace Cert.Fold

open Cert.KernelIdeal Cert.KernelIdeal.Gen Cert.KernelIdeal.Carried Cert.ReferenceIdeal.Read
open Idealize.ShloMosaic Idealize.ShloMosaic.TcCoe Idealize.SL.Sem Idealize.ShloMosaic.StableHlo Idealize.ShloMosaic.ValueIdx

variable (m : (ℓ : Loc nD τ sig) → Buf (Elt Ideal) ℓ) (ρ : Dev nD → PrngReg) (c : Dev nD)

/-! ## The first region's output -/

/-- After the first region its output array holds the reference's first layer. -/
theorem layer1_out : W6 m ρ c (Proc.devRef .tc main_v67) = val_main_v74 (F := Ideal) (m ((c : Thread nD τ).loc main_arg0)) (m ((c : Thread nD τ).loc main_arg1)) (m ((c : Thread nD τ).loc main_arg2)) (m ((c : Thread nD τ).loc main_arg4)) (m ((c : Thread nD τ).loc main_arg5)) := by
  refine (W6_arr m ρ c 7).trans ?_
  rw [Cert.KernelIdeal.RegionLayers.array0 (V5 m ρ) c, Cert.ReferenceIdeal.Layers.relu1]
  show Cert.Cheb.layer (N := 50000) (K := 160) (M := 128) (W5 m ρ c (Proc.devRef .tc main_arg0)) (W5 m ρ c (Proc.devRef .tc main_v43))
      (W5 m ρ c (Proc.devRef .tc main_v56)) (W5 m ρ c (Proc.devRef .tc main_v59)) (W5 m ρ c (Proc.devRef .tc main_v62))
      (W5 m ρ c (Proc.devRef .tc main_v65)) (fun i => W5 m ρ c (Proc.devRef .tc main_v66) (ix2 (0 : Fin 1) (i 0))) = _
  rw [entry_arg0, entry_once, entry_twice, entry_w0, entry_w1, entry_w2, entry_bias]

/-! ## Buffers the first region leaves alone -/

theorem after1_src : W6 m ρ c (Proc.devRef .tc main_v1) = val_main_v1 (F := Ideal) (m ((c : Thread nD τ).loc main_arg1)) :=
  (W6_of_ne m ρ c main_v1 (by decide)).trans (entry_src m ρ c)
theorem after1_dst : W6 m ρ c (Proc.devRef .tc main_v3) = val_main_v3 (F := Ideal) (m ((c : Thread nD τ).loc main_arg1)) :=
  (W6_of_ne m ρ c main_v3 (by decide)).trans (entry_dst m ρ c)
theorem after1_weight : W6 m ρ c (Proc.devRef .tc main_v30) = val_main_v30 (F := Ideal) (m ((c : Thread nD τ).loc main_arg1)) (m ((c : Thread nD τ).loc main_arg2)) :=
  (W6_of_ne m ρ c main_v30 (by decide)).trans (entry_weight m ρ c)
theorem after1_arg3 : W6 m ρ c (Proc.devRef .tc main_arg3) = m ((c : Thread nD τ).loc main_arg3) :=
  (W6_of_ne m ρ c main_arg3 (by decide)).trans (entry_arg3 m ρ c)
theorem after1_arg6 : W6 m ρ c (Proc.devRef .tc main_arg6) = m ((c : Thread nD τ).loc main_arg6) :=
  (W6_of_ne m ρ c main_arg6 (by decide)).trans (entry_arg6 m ρ c)
theorem after1_arg7 : W6 m ρ c (Proc.devRef .tc main_arg7) = m ((c : Thread nD τ).loc main_arg7) :=
  (W6_of_ne m ρ c main_arg7 (by decide)).trans (entry_arg7 m ρ c)
theorem after1_arg8 : W6 m ρ c (Proc.devRef .tc main_arg8) = m ((c : Thread nD τ).loc main_arg8) :=
  (W6_of_ne m ρ c main_arg8 (by decide)).trans (entry_arg8 m ρ c)
theorem after1_arg9 : W6 m ρ c (Proc.devRef .tc main_arg9) = m ((c : Thread nD τ).loc main_arg9) :=
  (W6_of_ne m ρ c main_arg9 (by decide)).trans (entry_arg9 m ρ c)
theorem after1_arg10 : W6 m ρ c (Proc.devRef .tc main_arg10) = m ((c : Thread nD τ).loc main_arg10) :=
  (W6_of_ne m ρ c main_arg10 (by decide)).trans (entry_arg10 m ρ c)
theorem after1_arg11 : W6 m ρ c (Proc.devRef .tc main_arg11) = m ((c : Thread nD τ).loc main_arg11) :=
  (W6_of_ne m ρ c main_arg11 (by decide)).trans (entry_arg11 m ρ c)

/-! ## What the second region finds -/

/-- The first layer itself: the stretch does not write it. -/
theorem entry2_input : W7 m ρ c (Proc.devRef .tc main_v67) = val_main_v74 (F := Ideal) (m ((c : Thread nD τ).loc main_arg0)) (m ((c : Thread nD τ).loc main_arg1)) (m ((c : Thread nD τ).loc main_arg2)) (m ((c : Thread nD τ).loc main_arg4)) (m ((c : Thread nD τ).loc main_arg5)) :=
  (kept1 (by decide) _).trans (layer1_out m ρ c)
/-- The first layer propagated once along the edges. -/
theorem entry2_once : W7 m ρ c (Proc.devRef .tc main_v80) = val_main_v90 (F := Ideal) (m ((c : Thread nD τ).loc main_arg0)) (m ((c : Thread nD τ).loc main_arg1)) (m ((c : Thread nD τ).loc main_arg2)) (m ((c : Thread nD τ).loc main_arg4)) (m ((c : Thread nD τ).loc main_arg5)) := by
  dsimp only [W7, hostOps1]
  after_results_simp
  rw [layer1_out m ρ c, after1_src m ρ c, after1_dst m ρ c, after1_weight m ρ c]
  rfl
/-- The first layer propagated twice. -/
theorem entry2_twice : W7 m ρ c (Proc.devRef .tc main_v93) = val_main_v107 (F := Ideal) (m ((c : Thread nD τ).loc main_arg0)) (m ((c : Thread nD τ).loc main_arg1)) (m ((c : Thread nD τ).loc main_arg2)) (m ((c : Thread nD τ).loc main_arg4)) (m ((c : Thread nD τ).loc main_arg5)) := by
  dsimp only [W7, hostOps1]
  after_results_simp
  rw [layer1_out m ρ c, after1_src m ρ c, after1_dst m ρ c, after1_weight m ρ c]
  rfl
/-- The second layer's three weight slices. -/
theorem entry2_w0 : W7 m ρ c (Proc.devRef .tc main_v96) = val_main_v76 (F := Ideal) (m ((c : Thread nD τ).loc main_arg6)) := by
  dsimp only [W7, hostOps1]
  after_results_simp
  rw [after1_arg6 m ρ c]
  rfl
theorem entry2_w1 : W7 m ρ c (Proc.devRef .tc main_v99) = val_main_v92 (F := Ideal) (m ((c : Thread nD τ).loc main_arg6)) := by
  dsimp only [W7, hostOps1]
  after_results_simp
  rw [after1_arg6 m ρ c]
  rfl
theorem entry2_w2 : W7 m ρ c (Proc.devRef .tc main_v102) = val_main_v112 (F := Ideal) (m ((c : Thread nD τ).loc main_arg6)) := by
  dsimp only [W7, hostOps1]
  after_results_simp
  rw [after1_arg6 m ρ c]
  rfl
/-- The second layer's bias as a one-row matrix. -/
theorem entry2_bias : (fun i : (⟨1, ![64]⟩ : Shape).Idx => W7 m ρ c (Proc.devRef .tc main_v103) (ix2 (0 : Fin 1) (i 0)))
    = m ((c : Thread nD τ).loc main_arg7) := by
  have e : W7 m ρ c (Proc.devRef .tc main_v103)
      = shapeCast S1x64 (m ((c : Thread nD τ).loc main_arg7)) shapeCasts_S64_S1x64 := by
    dsimp only [W7, hostOps1]
    after_results_simp
    rw [after1_arg7 m ρ c]
    rfl
  funext i
  rw [e]
  exact (shapeCast_a_1a_apply (m ((c : Thread nD τ).loc main_arg7)) shapeCasts_S64_S1x64 0 (i 0)).trans
    (congrArg (m ((c : Thread nD τ).loc main_arg7)) (eq_ix1 i).symm)

/-! ## Buffers the stretch leaves alone -/

theorem entry2_src : W7 m ρ c (Proc.devRef .tc main_v1) = val_main_v1 (F := Ideal) (m ((c : Thread nD τ).loc main_arg1)) :=
  (kept1 (by decide) _).trans (after1_src m ρ c)
theorem entry2_dst : W7 m ρ c (Proc.devRef .tc main_v3) = val_main_v3 (F := Ideal) (m ((c : Thread nD τ).loc main_arg1)) :=
  (kept1 (by decide) _).trans (after1_dst m ρ c)
theorem entry2_weight : W7 m ρ c (Proc.devRef .tc main_v30) = val_main_v30 (F := Ideal) (m ((c : Thread nD τ).loc main_arg1)) (m ((c : Thread nD τ).loc main_arg2)) :=
  (kept1 (by decide) _).trans (after1_weight m ρ c)
theorem entry2_arg3 : W7 m ρ c (Proc.devRef .tc main_arg3) = m ((c : Thread nD τ).loc main_arg3) :=
  (kept1 (by decide) _).trans (after1_arg3 m ρ c)
theorem entry2_arg8 : W7 m ρ c (Proc.devRef .tc main_arg8) = m ((c : Thread nD τ).loc main_arg8) :=
  (kept1 (by decide) _).trans (after1_arg8 m ρ c)
theorem entry2_arg9 : W7 m ρ c (Proc.devRef .tc main_arg9) = m ((c : Thread nD τ).loc main_arg9) :=
  (kept1 (by decide) _).trans (after1_arg9 m ρ c)
theorem entry2_arg10 : W7 m ρ c (Proc.devRef .tc main_arg10) = m ((c : Thread nD τ).loc main_arg10) :=
  (kept1 (by decide) _).trans (after1_arg10 m ρ c)
theorem entry2_arg11 : W7 m ρ c (Proc.devRef .tc main_arg11) = m ((c : Thread nD τ).loc main_arg11) :=
  (kept1 (by decide) _).trans (after1_arg11 m ρ c)

end Cert.Fold

end
-- ==== Proof.FoldLayer2.lean ====
/-
  The second layer: the second kernel region's output, and what the third region finds.

  The same three steps as for the first layer, one layer on: the region's output is the layer function of what it
  found, which holds the reference's stages, so the output holds the reference's second layer; the following host
  stretch propagates it along the same edges and slices the third layer's weights as the reference does.
-/
import proofs.«143596_j22514218566432_2_alg».proof.Proof.FoldLayer1

set_option maxRecDepth 16384

noncomputable section

namespace Cert.Fold

open Cert.KernelIdeal Cert.KernelIdeal.Gen Cert.KernelIdeal.Carried Cert.ReferenceIdeal.Read
open Idealize.ShloMosaic Idealize.ShloMosaic.TcCoe Idealize.SL.Sem Idealize.ShloMosaic.StableHlo Idealize.ShloMosaic.ValueIdx

variable (m : (ℓ : Loc nD τ sig) → Buf (Elt Ideal) ℓ) (ρ : Dev nD → PrngReg) (c : Dev nD)

/-! ## The second region's output -/

/-- After the second region its output array holds the reference's second layer. -/
theorem layer2_out : W8 m ρ c (Proc.devRef .tc main_v104) = val_main_v118 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) := by
  refine (W8_arr m ρ c 7).trans ?_
  rw [Cert.KernelIdeal.RegionLayers.array1 (V7 m ρ) c, Cert.ReferenceIdeal.Layers.relu2]
  show Cert.Cheb.layer (N := 50000) (K := 128) (M := 64) (W7 m ρ c (Proc.devRef .tc main_v67)) (W7 m ρ c (Proc.devRef .tc main_v80))
      (W7 m ρ c (Proc.devRef .tc main_v93)) (W7 m ρ c (Proc.devRef .tc main_v96)) (W7 m ρ c (Proc.devRef .tc main_v99))
      (W7 m ρ c (Proc.devRef .tc main_v102)) (fun i => W7 m ρ c (Proc.devRef .tc main_v103) (ix2 (0 : Fin 1) (i 0))) = _
  rw [entry2_input, entry2_once, entry2_twice, entry2_w0, entry2_w1, entry2_w2, entry2_bias]

/-! ## Buffers the second region leaves alone -/

theorem after2_src : W8 m ρ c (Proc.devRef .tc main_v1) = val_main_v1 (F := Ideal) (m ((c : Thread nD τ).loc main_arg1)) :=
  (W8_of_ne m ρ c main_v1 (by decide)).trans (entry2_src m ρ c)
theorem after2_dst : W8 m ρ c (Proc.devRef .tc main_v3) = val_main_v3 (F := Ideal) (m ((c : Thread nD τ).loc main_arg1)) :=
  (W8_of_ne m ρ c main_v3 (by decide)).trans (entry2_dst m ρ c)
theorem after2_weight : W8 m ρ c (Proc.devRef .tc main_v30) = val_main_v30 (F := Ideal) (m ((c : Thread nD τ).loc main_arg1)) (m ((c : Thread nD τ).loc main_arg2)) :=
  (W8_of_ne m ρ c main_v30 (by decide)).trans (entry2_weight m ρ c)
theorem after2_arg3 : W8 m ρ c (Proc.devRef .tc main_arg3) = m ((c : Thread nD τ).loc main_arg3) :=
  (W8_of_ne m ρ c main_arg3 (by decide)).trans (entry2_arg3 m ρ c)
theorem after2_arg8 : W8 m ρ c (Proc.devRef .tc main_arg8) = m ((c : Thread nD τ).loc main_arg8) :=
  (W8_of_ne m ρ c main_arg8 (by decide)).trans (entry2_arg8 m ρ c)
theorem after2_arg9 : W8 m ρ c (Proc.devRef .tc main_arg9) = m ((c : Thread nD τ).loc main_arg9) :=
  (W8_of_ne m ρ c main_arg9 (by decide)).trans (entry2_arg9 m ρ c)
theorem after2_arg10 : W8 m ρ c (Proc.devRef .tc main_arg10) = m ((c : Thread nD τ).loc main_arg10) :=
  (W8_of_ne m ρ c main_arg10 (by decide)).trans (entry2_arg10 m ρ c)
theorem after2_arg11 : W8 m ρ c (Proc.devRef .tc main_arg11) = m ((c : Thread nD τ).loc main_arg11) :=
  (W8_of_ne m ρ c main_arg11 (by decide)).trans (entry2_arg11 m ρ c)

/-! ## What the third region finds -/

/-- The second layer itself: the stretch does not write it. -/
theorem entry3_input : W9 m ρ c (Proc.devRef .tc main_v104) = val_main_v118 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) :=
  (kept2 (by decide) _).trans (layer2_out m ρ c)
/-- The second layer propagated once along the edges. -/
theorem entry3_once : W9 m ρ c (Proc.devRef .tc main_v117) = val_main_v134 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) := by
  dsimp only [W9, hostOps2]
  after_results_simp
  rw [layer2_out m ρ c, after2_src m ρ c, after2_dst m ρ c, after2_weight m ρ c]
  rfl
/-- The second layer propagated twice. -/
theorem entry3_twice : W9 m ρ c (Proc.devRef .tc main_v130) = val_main_v151 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) := by
  dsimp only [W9, hostOps2]
  after_results_simp
  rw [layer2_out m ρ c, after2_src m ρ c, after2_dst m ρ c, after2_weight m ρ c]
  rfl
/-- The third layer's three weight slices. -/
theorem entry3_w0 : W9 m ρ c (Proc.devRef .tc main_v133) = val_main_v120 (F := Ideal) (m ((c : Thread nD τ).loc main_arg8)) := by
  dsimp only [W9, hostOps2]
  after_results_simp
  rw [after2_arg8 m ρ c]
  rfl
theorem entry3_w1 : W9 m ρ c (Proc.devRef .tc main_v136) = val_main_v136 (F := Ideal) (m ((c : Thread nD τ).loc main_arg8)) := by
  dsimp only [W9, hostOps2]
  after_results_simp
  rw [after2_arg8 m ρ c]
  rfl
theorem entry3_w2 : W9 m ρ c (Proc.devRef .tc main_v139) = val_main_v156 (F := Ideal) (m ((c : Thread nD τ).loc main_arg8)) := by
  dsimp only [W9, hostOps2]
  after_results_simp
  rw [after2_arg8 m ρ c]
  rfl
/-- The third layer's bias as a one-row matrix. -/
theorem entry3_bias : (fun i : (⟨1, ![32]⟩ : Shape).Idx => W9 m ρ c (Proc.devRef .tc main_v140) (ix2 (0 : Fin 1) (i 0)))
    = m ((c : Thread nD τ).loc main_arg9) := by
  have e : W9 m ρ c (Proc.devRef .tc main_v140)
      = shapeCast S1x32 (m ((c : Thread nD τ).loc main_arg9)) shapeCasts_S32_S1x32 := by
    dsimp only [W9, hostOps2]
    after_results_simp
    rw [after2_arg9 m ρ c]
    rfl
  funext i
  rw [e]
  exact (shapeCast_a_1a_apply (m ((c : Thread nD τ).loc main_arg9)) shapeCasts_S32_S1x32 0 (i 0)).trans
    (congrArg (m ((c : Thread nD τ).loc main_arg9)) (eq_ix1 i).symm)

/-! ## Buffers the stretch leaves alone -/

theorem entry3_arg3 : W9 m ρ c (Proc.devRef .tc main_arg3) = m ((c : Thread nD τ).loc main_arg3) :=
  (kept2 (by decide) _).trans (after2_arg3 m ρ c)
theorem entry3_arg10 : W9 m ρ c (Proc.devRef .tc main_arg10) = m ((c : Thread nD τ).loc main_arg10) :=
  (kept2 (by decide) _).trans (after2_arg10 m ρ c)
theorem entry3_arg11 : W9 m ρ c (Proc.devRef .tc main_arg11) = m ((c : Thread nD τ).loc main_arg11) :=
  (kept2 (by decide) _).trans (after2_arg11 m ρ c)

end Cert.Fold

end
-- ==== Proof.FoldLayer3.lean ====
/-
  The third layer and the pooling head: the kernel program's result is the reference's.

  The third region's output holds the reference's third layer, as for the first two. The host operations that follow
  are the reference's own last operations: the mean of each graph's node features (the features scatter-added by graph
  id, divided by each graph's node count, the count kept at least one), a linear head and its bias. They read the third
  layer, the graph ids and the head's weights, all of which hold what the reference reads: the result buffer holds the
  reference's result at the launch arguments.
-/
import proofs.«143596_j22514218566432_2_alg».proof.Proof.FoldLayer2

set_option maxRecDepth 16384

noncomputable section

namespace Cert.Fold

open Cert.KernelIdeal Cert.KernelIdeal.Gen Cert.KernelIdeal.Carried Cert.ReferenceIdeal.Read
open Idealize.ShloMosaic Idealize.ShloMosaic.TcCoe Idealize.SL.Sem Idealize.ShloMosaic.StableHlo Idealize.ShloMosaic.ValueIdx

variable (m : (ℓ : Loc nD τ sig) → Buf (Elt Ideal) ℓ) (ρ : Dev nD → PrngReg) (c : Dev nD)

/-- After the third region its output array holds the reference's third layer. -/
theorem layer3_out : W10 m ρ c (Proc.devRef .tc main_v141) = val_main_v162 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  refine (W10_arr m ρ c 7).trans ?_
  rw [Cert.KernelIdeal.RegionLayers.array2 (V9 m ρ) c, Cert.ReferenceIdeal.Layers.relu3]
  show Cert.Cheb.layer (N := 50000) (K := 64) (M := 32) (W9 m ρ c (Proc.devRef .tc main_v104)) (W9 m ρ c (Proc.devRef .tc main_v117))
      (W9 m ρ c (Proc.devRef .tc main_v130)) (W9 m ρ c (Proc.devRef .tc main_v133)) (W9 m ρ c (Proc.devRef .tc main_v136))
      (W9 m ρ c (Proc.devRef .tc main_v139)) (fun i => W9 m ρ c (Proc.devRef .tc main_v140) (ix2 (0 : Fin 1) (i 0))) = _
  rw [entry3_input, entry3_once, entry3_twice, entry3_w0, entry3_w1, entry3_w2, entry3_bias]

theorem after3_arg3 : W10 m ρ c (Proc.devRef .tc main_arg3) = m ((c : Thread nD τ).loc main_arg3) :=
  (W10_of_ne m ρ c main_arg3 (by decide)).trans (entry3_arg3 m ρ c)
theorem after3_arg10 : W10 m ρ c (Proc.devRef .tc main_arg10) = m ((c : Thread nD τ).loc main_arg10) :=
  (W10_of_ne m ρ c main_arg10 (by decide)).trans (entry3_arg10 m ρ c)
theorem after3_arg11 : W10 m ρ c (Proc.devRef .tc main_arg11) = m ((c : Thread nD τ).loc main_arg11) :=
  (W10_of_ne m ρ c main_arg11 (by decide)).trans (entry3_arg11 m ρ c)

/-- The result buffer at the last boundary holds the reference's result at the launch arguments. -/
theorem result_is_reference : W11 m ρ c (Proc.devRef .tc main_v157) = val_main_v178 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  dsimp only [W11, hostOps3]
  after_results_simp
  rw [layer3_out m ρ c, after3_arg3 m ρ c, after3_arg10 m ρ c, after3_arg11 m ρ c]
  rfl

end Cert.Fold

end
-- ==== Proof.lean ====
/-
  A three-layer Chebyshev graph convolution with a mean-pool head: the tiled kernel program and the plain reference
  compute the same extended reals.

  Both programs normalize the edge attributes by the node degrees, and in each of three layers propagate the node
  features once and twice along the weighted edges and form

      max ( ((t0·W0 + t1·W1) + (2·p2 − t0)·W2) + b , 0 ),

  the reference with whole-array matrix products on the host, the kernel program inside a kernel region that handles
  the 50000 rows in ten blocks of 5000, its operands narrowed to half precision. Over the extended reals the narrowing
  is the identity, a matrix unit's product into a zero accumulator is the plain sum over the contracted index, and
  each row of the layer depends on the same row of its three feature arrays only; the three products are added in the
  same order and the bias last in both programs, so no law of arithmetic beyond these readings is needed and the
  finiteness of the inputs is never used. Everything outside the three layers — the normalization, the six
  propagations, the pooling and the linear head — is the same sequence of host operations in both programs, applied to
  equal values, and is carried through unopened.

  The modules: `ChebLayer` (the layer as a function of whole arrays), `RegionLayers` (each kernel region's output
  array is that function of what the region found), `RefLayers` (each rectified stage of the reference is that function
  of the earlier stages), `RunResult` (the kernel program's run, with the result buffer at the last boundary's
  contents), `WrittenTables` and `Carried` (what the later host stretches leave alone), `FoldEntry`, `FoldLayer1`,
  `FoldLayer2`, `FoldLayer3` (boundary by boundary, the kernel program's buffers hold the reference's stages).
-/
import proofs.«143596_j22514218566432_2_alg».proof.Defs
import proofs.«143596_j22514218566432_2_alg».proof.Proof.Gen.Kernel
import proofs.«143596_j22514218566432_2_alg».proof.Proof.Gen.Kernel.Frame
import proofs.«143596_j22514218566432_2_alg».proof.Proof.Gen.KernelIdeal
import proofs.«143596_j22514218566432_2_alg».proof.Proof.Gen.KernelIdeal.Frame
import proofs.«143596_j22514218566432_2_alg».proof.Proof.Gen.ReferenceIdeal
import proofs.«143596_j22514218566432_2_alg».proof.Proof.Gen.ReferenceIdeal.Run
import proofs.«143596_j22514218566432_2_alg».proof.Proof.Gen.ReferenceIdeal.Read
import proofs.«143596_j22514218566432_2_alg».proof.Proof.Gen.Pre_finite_inputs
import proofs.«143596_j22514218566432_2_alg».proof.Proof.RunResult
import proofs.«143596_j22514218566432_2_alg».proof.Proof.FoldLayer3
import Idealize.ShloMosaic.Adequacy
import Idealize.ShloMosaic.Init

noncomputable section

namespace Cert.Proof

open Idealize.ShloMosaic Idealize.ShloMosaic.TcCoe Idealize.SL.Sem

/-- The word-level kernel program runs and leaves its arguments as launched. -/
theorem frame_kernel [Cert.Kernel.Facts] [Cert.Pre_finite_inputs.Facts] : Cert.frame_Kernel :=
  fun m ρ _ => Cert.Kernel.Gen.frame m ρ

/-- So does the idealized kernel program. -/
theorem frame_kernel_ideal [Cert.KernelIdeal.Facts] [Cert.Pre_finite_inputs.Facts] : Cert.frame_KernelIdeal :=
  fun m ρ _ => Cert.KernelIdeal.Gen.frame m ρ

/-- The reference is host operations only: its run with the result forgotten. -/
theorem frame_reference [Cert.ReferenceIdeal.Facts] [Cert.Pre_finite_inputs.Facts] : Cert.frame_ReferenceIdeal :=
  fun m ρ _ => (θ_run Cert.ReferenceIdeal.defs _ _).mono (fun _ h c => (h c).2)
    (Cert.ReferenceIdeal.Value.run (F := Ideal) m ρ)

/-- From memories that agree on the twelve arguments both programs end with the same result: the kernel program's
    result buffer holds the reference's result function of ITS arguments, the reference's holds that function of its
    own, and the arguments agree. -/
theorem same_result [Cert.KernelIdeal.Facts] [Cert.ReferenceIdeal.Facts] [Cert.Pre_finite_inputs.Facts] :
    Cert.algebraic_KernelIdeal_ReferenceIdeal := by
  intro m ρ m' ρ' _ hagree
  refine ⟨fun c => Cert.KernelIdeal.Gen.W11 m ρ c (Proc.devRef .tc Cert.KernelIdeal.main_v157),
    Cert.KernelIdeal.Run.result_at_last_boundary (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v178_eq]
  show _ = Cert.KernelIdeal.Gen.W11 m ρ c (Proc.devRef .tc Cert.KernelIdeal.main_v157)
  rw [Cert.Fold.result_is_reference m ρ c,
    (hagree c).1, (hagree c).2.1, (hagree c).2.2.1, (hagree c).2.2.2.1, (hagree c).2.2.2.2.1, (hagree c).2.2.2.2.2.1,
    (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, same_result⟩

end Cert.Proof

end
